-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S64x512 : Shape := ⟨2, ![64, 512]⟩
abbrev S512x64 : Shape := ⟨2, ![512, 64]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S16x256x128x128 .f32) (main_arg1 : FVec F S16x256x128x128 .f32) (main_arg2 : FVec F S64x512 .f32) (main_arg3 : FVec F S512x64 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256x128x128 .f32 := Host.absf main_arg1
  let main_cst_0 : FVec F S_ .f32 := constant S_ .f32 0x7F800000#32
  let main_v5 : FVec F S16x256x128x128 .f32 := broadcastInDim S16x256x128x128 ![] bcast_S_S16x256x128x128 main_cst_0
  let main_v6 : IVec S16x256x128x128 1 := cmpf .olt main_v4 main_v5
  let main_c_1 : IVec S_ 1 := constantI S_ 1 1#1
  let main_v7 : IVec S_ 1 := (fun x v => Host.reduce IntOp.andi x v reducesTo_S16x256x128x128_S_d0_1_2_3 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S16x256x128x128 : Shape := ⟨4, ![16, 256, 128, 128]⟩
abbrev S64x512 : Shape := ⟨2, ![64, 512]⟩
abbrev S512x64 : Shape := ⟨2, ![512, 64]⟩
abbrev S256x16 : Shape := ⟨2, ![256, 16]⟩
abbrev S16x8x128x128 : Shape := ⟨4, ![16, 8, 128, 128]⟩
abbrev S16x8x128 : Shape := ⟨3, ![16, 8, 128]⟩
abbrev S16x8 : Shape := ⟨2, ![16, 8]⟩
abbrev S8x16 : Shape := ⟨2, ![8, 16]⟩
abbrev S512x16 : Shape := ⟨2, ![512, 16]⟩
abbrev S64x16 : Shape := ⟨2, ![64, 16]⟩
abbrev S16x8x1x1 : Shape := ⟨4, ![16, 8, 1, 1]⟩

abbrev nBuf : Space → Nat
  | .hbm => 11
  | .vmem => 18
  | .smem => 0
  | _ => 0

abbrev bufTy : (tb : Table) → Fin (tcTables nBuf tb) → BufTy
  | .hbm, ⟨0, _⟩ => ⟨S16x256x128x128, .f32⟩
  | .hbm, ⟨1, _⟩ => ⟨S16x256x128x128, .f32⟩
  | .hbm, ⟨2, _⟩ => ⟨S64x512, .f32⟩
  | .hbm, ⟨3, _⟩ => ⟨S512x64, .f32⟩
  | .hbm, ⟨4, _⟩ => ⟨S256x16, .f32⟩
  | .hbm, ⟨5, _⟩ => ⟨S256x16, .f32⟩
  | .hbm, ⟨6, _⟩ => ⟨S512x16, .f32⟩
  | .hbm, ⟨7, _⟩ => ⟨S512x16, .f32⟩
  | .hbm, ⟨8, _⟩ => ⟨S256x16, .f32⟩
  | .hbm, ⟨9, _⟩ => ⟨S256x16, .f32⟩
  | .hbm, ⟨10, _⟩ => ⟨S16x256x128x128, .f32⟩
  | .local _ .vmem, ⟨0, _⟩ => ⟨S16x8x128x128, .f32⟩
  | .local _ .vmem, ⟨1, _⟩ => ⟨S16x8x128x128, .f32⟩
  | .local _ .vmem, ⟨2, _⟩ => ⟨S16x8x128x128, .f32⟩
  | .local _ .vmem, ⟨3, _⟩ => ⟨S16x8x128x128, .f32⟩
  | .local _ .vmem, ⟨4, _⟩ => ⟨S256x16, .f32⟩
  | .local _ .vmem, ⟨5, _⟩ => ⟨S256x16, .f32⟩
  | .local _ .vmem, ⟨6, _⟩ => ⟨S512x16, .f32⟩
  | .local _ .vmem, ⟨7, _⟩ => ⟨S64x512, .f32⟩
  | .local _ .vmem, ⟨8, _⟩ => ⟨S512x64, .f32⟩
  | .local _ .vmem, ⟨9, _⟩ => ⟨S512x16, .f32⟩
  | .local _ .vmem, ⟨10, _⟩ => ⟨S16x8x128x128, .f32⟩
  | .local _ .vmem, ⟨11, _⟩ => ⟨S16x8x128x128, .f32⟩
  | .local _ .vmem, ⟨12, _⟩ => ⟨S16x8x128x128, .f32⟩
  | .local _ .vmem, ⟨13, _⟩ => ⟨S16x8x128x128, .f32⟩
  | .local _ .vmem, ⟨14, _⟩ => ⟨S256x16, .f32⟩
  | .local _ .vmem, ⟨15, _⟩ => ⟨S256x16, .f32⟩
  | .local _ .vmem, ⟨16, _⟩ => ⟨S16x8x128x128, .f32⟩
  | .local _ .vmem, ⟨17, _⟩ => ⟨S16x8x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let v0 : BitVec 32 := Scalar.muli arg0 c8_i32
  v0
def k0_off1 (i : grid0.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v13 : Index := Scalar.indexCast v1
  let c0_12 : Index := 0#32
  ![v13.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def k2_mult1 (i : grid2.Coords) : BitVec 32 :=
  let arg0 : BitVec 32 := BitVec.ofNat 32 (i 0).val
  let c8_i32 : BitVec 32 := 8#32
  let v0 : BitVec 32 := Scalar.muli arg0 c8_i32
  v0
def k2_off1 (i : grid2.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v2 : Index := Scalar.indexCast v1
  let c0 : Index := 0#32
  ![v2.toNat, 0]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S16x8x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x8x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16x8x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S16x8x128x128_S16x8x128x128_0_0_0_0 : ∀ a, (![0, 0, 0, 0] : Fin 4 → Nat) a + S16x8x128x128.size a ≤ S16x8x128x128.size a
  h_S16x8x128x128 : 0 < S16x8x128x128.numel
  reduces_S16x8x128x128_S16x8x128 : S16x8x128x128.Reduces [3] S16x8x128
  reduces_S16x8x128_S16x8 : S16x8x128.Reduces [2] S16x8
  transposes_S16x8_p1_0_S8x16 : S16x8.Transposes [1, 0] S8x16
  h_S8x16 : 0 < S8x16.numel
  concatenates_S256x16_S256x16_S512x16_d0 : Shape.Concatenates [S256x16, S256x16] S512x16 0
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S64x512_S64x512_0_0 : ∀ a, (![0, 0] : Fin 2 → Nat) a + S64x512.size a ≤ S64x512.size a
  h_S64x512 : 0 < S64x512.numel
  inb_S512x64_S512x64_0_0 : ∀ a, (![0, 0] : Fin 2 → Nat) a + S512x64.size a ≤ S512x64.size a
  h_S512x64 : 0 < S512x64.numel
  slices_S512x16_S256x16_0_0 : S512x16.Slices ![0, 0] S256x16
  slices_S512x16_S256x16_256_0 : S512x16.Slices ![256, 0] S256x16
  shapeCasts_S8x16_S8x16 : S8x16.ShapeCasts S8x16
  transposes_S8x16_p1_0_S16x8 : S8x16.Transposes [1, 0] S16x8
  shapeCasts_S16x8_S16x8x1x1 : S16x8.ShapeCasts S16x8x1x1
  broadcasts_S16x8x1x1_S16x8x128x128 : S16x8x1x1.Broadcasts S16x8x128x128
  dot_S64x512_S512x16_S64x16_1_0_0_1_n_n_wf : DotDims.WF S64x512 S512x16 S64x16 [1] [0] [0] [1] [] []
  dot_S512x64_S64x16_S512x16_1_0_0_1_n_n_wf : DotDims.WF S512x64 S64x16 S512x16 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x16.size a ≤ S256x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x128x128.size a ≤ S16x256x128x128.size a
  hwx0_0 : ∀ i : grid0.Coords, EltTy.bits .f32 = 32 ∨ (Rect.block (s := S16x256x128x128) S16x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x128x128.size a ≤ S16x256x128x128.size a
  hwx0_1 : ∀ i : grid0.Coords, EltTy.bits .f32 = 32 ∨ (Rect.block (s := S16x256x128x128) S16x8x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x16.size a ≤ S512x16.size a
  hwx1_0 : ∀ i : grid1.Coords, EltTy.bits .f32 = 32 ∨ (Rect.block (s := S512x16) S512x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .f32 = 32 ∨ (Rect.block (s := S512x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x16.size a ≤ S512x16.size a
  hwx1_3 : ∀ i : grid1.Coords, EltTy.bits .f32 = 32 ∨ (Rect.block (s := S512x16) S512x16.size (cc1_transform_3 i) (hinb1_3 i)).WholeWords (EltTy.packing .f32)
  hrank2 : 0 < grid2.rank
  k2_mult1_dvd : ∀ i : grid2.Coords, 8 ∣ (k2_mult1 i).toNat
  k2_off1_inb : ∀ i : grid2.Coords, ∀ a, (k2_off1 i) a + S8x16.size a ≤ S256x16.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x8x128x128.size a ≤ S16x256x128x128.size a
  hwx2_0 : ∀ i : grid2.Coords, EltTy.bits .f32 = 32 ∨ (Rect.block (s := S16x256x128x128) S16x8x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x8x128x128.size a ≤ S16x256x128x128.size a
  hwx2_1 : ∀ i : grid2.Coords, EltTy.bits .f32 = 32 ∨ (Rect.block (s := S16x256x128x128) S16x8x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x16.size a ≤ S256x16.size a
  hwx2_2 : ∀ i : grid2.Coords, EltTy.bits .f32 = 32 ∨ (Rect.block (s := S256x16) S256x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x16.size a ≤ S256x16.size a
  hwx2_3 : ∀ i : grid2.Coords, EltTy.bits .f32 = 32 ∨ (Rect.block (s := S256x16) S256x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x8x128x128.size a ≤ S16x256x128x128.size a
  hwx2_4 : ∀ i : grid2.Coords, EltTy.bits .f32 = 32 ∨ (Rect.block (s := S16x256x128x128) S16x8x128x128.size (cc2_transform_4 i) (hinb2_4 i)).WholeWords (EltTy.packing .f32)

variable [Facts₀]

def dot_S64x512_S512x16_S64x16_1_0_0_1_n_n : DotDims S64x512 S512x16 S64x16 where
  lhsContracting := [1]
  rhsContracting := [0]
  lhsNonContracting := [0]
  rhsNonContracting := [1]
  lhsBatch := []
  rhsBatch := []
  wf := dot_S64x512_S512x16_S64x16_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

abbrev win0_0 : Pipeline.Window sig grid0 :=
  Pipeline.Window.ofSpec (Memref.whole main_arg0) S16x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x16.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x16.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S16x8x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S16x8x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S16x8x128x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16x256x128x128 : Shape := ⟨4, ![16, 256, 128, 128]⟩
abbrev S64x512 : Shape := ⟨2, ![64, 512]⟩
abbrev S512x64 : Shape := ⟨2, ![512, 64]⟩
abbrev S_ : Shape := ⟨0, ![]⟩
abbrev S16x256 : Shape := ⟨2, ![16, 256]⟩
abbrev S16x512 : Shape := ⟨2, ![16, 512]⟩
abbrev S16x64 : Shape := ⟨2, ![16, 64]⟩
abbrev S16x256x1x1 : Shape := ⟨4, ![16, 256, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256x128x128, .f32⟩
  | .hbm, ⟨2, _⟩ => ⟨S64x512, .f32⟩
  | .hbm, ⟨3, _⟩ => ⟨S512x64, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x512, .f32⟩
  | .hbm, ⟨15, _⟩ => ⟨S16x64, .f32⟩
  | .hbm, ⟨16, _⟩ => ⟨S_, .f32⟩
  | .hbm, ⟨17, _⟩ => ⟨S16x64, .f32⟩
  | .hbm, ⟨18, _⟩ => ⟨S16x64, .f32⟩
  | .hbm, ⟨19, _⟩ => ⟨S16x512, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S_, .f32⟩
  | .hbm, ⟨26, _⟩ => ⟨S16x512, .f32⟩
  | .hbm, ⟨27, _⟩ => ⟨S16x512, .f32⟩
  | .hbm, ⟨28, _⟩ => ⟨S16x256, .f32⟩
  | .hbm, ⟨29, _⟩ => ⟨S16x256x1x1, .f32⟩
  | .hbm, ⟨30, _⟩ => ⟨S16x256, .f32⟩
  | .hbm, ⟨31, _⟩ => ⟨S16x256x1x1, .f32⟩
  | .hbm, ⟨32, _⟩ => ⟨S16x256x128x128, .f32⟩
  | .hbm, ⟨33, _⟩ => ⟨S16x256x128x128, .f32⟩
  | .hbm, ⟨34, _⟩ => ⟨S16x256x128x128, .f32⟩
  | .hbm, ⟨35, _⟩ => ⟨S16x256x128x128, .f32⟩
  | .hbm, ⟨36, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  concatenates_S16x256_S16x256_S16x512_d1 : Shape.Concatenates [S16x256, S16x256] S16x512 1
  bcast_S_S16x64 : S_.BroadcastsInDim S16x64 (![] : Fin 0 → Fin S16x64.rank)
  bcast_S_S16x512 : S_.BroadcastsInDim S16x512 (![] : Fin 0 → Fin S16x512.rank)
  slices_S16x512_S16x256_0_0 : S16x512.Slices ![0, 0] S16x256
  bcast_S16x256_S16x256x1x1_0_1 : S16x256.BroadcastsInDim S16x256x1x1 (![0, 1] : Fin 2 → Fin S16x256x1x1.rank)
  slices_S16x512_S16x256_0_256 : S16x512.Slices ![0, 256] S16x256
  bcast_S16x256x1x1_S16x256x128x128_0_1_2_3 : S16x256x1x1.BroadcastsInDim S16x256x128x128 (![0, 1, 2, 3] : Fin 4 → Fin S16x256x128x128.rank)
  dot_S16x512_S64x512_S16x64_1_1_0_0_n_n_wf : DotDims.WF S16x512 S64x512 S16x64 [1] [1] [0] [0] [] []
  dot_S16x64_S512x64_S16x512_1_1_0_0_n_n_wf : DotDims.WF S16x64 S512x64 S16x512 [1] [1] [0] [0] [] []

variable [Facts₀]

def dot_S16x512_S64x512_S16x64_1_1_0_0_n_n : DotDims S16x512 S64x512 S16x64 where
  lhsContracting := [1]
  rhsContracting := [1]
  lhsNonContracting := [0]
  rhsNonContracting := [0]
  lhsBatch := []
  rhsBatch := []
  wf := dot_S16x512_S64x512_S16x64_1_1_0_0_n_n_wf
def dot_S16x64_S512x64_S16x512_1_1_0_0_n_n : DotDims S16x64 S512x64 S16x512 where
  lhsContracting := [1]
  rhsContracting := [1]
  lhsNonContracting := [0]
  rhsNonContracting := [0]
  lhsBatch := []
  rhsBatch := []
  wf := dot_S16x64_S512x64_S16x512_1_1_0_0_n_n_wf

class Facts : Prop extends Facts₀ where

variable [Facts]
-- ==== Proof.Frame0.lean ====
/-
  The first kernel region (the means), 32 grid points, one per block of 8 channels. Each point reads its two feature
  blocks whole and writes 8 rows (rows 8t … 8t+7) of each of the two [256,16] result windows, which stay in their staging
  buffers across the whole grid and are written back once, after the last point. A point overwrites only its own 8 rows,
  so what a result's staging buffer holds after a point depends on what it held before: the proof data is RELATIONAL —
  "what is left is what was found, with rows 8t … 8t+7 replaced by the point's means" — and what the buffer holds at the end
  is pinned down by the 32 points together (the module that follows).
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RDat)

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S16x8x128x128 := Rect.unit (s := S16x8x128x128) ![0, 0, 0, 0] S16x8x128x128.size inb_S16x8x128x128_S16x8x128x128_0_0_0_0

/-- `Y` with the 8 rows the point at grid coordinates `i` owns replaced by `p`. -/
def slab0 (i : grid0.Coords) (Y : Vec F S256x16 .f32) (p : Vec F S8x16 .f32) : Vec F S256x16 .f32 :=
  fun y => if h : ∀ a, k0_off1 i a ≤ (y a).val ∧ (y a).val < k0_off1 i a + S8x16.size a then
      p (Rect.unitLocal (s := S256x16) (off := k0_off1 i) (size := S8x16.size) y h)
    else Y y

/-- A buffer read after one store of the 8 rows is `slab0` of what it read before. -/
theorem read_slab0 {κ : Kind} {sp : Space} (v : View sig κ sp S256x16 .f32) (f : v.ty.Contents (Elt F)) (i : grid0.Coords) (p : Vec F S8x16 .f32) :
    v.read (Elt F) (v.writes (Elt F) f [⟨Rect.unit (s := S256x16) (k0_off1 i) S8x16.size (k0_off1_inb i), p⟩]) = slab0 i (v.read (Elt F) f) p := by
  funext y
  exact View.read_writes_cons_unit v f (k0_off1_inb i) p [] y rfl

set_option maxHeartbeats 1000000 in
/-- The body on whole staging memrefs: the inputs stay, each result's buffer ends at what it held with the point's 8 rows
    replaced by the means of the input block. -/
theorem sound_kernel0 (c : Dev nD) (E : Set ℕ) (i : grid0.Coords) (arg0 : Memref sig .tc .vmem S16x8x128x128 .f32) (harg0 : arg0.IsWhole)
    (arg1 : Memref sig .tc .vmem S16x8x128x128 .f32) (harg1 : arg1.IsWhole) (arg2 : Memref sig .tc .vmem S256x16 .f32) (harg2 : arg2.IsWhole)
    (arg3 : Memref sig .tc .vmem S256x16 .f32) (harg3 : arg3.IsWhole)
    (x0 x1 : Vec F S16x8x128x128 .f32) (y2 y3 : Vec F S256x16 .f32) (K : PUnit → sProp 𝕄) :
    iprop(owns (c : Thread nD τ) arg0 fullShare x0 ∗ owns (c : Thread nD τ) arg1 fullShare x1 ∗ owns (c : Thread nD τ) arg2 fullShare y2
        ∗ owns (c : Thread nD τ) arg3 fullShare y3
        ∗ (iprop(owns (c : Thread nD τ) arg0 fullShare x0 ∗ owns (c : Thread nD τ) arg1 fullShare x1
            ∗ owns (c : Thread nD τ) arg2 fullShare (slab0 i y2 (k0_pay1 (View.ld x0 r0_x)))
            ∗ owns (c : Thread nD τ) arg3 fullShare (slab0 i y3 (k0_pay2 (View.ld x1 r0_x)))) -∗ K ⟨⟩))
      ⊢ wp frame (wpE (defs₀ (F := F)) Variants.none c none) E (cc0__pool_kernel i arg0 harg0 arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_slab0 (F := F) _ _ _ _
  iexists _; isplitr
  swap; · iexact H3
  ipureintro
  exact read_slab0 (F := F) _ _ _ _

/-- The relational proof data: arrays as the region finds them; an input's buffer is left as found; a result's buffer is
    left as found but for the point's 8 rows, which hold the means of the point's input block. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = slab0 (grid0.coords t) Y (k0_pay1 (View.ld (iblk0 V c 0 t) r0_x))
    | ⟨3, _⟩ => fun Y X => X = slab0 (grid0.coords t) Y (k0_pay2 (View.ld (iblk0 V c 1 t) r0_x))
  Φ _ := Pipeline.ΦA spec0 c
  q _ := fullShare
  owed _ := 0

theorem A_eq0 (c : Dev nD) (w : Fin cfg0.W) : (rd0 V c).A w = V c (Pipeline.arrRef spec0 w) := by
  dsimp only [rd0]
theorem after0_0 (c : Dev nD) (t : Fin cfg0.N) (Y X) : (rd0 V c).after 0 t Y X = (X = Y) := by dsimp only [rd0]
theorem after0_1 (c : Dev nD) (t : Fin cfg0.N) (Y X) : (rd0 V c).after 1 t Y X = (X = Y) := by dsimp only [rd0]
theorem after0_2 (c : Dev nD) (t : Fin cfg0.N) (Y X) :
    (rd0 V c).after 2 t Y X = (X = slab0 (grid0.coords t) Y (k0_pay1 (View.ld (iblk0 V c 0 t) r0_x))) := by dsimp only [rd0]
theorem after0_3 (c : Dev nD) (t : Fin cfg0.N) (Y X) :
    (rd0 V c).after 3 t Y X = (X = slab0 (grid0.coords t) Y (k0_pay2 (View.ld (iblk0 V c 1 t) r0_x))) := by dsimp only [rd0]

/-- What an input's buffer may hold when the body runs: its block (it is fetched at every point). -/
theorem finds0_0 (c : Dev nD) (t : Fin cfg0.N) (Y) (h : (rd0 V c).Finds 0 t Y) : Y = iblk0 V c 0 t := by
  obtain ⟨d, rfl⟩ := ((rd0 V c).finds_of_fetch (fetch0_0 t) Y).mp h
  unfold RDat.fetched RDat.blockOf iblk0; rw [A_eq0]; try rfl
theorem finds0_1 (c : Dev nD) (t : Fin cfg0.N) (Y) (h : (rd0 V c).Finds 1 t Y) : Y = iblk0 V c 1 t := by
  obtain ⟨d, rfl⟩ := ((rd0 V c).finds_of_fetch (fetch0_1 t) Y).mp h
  unfold RDat.fetched RDat.blockOf iblk0; rw [A_eq0]; try rfl

def bodyPre0 (c : Dev nD) (t : Fin cfg0.N) (Y2 Y3 : Vec F S256x16 .f32) : sProp 𝕄 :=
  iprop((rd0 V c).Φ t.castSucc ∗ (rd0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare Y2
    ∗ owns (c : Thread nD τ) (st0_3 t) fullShare Y3)

def bodyPost0 (c : Dev nD) (t : Fin cfg0.N) (Y2 Y3 : Vec F S256x16 .f32) : sProp 𝕄 :=
  iprop((rd0 V c).Φ t.succ ∗ (rd0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (slab0 (grid0.coords t) Y2 (k0_pay1 (View.ld (iblk0 V c 0 t) r0_x)))
    ∗ owns (c : Thread nD τ) (st0_3 t) fullShare (slab0 (grid0.coords t) Y3 (k0_pay2 (View.ld (iblk0 V c 1 t) r0_x))))

theorem sound_body0 (c : Dev nD) (t : Fin cfg0.N) (Y2 Y3 : Vec F S256x16 .f32) :
    bodyPre0 V c t Y2 Y3 ⊢ wp frame (wpE (defs₀ (F := F)) Variants.none c none) Set.univ (bodyAt0 t) (fun _ => bodyPost0 V c t Y2 Y3) := by
  unfold bodyPre0 bodyPost0 bodyAt0
  rw [show (rd0 V c).Φ t.succ = (rd0 V c).Φ t.castSucc from rfl,
    show (rd0 V c).owesAt () t.succ = (rd0 V c).owesAt () t.castSucc from rfl]
  iintro ⟨HΦ, Ho, H0, H1, H2, H3⟩
  iapply (sound_kernel0 c Set.univ _ _ _ _ _ _ _ _ _ (iblk0 V c 0 t) (iblk0 V c 1 t) Y2 Y3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the relational data, at every point and for all contents the buffers may hold there. -/
theorem body_obligation0 (c : Dev nD) : (rd0 (F := F) V c).BodyObligation (defs₀ (F := F)) Variants.none () Set.univ := fun t Y hY => by
  rw [bigSep_W0, bigSep_W0]
  have h0 := finds0_0 V c t (Y 0) (hY 0)
  have h1 := finds0_1 V c t (Y 1) (hY 1)
  rw [h0, h1]
  refine (sound_body0 V c t (Y 2) (Y 3)).trans (wp_mono _ _ _ fun _ => ?_)
  unfold bodyPost0
  iintro ⟨HΦ, Ho, H0, H1, H2, H3⟩
  isplitl [HΦ]; · iexact HΦ
  isplitl [Ho]; · iexact Ho
  isplitl [H0]
  · iexists _; isplitr; · ipureintro; rw [after0_0]
    iexact H0
  isplitl [H1]
  · iexists _; isplitr; · ipureintro; rw [after0_1]
    iexact H1
  isplitl [H2]
  · iexists _; isplitr; · ipureintro; rw [after0_2]
    iexact H2
  iexists _; isplitr; · ipureintro; rw [after0_3]
  iexact H3

end Cert.KernelIdeal.Hand

end
-- ==== Proof.KDefs.lean ====
/-
  What the kernel program computes, written as pure functions of its four argument arrays (at any float instance): the
  data flow of the three kernel regions and the host operations between them, with each region's arithmetic the body's own
  term (`k0_pay1`, `k0_pay2`, `k1_pay1`, `k2_pay1`).
  * `blk x t`: block `t` of a feature array — channels 8t … 8t+7, everything else whole.
  * `means1 x`, `means2 x`: the [256,16] array of means — row `r` is row `r % 8` of the first region's result on block `r / 8`.
  * `pooledK`: the two stacked along axis 0; `gateK`: the second region's result on it and the two weight matrices;
    `fwK`, `mwK`: its rows 0 … 255 and 256 … 511.
  * `rows8 g t`: rows 8t … 8t+7 of a [256,16] array; `outK`: channel `ch` of the result is channel `ch % 8` of the third
    region's result on block `ch / 8` of the two feature arrays and rows 8(ch/8) … of the two gate arrays.
-/
import proofs.«178390_j16724602651214_2_alg».proof.Proof.Gen.KernelIdeal.Skeleton
import Idealize.ShloMosaic.Lib.ValueIdx

noncomputable section

namespace Cert.KernelIdeal.KVal

open Idealize.ShloMosaic Idealize.ShloMosaic.ValueIdx Cert.KernelIdeal Cert.KernelIdeal.Gen

variable {F : FTy → Type} [FloatOps F]

/-- Block `t` of a feature array: channels 8t … 8t+7. -/
def blk (x : FVec F S16x256x128x128 .f32) (t : Fin 32) : FVec F S16x8x128x128 .f32 :=
  fun y => x (ix4 (y 0) (⟨8 * t.val + (y 1).val, by have h : (y 1).val < 8 := (y 1).isLt; omega⟩ : Fin 256) (y 2) (y 3))

/-- The block a channel lies in, and its place there. -/
def chBlock (ch : Fin 256) : Fin 32 := ⟨ch.val / 8, by omega⟩
def chLocal (ch : Fin 256) : Fin 8 := ⟨ch.val % 8, by omega⟩

/-- The means of the first feature array, row `r` from block `r / 8`. -/
def means1 (x : FVec F S16x256x128x128 .f32) : FVec F S256x16 .f32 :=
  fun y => k0_pay1 (blk x (chBlock (y 0))) (ix2 (chLocal (y 0)) (y 1))

/-- The means of the second feature array (the body's second store). -/
def means2 (x : FVec F S16x256x128x128 .f32) : FVec F S256x16 .f32 :=
  fun y => k0_pay2 (blk x (chBlock (y 0))) (ix2 (chLocal (y 0)) (y 1))

/-- The two stacked along axis 0, as the host concatenates them. -/
def pooledK (x0 x1 : FVec F S16x256x128x128 .f32) : FVec F S512x16 .f32 :=
  concatenate S512x16 0 [⟨S256x16, means1 x0⟩, ⟨S256x16, means2 x1⟩] concatenates_S256x16_S256x16_S512x16_d0

/-- The gate: the second region's arithmetic on the stacked means and the two weight matrices. -/
def gateK (x0 x1 : FVec F S16x256x128x128 .f32) (w1 : FVec F S64x512 .f32) (w2 : FVec F S512x64 .f32) : FVec F S512x16 .f32 :=
  k1_pay1 (pooledK x0 x1) w1 w2

/-- Its rows 0 … 255 and 256 … 511, as the host slices them. -/
def fwK (x0 x1 : FVec F S16x256x128x128 .f32) (w1 : FVec F S64x512 .f32) (w2 : FVec F S512x64 .f32) : FVec F S256x16 .f32 :=
  extractStridedSlice S256x16 ![0, 0] (gateK x0 x1 w1 w2) slices_S512x16_S256x16_0_0
def mwK (x0 x1 : FVec F S16x256x128x128 .f32) (w1 : FVec F S64x512 .f32) (w2 : FVec F S512x64 .f32) : FVec F S256x16 .f32 :=
  extractStridedSlice S256x16 ![256, 0] (gateK x0 x1 w1 w2) slices_S512x16_S256x16_256_0

/-- Rows 8t … 8t+7 of a [256,16] array. -/
def rows8 (g : FVec F S256x16 .f32) (t : Fin 32) : FVec F S8x16 .f32 :=
  fun y => g (ix2 (⟨8 * t.val + (y 0).val, by have h : (y 0).val < 8 := (y 0).isLt; omega⟩ : Fin 256) (y 1))

/-- The third region's result as one array, from the two feature arrays and the two [256,16] gate arrays it is handed: channel
    `ch` from the body's arithmetic on block `ch / 8` of the feature arrays and rows 8(ch/8) … 8(ch/8)+7 of the gate arrays. -/
def out2Arr (x0 x1 : FVec F S16x256x128x128 .f32) (g3 g4 : FVec F S256x16 .f32) : FVec F S16x256x128x128 .f32 :=
  fun i => k2_pay1 (rows8 g3 (chBlock (i 1))) (rows8 g4 (chBlock (i 1)))
    (blk x0 (chBlock (i 1))) (blk x1 (chBlock (i 1))) (ix4 (i 0) (chLocal (i 1)) (i 2) (i 3))

/-- The result of the whole program. -/
def outK (x0 x1 : FVec F S16x256x128x128 .f32) (w1 : FVec F S64x512 .f32) (w2 : FVec F S512x64 .f32) : FVec F S16x256x128x128 .f32 :=
  out2Arr x0 x1 (fwK x0 x1 w1 w2) (mwK x0 x1 w1 w2)

end Cert.KernelIdeal.KVal

end
-- ==== Proof.Frame0Det.lean ====
/-
  What the first kernel region leaves in its two result arrays. A result window's staging buffer keeps its contents from one
  grid point to the next and is written back once, after point 31. Point `t` replaces rows 8t … 8t+7 by the means of block
  `t`; so by induction over the points, whatever the buffer held at first, before point `t` its rows below 8t hold the means
  (`KVal.means1` / `means2` of the feature array), and after point 31 every row does: the array written back is exactly the
  array of means.
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import proofs.«178390_j16724602651214_2_alg».proof.Proof.Frame0
import proofs.«178390_j16724602651214_2_alg».proof.Proof.KDefs
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RDat)
open Idealize.ShloMosaic.ValueIdx

variable (V : (c : Dev nD) → (b : Ref sig .tc) → Buf (Elt F) ((c : Thread nD τ).loc b))

/-! ## The printed index maps and offsets, decided once over the grid -/

theorem idx_facts0 : ∀ t : Fin cfg0.N, win0_0.index t = ![0, t.val, 0, 0] ∧ win0_1.index t = ![0, t.val, 0, 0]
    ∧ win0_2.index t = ![0, 0] ∧ win0_3.index t = ![0, 0] ∧ k0_off1 (grid0.coords t) = ![8 * t.val, 0] :=
  (by decide +kernel : ∀ t : Fin grid0.N, _)

theorem fetch0_2 : ∀ t : Fin cfg0.N, (cfg0.win 2).fetch t = false :=
  (by decide +kernel : ∀ t : Fin grid0.N, win0_2.fetch t = false)
theorem fetch0_3 : ∀ t : Fin cfg0.N, (cfg0.win 3).fetch t = false :=
  (by decide +kernel : ∀ t : Fin grid0.N, win0_3.fetch t = false)

/-- The grid has 32 points. -/
theorem lt32 (t : Fin cfg0.N) : t.val < 32 := lt_of_lt_of_eq t.isLt N_0

/-- A grid point as a block number. -/
def pt (t : Fin cfg0.N) : Fin 32 := ⟨t.val, lt32 t⟩

theorem hz4 : (![0, 0, 0, 0] : Fin 4 → Nat) = fun _ => 0 := funext fun a => by fin_cases a <;> rfl

/-- The block the body loads at point `t` is block `t` of the feature array. -/
theorem ld_iblk0_0 (c : Dev nD) (t : Fin cfg0.N) :
    View.ld (iblk0 V c 0 t) r0_x = KVal.blk (V c main_arg0) (pt t) := by
  rw [View.ld_unit_zero (S := S16x8x128x128) hz4]
  obtain ⟨e0, -, -, -, -⟩ := idx_facts0 t
  funext j
  show V c main_arg0 (((cfg0.win 0).blk t).view.emb j) = V c main_arg0 _
  refine congrArg _ (funext fun a => Fin.ext ?_)
  match a with
  | ⟨0, _⟩ => show win0_0.index t (0 : Fin 4) * 16 + 1 * (j 0).val = (j 0).val; rw [e0]; show 0 * 16 + 1 * (j 0).val = _; omega
  | ⟨1, _⟩ => show win0_0.index t (1 : Fin 4) * 8 + 1 * (j 1).val = 8 * t.val + (j 1).val; rw [e0]; show t.val * 8 + 1 * (j 1).val = _; omega
  | ⟨2, _⟩ => show win0_0.index t (2 : Fin 4) * 128 + 1 * (j 2).val = (j 2).val; rw [e0]; show 0 * 128 + 1 * (j 2).val = _; omega
  | ⟨3, _⟩ => show win0_0.index t (3 : Fin 4) * 128 + 1 * (j 3).val = (j 3).val; rw [e0]; show 0 * 128 + 1 * (j 3).val = _; omega

theorem ld_iblk0_1 (c : Dev nD) (t : Fin cfg0.N) :
    View.ld (iblk0 V c 1 t) r0_x = KVal.blk (V c main_arg1) (pt t) := by
  rw [View.ld_unit_zero (S := S16x8x128x128) hz4]
  obtain ⟨-, e0, -, -, -⟩ := idx_facts0 t
  funext j
  show V c main_arg1 (((cfg0.win 1).blk t).view.emb j) = V c main_arg1 _
  refine congrArg _ (funext fun a => Fin.ext ?_)
  match a with
  | ⟨0, _⟩ => show win0_1.index t (0 : Fin 4) * 16 + 1 * (j 0).val = (j 0).val; rw [e0]; show 0 * 16 + 1 * (j 0).val = _; omega
  | ⟨1, _⟩ => show win0_1.index t (1 : Fin 4) * 8 + 1 * (j 1).val = 8 * t.val + (j 1).val; rw [e0]; show t.val * 8 + 1 * (j 1).val = _; omega
  | ⟨2, _⟩ => show win0_1.index t (2 : Fin 4) * 128 + 1 * (j 2).val = (j 2).val; rw [e0]; show 0 * 128 + 1 * (j 2).val = _; omega
  | ⟨3, _⟩ => show win0_1.index t (3 : Fin 4) * 128 + 1 * (j 3).val = (j 3).val; rw [e0]; show 0 * 128 + 1 * (j 3).val = _; omega

/-! ## One point's store, read at an index -/

/-- Rows below 8n of `Y` hold `G`. -/
def Upto (n : ℕ) (G Y : Vec F S256x16 .f32) : Prop := ∀ y : S256x16.Idx, (y 0).val < 8 * n → Y y = G y

/-- If the rows below 8t hold `G` and point `t`'s 8 rows are replaced by `p`, which is `G`'s rows there, the rows below
    8(t+1) hold `G`. -/
theorem upto_slab0 (t : Fin cfg0.N) (G Y : Vec F S256x16 .f32) (p : Vec F S8x16 .f32)
    (hp : ∀ (r : Fin 8) (b : Fin 16), p (ix2 r b) = G (ix2 (⟨8 * t.val + r.val, by have := lt32 t; omega⟩ : Fin 256) b))
    (hY : Upto t.val G Y) : Upto (t.val + 1) G (slab0 (grid0.coords t) Y p) := by
  obtain ⟨-, -, -, -, eo⟩ := idx_facts0 t
  intro y hy
  have hy1 : (y 1).val < 16 := (y 1).isLt
  unfold slab0
  by_cases h : ∀ a, k0_off1 (grid0.coords t) a ≤ (y a).val ∧ (y a).val < k0_off1 (grid0.coords t) a + S8x16.size a
  · rw [dif_pos h]
    have h0 := h 0
    rw [eo] at h0
    have h0' : 8 * t.val ≤ (y 0).val ∧ (y 0).val < 8 * t.val + 8 := h0
    have e1 : Rect.unitLocal (s := S256x16) (off := k0_off1 (grid0.coords t)) (size := S8x16.size) y h
        = ix2 (⟨(y 0).val - 8 * t.val, by omega⟩ : Fin 8) (⟨(y 1).val, hy1⟩ : Fin 16) := by
      funext a
      match a with
      | ⟨0, _⟩ => apply Fin.ext; show (y 0).val - k0_off1 (grid0.coords t) 0 = (y 0).val - 8 * t.val; rw [eo]; rfl
      | ⟨1, _⟩ => apply Fin.ext; show (y 1).val - k0_off1 (grid0.coords t) 1 = (y 1).val; rw [eo]; show (y 1).val - 0 = _; omega
    rw [e1, hp]
    refine congrArg G ?_
    funext a
    match a with
    | ⟨0, _⟩ => apply Fin.ext; show 8 * t.val + ((y 0).val - 8 * t.val) = (y 0).val; omega
    | ⟨1, _⟩ => rfl
  · rw [dif_neg h]
    refine hY y ?_
    by_contra hc
    refine h fun a => ?_
    match a with
    | ⟨0, _⟩ => rw [eo]; show 8 * t.val ≤ (y 0).val ∧ (y 0).val < 8 * t.val + 8; omega
    | ⟨1, _⟩ => rw [eo]; show 0 ≤ (y 1).val ∧ (y 1).val < 0 + 16; omega

/-- Point `t`'s means are rows 8t … 8t+7 of the array of means. -/
theorem pay1_rows (x : FVec F S16x256x128x128 .f32) (t : Fin cfg0.N) (r : Fin 8) (b : Fin 16) :
    k0_pay1 (KVal.blk x (pt t)) (ix2 r b) = KVal.means1 x (ix2 (⟨8 * t.val + r.val, by have := lt32 t; omega⟩ : Fin 256) b) := by
  unfold KVal.means1
  have hb : KVal.chBlock (⟨8 * t.val + r.val, by have := lt32 t; omega⟩ : Fin 256) = pt t := Fin.ext (by
    show (8 * t.val + r.val) / 8 = t.val; omega)
  have hl : KVal.chLocal (⟨8 * t.val + r.val, by have := lt32 t; omega⟩ : Fin 256) = r := Fin.ext (by
    show (8 * t.val + r.val) % 8 = r.val; omega)
  show _ = k0_pay1 (KVal.blk x (KVal.chBlock _)) (ix2 (KVal.chLocal _) b)
  rw [hb, hl]
theorem pay2_rows (x : FVec F S16x256x128x128 .f32) (t : Fin cfg0.N) (r : Fin 8) (b : Fin 16) :
    k0_pay2 (KVal.blk x (pt t)) (ix2 r b) = KVal.means2 x (ix2 (⟨8 * t.val + r.val, by have := lt32 t; omega⟩ : Fin 256) b) := by
  unfold KVal.means2
  have hb : KVal.chBlock (⟨8 * t.val + r.val, by have := lt32 t; omega⟩ : Fin 256) = pt t := Fin.ext (by
    show (8 * t.val + r.val) / 8 = t.val; omega)
  have hl : KVal.chLocal (⟨8 * t.val + r.val, by have := lt32 t; omega⟩ : Fin 256) = r := Fin.ext (by
    show (8 * t.val + r.val) % 8 = r.val; omega)
  show _ = k0_pay2 (KVal.blk x (KVal.chBlock _)) (ix2 (KVal.chLocal _) b)
  rw [hb, hl]

/-! ## What a result's buffer may hold before each point, and after the last -/

theorem finds0_2 (c : Dev nD) : ∀ (n : ℕ) (t : Fin cfg0.N), t.val = n → ∀ Y, (rd0 V c).Finds 2 t Y → Upto n (KVal.means1 (V c main_arg0)) Y
  | 0, _, _, _, _ => fun y hy => absurd hy (by omega)
  | n + 1, t, ht, Y, hF => by
    have ht' : t.val - 1 < cfg0.N := Nat.lt_of_le_of_lt (Nat.sub_le _ _) t.isLt
    rcases ((rd0 V c).finds_of_pos (fetch0_2 t) (by omega) Y).mp hF with hfl | ⟨Y', hY', ha⟩
    · exfalso
      have := (flush0_2 ⟨t.val - 1, ht'⟩).mp hfl
      have hN := lt32 t
      simp only at this; omega
    · have ih := finds0_2 c n ⟨t.val - 1, ht'⟩ (by simp only; omega) Y' hY'
      rw [after0_2] at ha
      subst ha
      have hn : n = (⟨t.val - 1, ht'⟩ : Fin cfg0.N).val := by simp only; omega
      rw [ld_iblk0_0]
      have := upto_slab0 ⟨t.val - 1, ht'⟩ (KVal.means1 (V c main_arg0)) Y' _ (pay1_rows (V c main_arg0) ⟨t.val - 1, ht'⟩) (hn ▸ ih)
      simpa [hn] using this

theorem finds0_3 (c : Dev nD) : ∀ (n : ℕ) (t : Fin cfg0.N), t.val = n → ∀ Y, (rd0 V c).Finds 3 t Y → Upto n (KVal.means2 (V c main_arg1)) Y
  | 0, _, _, _, _ => fun y hy => absurd hy (by omega)
  | n + 1, t, ht, Y, hF => by
    have ht' : t.val - 1 < cfg0.N := Nat.lt_of_le_of_lt (Nat.sub_le _ _) t.isLt
    rcases ((rd0 V c).finds_of_pos (fetch0_3 t) (by omega) Y).mp hF with hfl | ⟨Y', hY', ha⟩
    · exfalso
      have := (flush0_3 ⟨t.val - 1, ht'⟩).mp hfl
      have hN := lt32 t
      simp only at this; omega
    · have ih := finds0_3 c n ⟨t.val - 1, ht'⟩ (by simp only; omega) Y' hY'
      rw [after0_3] at ha
      subst ha
      have hn : n = (⟨t.val - 1, ht'⟩ : Fin cfg0.N).val := by simp only; omega
      rw [ld_iblk0_1]
      have := upto_slab0 ⟨t.val - 1, ht'⟩ (KVal.means2 (V c main_arg1)) Y' _ (pay2_rows (V c main_arg1) ⟨t.val - 1, ht'⟩) (hn ▸ ih)
      simpa [hn] using this

/-! ## The arrays the region leaves -/

/-- What the region's four arrays hold when it is left: the two feature arrays as entered, the two result arrays at the
    means. -/
def res0 (c : Dev nD) : (w : Fin cfg0.W) → Buf (Elt F) ((cfg0.win w).arr.view.loc (c.tc : Thread nD τ))
  | ⟨0, _⟩ => V c main_arg0
  | ⟨1, _⟩ => V c main_arg1
  | ⟨2, _⟩ => KVal.means1 (V c main_arg0)
  | ⟨3, _⟩ => KVal.means2 (V c main_arg1)

theorem res0_0 (c : Dev nD) : res0 V c 0 = V c main_arg0 := rfl
theorem res0_1 (c : Dev nD) : res0 V c 1 = V c main_arg1 := rfl
theorem res0_2 (c : Dev nD) : res0 V c 2 = KVal.means1 (V c main_arg0) := rfl
theorem res0_3 (c : Dev nD) : res0 V c 3 = KVal.means2 (V c main_arg1) := rfl

end Cert.KernelIdeal.Hand

end
-- ==== Proof.Frame1.lean ====
/-
  The second kernel region (the gate: two matrix products, a clamp at zero and the logistic function, on whole
  arrays, one grid point). Stated at a parameter `V`, the buffer contents when the region is entered: each input window's
  block at the one point is its whole array read off `V`; the body loads the three inputs whole and stores the result whole,
  so the output's staging buffer after the body is the body's arithmetic (`k1_pay1`) of the three input blocks.
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_p : Rect S512x16 := Rect.unit (s := S512x16) ![0, 0] S512x16.size inb_S512x16_S512x16_0_0
abbrev r1_a : Rect S64x512 := Rect.unit (s := S64x512) ![0, 0] S64x512.size inb_S64x512_S64x512_0_0
abbrev r1_b : Rect S512x64 := Rect.unit (s := S512x64) ![0, 0] S512x64.size inb_S512x64_S512x64_0_0

/-- The output's staging buffer after the body: its one whole store. -/
def out1_3 (x0 : Vec F S512x16 .f32) (x1 : Vec F S64x512 .f32) (x2 : Vec F S512x64 .f32) : Vec F S512x16 .f32 :=
  View.canon [⟨r1_p, k1_pay1 (View.ld x0 r1_p) (View.ld x1 r1_a) (View.ld x2 r1_b)⟩]

theorem cover1_3 (p0 : Vec F S512x16 .f32) (y : S512x16.Idx) :
    ∃ pc ∈ ([⟨r1_p, p0⟩] : List (View.Piece (Elt F) S512x16 .f32)), y ∈ pc.1.set :=
  View.cover_of_tiled [⟨r1_p, p0⟩] S512x16.size (by rfl) y

set_option maxHeartbeats 1000000 in
/-- The body on whole staging memrefs: the inputs stay, the output ends at `out1_3` of the inputs. -/
theorem sound_kernel1 (c : Dev nD) (E : Set ℕ) (i : grid1.Coords) (arg0 : Memref sig .tc .vmem S512x16 .f32) (harg0 : arg0.IsWhole)
    (arg1 : Memref sig .tc .vmem S64x512 .f32) (harg1 : arg1.IsWhole) (arg2 : Memref sig .tc .vmem S512x64 .f32) (harg2 : arg2.IsWhole)
    (arg3 : Memref sig .tc .vmem S512x16 .f32) (harg3 : arg3.IsWhole)
    (x0 : Vec F S512x16 .f32) (x1 : Vec F S64x512 .f32) (x2 : Vec F S512x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__mlp_kernel i arg0 harg0 arg1 harg1 arg2 harg2 arg3 harg3) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data: arrays as the region finds them; after the body each input's buffer at its block, the output's at
    `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Frame2.lean ====
/-
  The third kernel region (the weighted sum), 32 grid points, one per block of 8 channels. Stated at a parameter `V`, the
  buffer contents when the region is entered. At point `t` the body reads rows 8t … 8t+7 of the two gate arrays (whole
  [256,16] windows, fetched once), the two feature blocks whole, and stores the output block whole: the output's staging
  buffer after the body is the body's arithmetic (`k2_pay1`) of those four reads.
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block when the body runs, fetched at that point or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S16x8x128x128 := Rect.unit (s := S16x8x128x128) ![0, 0, 0, 0] S16x8x128x128.size inb_S16x8x128x128_S16x8x128x128_0_0_0_0
/-- The eight gate rows point `i` reads. -/
abbrev r2_g (i : grid2.Coords) : Rect S256x16 := Rect.unit (s := S256x16) (k2_off1 i) S8x16.size (k2_off1_inb i)

/-- The output's staging buffer after the body at grid coordinates `i`: its one whole store. -/
def out2_4 (i : grid2.Coords) (x0 x1 : Vec F S16x8x128x128 .f32) (x2 x3 : Vec F S256x16 .f32) : Vec F S16x8x128x128 .f32 :=
  View.canon [⟨r2_x, k2_pay1 (View.ld x2 (r2_g i)) (View.ld x3 (r2_g i)) (View.ld x0 r2_x) (View.ld x1 r2_x)⟩]

theorem cover2_4 (p0 : Vec F S16x8x128x128 .f32) (y : S16x8x128x128.Idx) :
    ∃ pc ∈ ([⟨r2_x, p0⟩] : List (View.Piece (Elt F) S16x8x128x128 .f32)), y ∈ pc.1.set :=
  View.cover_of_tiled [⟨r2_x, p0⟩] S16x8x128x128.size (by rfl) y

set_option maxHeartbeats 1000000 in
/-- The body on whole staging memrefs: the inputs stay, the output ends at `out2_4` of the inputs. -/
theorem sound_kernel2 (c : Dev nD) (E : Set ℕ) (i : grid2.Coords) (arg0 : Memref sig .tc .vmem S16x8x128x128 .f32) (harg0 : arg0.IsWhole)
    (arg1 : Memref sig .tc .vmem S16x8x128x128 .f32) (harg1 : arg1.IsWhole) (arg2 : Memref sig .tc .vmem S256x16 .f32) (harg2 : arg2.IsWhole)
    (arg3 : Memref sig .tc .vmem S256x16 .f32) (harg3 : arg3.IsWhole) (arg4 : Memref sig .tc .vmem S16x8x128x128 .f32) (harg4 : arg4.IsWhole)
    (x0 x1 : Vec F S16x8x128x128 .f32) (x2 x3 : Vec F S256x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 i x0 x1 x2 x3)) -∗ K ⟨⟩))
      ⊢ wp frame (wpE (defs₀ (F := F)) Variants.none c none) E (cc2__weighted_sum_kernel i arg0 harg0 arg1 harg1 arg2 harg2 arg3 harg3 arg4 harg4) K := by
  simp only [cc2__weighted_sum_kernel_eq_skeleton]; unfold cc2__weighted_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data: arrays as the region finds them; after the body each input's buffer at its block, the output's at
    `out2_4` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (grid2.coords t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (grid2.coords t) (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunDefs.lean ====
/-
  The contents of the core's buffers at each boundary between two items of @main — the launch, the first kernel region, the
  concatenation, the second region, the two slices, the third region — as a fold from the launch memory: a host stretch
  applies its operations, a region leaves its arrays at what its write-backs make of them and every other buffer as it was.
  No item writes an argument array: read back through the fold, each ends as launched.
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import proofs.«178390_j16724602651214_2_alg».proof.Proof.Frame0Det
import proofs.«178390_j16724602651214_2_alg».proof.Proof.Frame1
import proofs.«178390_j16724602651214_2_alg».proof.Proof.Frame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RDat)
open Idealize.ShloMosaic.ValueIdx

variable (m : (ℓ : Loc nD τ sig) → Buf (Elt F) ℓ) (ρ : Dev nD → PrngReg)

/-! ## The buffer contents at each boundary between two items of @main -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its result arrays at the means. -/
def W1 (c : Dev nD) : Valuation τ sig (Elt F) := Pipeline.withArrays spec0 c (W0 m c) (res0 (V0 m) c)
theorem W1_arr (c : Dev nD) (w : Fin cfg0.W) : W1 m c (Proc.devRef .tc (Pipeline.arrRef spec0 w)) = res0 (V0 m) c w := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : res0 (V0 m) c w = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the concatenation. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) := Pipeline.withArrays spec1 c (W2 m c) fun w => (dat1 (V2 m) c).arrAt w cfg1.N
theorem W3_arr (c : Dev nD) (w : Fin cfg1.W) : W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the two slices. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the third region. -/
def W5 (c : Dev nD) : Valuation τ sig (Elt F) := Pipeline.withArrays spec2 c (W4 m c) fun w => (dat2 (V4 m) c).arrAt w cfg2.N
theorem W5_arr (c : Dev nD) (w : Fin cfg2.W) : W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat2 (V4 m) c).arrAt_in 0 rfl _).trans (A_eq2 (V4 m) c 0))
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (res0_0 (V0 m) c)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 1).trans (((dat2 (V4 m) c).arrAt_in 1 rfl _).trans (A_eq2 (V4 m) c 1))
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (res0_1 (V0 m) c)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 1).trans (((dat1 (V2 m) c).arrAt_in 1 rfl _).trans (A_eq1 (V2 m) c 1))
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := (W3_arr m c 2).trans (((dat1 (V2 m) c).arrAt_in 2 rfl _).trans (A_eq1 (V2 m) c 2))
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

end Cert.KernelIdeal.Hand

end
-- ==== Proof.Frame0Arr.lean ====
/-
  What the first kernel region leaves in its four arrays. The two feature arrays are inputs and are never written. A result
  array is written back once, after the last of the 32 points, with the whole of its staging buffer: before that it holds
  what it held at entry; and the buffer written back is the array of means, because before point 31 its rows below 8·31
  hold the means and point 31 replaces the last eight rows by the means of block 31. The result window's one block is the
  whole array (block index (0, 0), block extents the array's), so the write-back overwrites every entry.
-/
import proofs.«178390_j16724602651214_2_alg».proof.Proof.Frame0Det

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RDat)
open Idealize.ShloMosaic.ValueIdx

variable (V : (c : Dev nD) → (b : Ref sig .tc) → Buf (Elt F) ((c : Thread nD τ).loc b))

/-! ## What the body leaves in a result's buffer at a point -/

/-- After point `t` the rows below 8(t+1) of the first result's buffer hold the means. -/
theorem leaves0_2 (c : Dev nD) (t : Fin cfg0.N) (X) (h : (rd0 V c).Leaves 2 t X) :
    Upto (t.val + 1) (KVal.means1 (V c main_arg0)) X := by
  obtain ⟨Y, hY, ha⟩ := h
  have ih := finds0_2 V c t.val t rfl Y hY
  rw [after0_2] at ha
  subst ha
  rw [ld_iblk0_0]
  exact upto_slab0 t (KVal.means1 (V c main_arg0)) Y _ (pay1_rows (V c main_arg0) t) ih

/-- After point `t` the rows below 8(t+1) of the second result's buffer hold the means. -/
theorem leaves0_3 (c : Dev nD) (t : Fin cfg0.N) (X) (h : (rd0 V c).Leaves 3 t X) :
    Upto (t.val + 1) (KVal.means2 (V c main_arg1)) X := by
  obtain ⟨Y, hY, ha⟩ := h
  have ih := finds0_3 V c t.val t rfl Y hY
  rw [after0_3] at ha
  subst ha
  rw [ld_iblk0_1]
  exact upto_slab0 t (KVal.means2 (V c main_arg1)) Y _ (pay2_rows (V c main_arg1) t) ih

/-! ## The write-back of a result window covers the whole array -/

/-- The grid's last point. -/
def tLast : Fin cfg0.N := ⟨31, lt_of_lt_of_eq (by omega : 31 < 32) N_0.symm⟩

/-- Every entry of the first result array lies in the window's block at every point: the block is the whole array. -/
theorem mem_blk0_2 (t : Fin cfg0.N) (i : S256x16.Idx) : i ∈ ((cfg0.win 2).blk t).view.set := by
  show i ∈ ((View.whole main_v0_0).slice (win0_2.rect t)).set
  rw [View.set_slice_whole, Rect.mem_set_unit]
  obtain ⟨-, -, e2, -, -⟩ := idx_facts0 t
  have h0 : (i 0).val < 256 := (i 0).isLt
  have h1 : (i 1).val < 16 := (i 1).isLt
  intro a
  match a with
  | ⟨0, _⟩ =>
    show win0_2.index t (0 : Fin 2) * 256 ≤ (i 0).val ∧ (i 0).val < win0_2.index t (0 : Fin 2) * 256 + 256
    rw [e2]; show 0 * 256 ≤ (i 0).val ∧ (i 0).val < 0 * 256 + 256; omega
  | ⟨1, _⟩ =>
    show win0_2.index t (1 : Fin 2) * 16 ≤ (i 1).val ∧ (i 1).val < win0_2.index t (1 : Fin 2) * 16 + 16
    rw [e2]; show 0 * 16 ≤ (i 1).val ∧ (i 1).val < 0 * 16 + 16; omega

/-- A buffer whose every row holds `G`, cut to the block the write-back moves, is the window's block of `G`. -/
theorem cut_eq_read0_2 (t : Fin cfg0.N) (G : Vec F S256x16 .f32) (X : (cfg0.win 2).block.Idx → Elt F (cfg0.win 2).elt)
    (hX : Upto 32 G X) :
    (cfg0.win 2).cut (cfg0.grid.coords t) X = ((cfg0.win 2).blk t).view.read (Elt F) G := by
  obtain ⟨-, -, e2, -, -⟩ := idx_facts0 t
  funext j
  have h0 : (j 0).val < 256 := (j 0).isLt
  have h1 : (j 1).val < 16 := (j 1).isLt
  show X ((cfg0.win 2).xinj (cfg0.grid.coords t) j) = G (((cfg0.win 2).blk t).view.emb j)
  rw [hX _ (show (j 0).val < 8 * 32 by omega)]
  refine congrArg G (funext fun a => Fin.ext ?_)
  match a with
  | ⟨0, _⟩ => show (j 0).val = win0_2.index t (0 : Fin 2) * 256 + 1 * (j 0).val; rw [e2]; show (j 0).val = 0 * 256 + 1 * (j 0).val; omega
  | ⟨1, _⟩ => show (j 1).val = win0_2.index t (1 : Fin 2) * 16 + 1 * (j 1).val; rw [e2]; show (j 1).val = 0 * 16 + 1 * (j 1).val; omega

/-- Every entry of the second result array lies in the window's block at every point: the block is the whole array. -/
theorem mem_blk0_3 (t : Fin cfg0.N) (i : S256x16.Idx) : i ∈ ((cfg0.win 3).blk t).view.set := by
  show i ∈ ((View.whole main_v0_1).slice (win0_3.rect t)).set
  rw [View.set_slice_whole, Rect.mem_set_unit]
  obtain ⟨-, -, -, e2, -⟩ := idx_facts0 t
  have h0 : (i 0).val < 256 := (i 0).isLt
  have h1 : (i 1).val < 16 := (i 1).isLt
  intro a
  match a with
  | ⟨0, _⟩ =>
    show win0_3.index t (0 : Fin 2) * 256 ≤ (i 0).val ∧ (i 0).val < win0_3.index t (0 : Fin 2) * 256 + 256
    rw [e2]; show 0 * 256 ≤ (i 0).val ∧ (i 0).val < 0 * 256 + 256; omega
  | ⟨1, _⟩ =>
    show win0_3.index t (1 : Fin 2) * 16 ≤ (i 1).val ∧ (i 1).val < win0_3.index t (1 : Fin 2) * 16 + 16
    rw [e2]; show 0 * 16 ≤ (i 1).val ∧ (i 1).val < 0 * 16 + 16; omega

/-- A buffer whose every row holds `G`, cut to the block the write-back moves, is the window's block of `G`. -/
theorem cut_eq_read0_3 (t : Fin cfg0.N) (G : Vec F S256x16 .f32) (X : (cfg0.win 3).block.Idx → Elt F (cfg0.win 3).elt)
    (hX : Upto 32 G X) :
    (cfg0.win 3).cut (cfg0.grid.coords t) X = ((cfg0.win 3).blk t).view.read (Elt F) G := by
  obtain ⟨-, -, -, e2, -⟩ := idx_facts0 t
  funext j
  have h0 : (j 0).val < 256 := (j 0).isLt
  have h1 : (j 1).val < 16 := (j 1).isLt
  show X ((cfg0.win 3).xinj (cfg0.grid.coords t) j) = G (((cfg0.win 3).blk t).view.emb j)
  rw [hX _ (show (j 0).val < 8 * 32 by omega)]
  refine congrArg G (funext fun a => Fin.ext ?_)
  match a with
  | ⟨0, _⟩ => show (j 0).val = win0_3.index t (0 : Fin 2) * 256 + 1 * (j 0).val; rw [e2]; show (j 0).val = 0 * 256 + 1 * (j 0).val; omega
  | ⟨1, _⟩ => show (j 1).val = win0_3.index t (1 : Fin 2) * 16 + 1 * (j 1).val; rw [e2]; show (j 1).val = 0 * 16 + 1 * (j 1).val; omega

/-- Below the last point nothing of result window 2 is written back: its array holds its entry contents. -/
theorem arrAt0_2_below (c : Dev nD) : ∀ n, n ≤ 31 → (rd0 V c).ArrAt 2 n = fun G => G = (rd0 V c).A 2
  | 0, _ => rfl
  | n + 1, h => by
    have hn : n < cfg0.N := lt_of_lt_of_eq (by omega : n < 32) N_0.symm
    have e := (rd0 V c).ArrAt_succ 2 ⟨n, hn⟩
    have hf : ¬ ((cfg0.win 2).flush ⟨n, hn⟩ = true) := fun hf => by
      have := (flush0_2 ⟨n, hn⟩).mp hf
      simp only at this; omega
    rw [if_neg hf] at e
    exact e.trans (arrAt0_2_below c n (by omega))

/-- After the last point result window 2's array is the array of means. -/
theorem arrAt0_2_last (c : Dev nD) (G : Buf (Elt F) ((cfg0.win 2).arr.view.loc (c.tc : Thread nD τ)))
    (h : (rd0 V c).ArrAt 2 cfg0.N G) : G = KVal.means1 (V c main_arg0) := by
  have hN : cfg0.N = tLast.val + 1 := N_0
  have h' : (rd0 V c).ArrAt 2 (tLast.val + 1) G := (congrFun (congrArg ((rd0 V c).ArrAt 2) hN) G).mp h
  rw [(rd0 V c).ArrAt_succ 2 tLast, if_pos ((flush0_2 tLast).mpr rfl)] at h'
  obtain ⟨G₀, X, -, hX, rfl⟩ := h'
  have hU : Upto 32 (KVal.means1 (V c main_arg0)) X := leaves0_2 V c tLast X hX
  rw [cut_eq_read0_2 tLast _ X hU, View.write_read_eq_piecewise]
  funext i
  exact Finset.piecewise_eq_of_mem _ _ _ (by rw [View.setOn_univ]; exact mem_blk0_2 tLast i)

/-- Below the last point nothing of result window 3 is written back: its array holds its entry contents. -/
theorem arrAt0_3_below (c : Dev nD) : ∀ n, n ≤ 31 → (rd0 V c).ArrAt 3 n = fun G => G = (rd0 V c).A 3
  | 0, _ => rfl
  | n + 1, h => by
    have hn : n < cfg0.N := lt_of_lt_of_eq (by omega : n < 32) N_0.symm
    have e := (rd0 V c).ArrAt_succ 3 ⟨n, hn⟩
    have hf : ¬ ((cfg0.win 3).flush ⟨n, hn⟩ = true) := fun hf => by
      have := (flush0_3 ⟨n, hn⟩).mp hf
      simp only at this; omega
    rw [if_neg hf] at e
    exact e.trans (arrAt0_3_below c n (by omega))

/-- After the last point result window 3's array is the array of means. -/
theorem arrAt0_3_last (c : Dev nD) (G : Buf (Elt F) ((cfg0.win 3).arr.view.loc (c.tc : Thread nD τ)))
    (h : (rd0 V c).ArrAt 3 cfg0.N G) : G = KVal.means2 (V c main_arg1) := by
  have hN : cfg0.N = tLast.val + 1 := N_0
  have h' : (rd0 V c).ArrAt 3 (tLast.val + 1) G := (congrFun (congrArg ((rd0 V c).ArrAt 3) hN) G).mp h
  rw [(rd0 V c).ArrAt_succ 3 tLast, if_pos ((flush0_3 tLast).mpr rfl)] at h'
  obtain ⟨G₀, X, -, hX, rfl⟩ := h'
  have hU : Upto 32 (KVal.means2 (V c main_arg1)) X := leaves0_3 V c tLast X hX
  rw [cut_eq_read0_3 tLast _ X hU, View.write_read_eq_piecewise]
  funext i
  exact Finset.piecewise_eq_of_mem _ _ _ (by rw [View.setOn_univ]; exact mem_blk0_3 tLast i)

/-! ## The four arrays when the region is left -/

/-- Whatever the region's arrays may hold after all write-backs is: the feature arrays as entered, the result arrays at the
    means. -/
theorem arrAt0_det (c : Dev nD) (w : Fin cfg0.W) (G : Buf (Elt F) ((cfg0.win w).arr.view.loc (c.tc : Thread nD τ))) :
    (rd0 V c).ArrAt w cfg0.N G → G = res0 V c w :=
  match w with
  | ⟨0, _⟩ => fun h => ((congrFun ((rd0 V c).ArrAt_in 0 rfl cfg0.N) G).mp h).trans (A_eq0 V c 0)
  | ⟨1, _⟩ => fun h => ((congrFun ((rd0 V c).ArrAt_in 1 rfl cfg0.N) G).mp h).trans (A_eq0 V c 1)
  | ⟨2, _⟩ => fun h => arrAt0_2_last V c G h
  | ⟨3, _⟩ => fun h => arrAt0_3_last V c G h

end Cert.KernelIdeal.Hand

end
-- ==== Proof.RunMain.lean ====
/-
  The run of the whole program: @main is five items — three kernel regions with a concatenation and two slices between them.
  Each region is entered with every buffer of the core at the boundary's contents, hands its arrays to the pipeline, and is
  left with them at what the pipeline's write-backs make of them (for the first region: the means, whatever its staging
  buffers held at first); the host stretches run over the same buffers. So every weakly fair execution terminates, nothing
  faults, the result array ends at what the third region leaves and the argument arrays end as launched.
-/
import proofs.«178390_j16724602651214_2_alg».proof.Proof.Gen.KernelIdeal.Launch
import proofs.«178390_j16724602651214_2_alg».proof.Proof.Gen.KernelIdeal.Skeleton
import proofs.«178390_j16724602651214_2_alg».proof.Proof.Gen.KernelIdeal.Points
import proofs.«178390_j16724602651214_2_alg».proof.Proof.RunDefs
import proofs.«178390_j16724602651214_2_alg».proof.Proof.Frame0Arr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RDat)
open Idealize.ShloMosaic.ValueIdx

variable (m : (ℓ : Loc nD τ sig) → Buf (Elt F) ℓ) (ρ : Dev nD → PrngReg)

/-! ## The proof data family and the thread state -/

abbrev adm : (p : Fin 3) → (pcfgs (F := F) p).Adm := fun p => (cfgs p).toPCfg_adm
/-- Every pipeline's relational proof data, each at its region's entry contents. -/
def rdats : (p : Fin 3) → (c : Dev nD) → RDat τ (Elt F) Unit ℕ (UR sig nD τ) ℕ (Pipeline.pin (pcfgs (F := F)) adm p) c
  | ⟨0, _⟩ => fun c => rd0 (V0 m) c
  | ⟨1, _⟩ => fun c => (dat1 (V2 m) c).toR
  | ⟨2, _⟩ => fun c => (dat2 (V4 m) c).toR
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## Leaving a region: its arrays back among the core's buffers -/

/-- The arrays at contents the relational data allows, all of which are `G`, are the arrays at `G`. -/
theorem arraysAt_det {p : Fin 3} {c : Dev nD} (rd : RDat τ (Elt F) Unit ℕ (UR sig nD τ) ℕ (Pipeline.pin (pcfgs (F := F)) adm p) c) (n : ℕ)
    (G : (w : Fin (Pipeline.pin (pcfgs (F := F)) adm p).W) → Buf (Elt F) (((Pipeline.pin (pcfgs (F := F)) adm p).win w).arr.view.loc (c.tc : Thread nD τ)))
    (h : ∀ w X, rd.ArrAt w n X → X = G w) : (rd.arraysAt n : sProp 𝕄) ⊢ rd.arrays G := by
  unfold RDat.arraysAt RDat.arrays
  refine bigSep_mono fun w _ => ?_
  have h1 : iprop(∃ X, ⌜rd.ArrAt w n X⌝ ∗ ((Pipeline.pin (pcfgs (F := F)) adm p).win w).arr.view.loc (c.tc : Thread nD τ) ↦[((Pipeline.pin (pcfgs (F := F)) adm p).win w).arr.view.set]{rd.share w} X)
      ⊢ (((Pipeline.pin (pcfgs (F := F)) adm p).win w).arr.view.loc (c.tc : Thread nD τ) ↦[((Pipeline.pin (pcfgs (F := F)) adm p).win w).arr.view.set]{rd.share w} G w : sProp 𝕄) := by
    iintro ⟨%X, %hX, H⟩; rw [h w X hX]; iexact H
  exact h1

/-- A region's arrays at `G` beside the rest of the core's buffers at `V` are the core's buffers at any contents that have the
    arrays at `G` and agree with `V` elsewhere. -/
theorem bufs_of_arrays (p : Fin 3) (hw : Pipeline.WinFacts (Pipeline.pin (pcfgs (F := F)) adm p).spec)
    (harr : ∀ w, ((Pipeline.pin (pcfgs (F := F)) adm p).spec w).arr.IsWhole) (c : Dev nD)
    (rds : (p : Fin 3) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (G : (w : Fin (Pipeline.pin (pcfgs (F := F)) adm p).W) → Buf (Elt F) (((Pipeline.pin (pcfgs (F := F)) adm p).spec w).arr.view.loc (c.tc : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The regions as segments -/

set_option backward.isDefEq.respectTransparency.types false in
/-- The first region: entered from the launch contents, left with its result arrays at the means. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hdet : ((rdats m 0 c).arraysAt cfg0.N : sProp 𝕄) ⊢ (rdats m 0 c).arrays (res0 (V0 m) c) :=
      arraysAt_det (p := 0) (rdats m 0 c) cfg0.N (res0 (V0 m) c) fun w X hX => arrAt0_det (V0 m) c w X hX
    have hjoin := bufs_of_arrays 0 launch0.win launch0.arr_whole c (rdats m) ((rdats m 0 c).share_full fun _ => rfl)
      (V0 m c) (V1 m c) (res0 (V0 m) c) (hF0 m c) (hrest0 m c)
    rw [Pipeline.unscopedBufs_held] at hjoin
    iintro ⟨Ha, HO, HY, Hrest⟩
    imodintro
    isplitl [Ha Hrest]
    · iapply hjoin; isplitl [Ha]
      · iapply hdet; iexact Ha
      iexact Hrest
    isplitl [HY]; · iexact HY
    unfold Pipeline.RDat.owesAt Pipeline.owesWithin
    icases HO with ⟨%W, -, HO⟩; iexists W; iexact HO

set_option backward.isDefEq.respectTransparency.types false in
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hdet : ((rdats m 1 c).arraysAt cfg1.N : sProp 𝕄) ⊢ (rdats m 1 c).arrays (fun w => (dat1 (V2 m) c).arrAt w cfg1.N) :=
      arraysAt_det (p := 1) (rdats m 1 c) cfg1.N _ fun w X hX => (dat1 (V2 m) c).toR_arrAt w cfg1.N X hX
    have hjoin := bufs_of_arrays 1 launch1.win launch1.arr_whole c (rdats m) ((rdats m 1 c).share_full fun _ => rfl)
      (V2 m c) (V3 m c) (fun w => (dat1 (V2 m) c).arrAt w cfg1.N) (hF1 m c) (hrest1 m c)
    rw [Pipeline.unscopedBufs_held] at hjoin
    iintro ⟨Ha, HO, HY, Hrest⟩
    imodintro
    isplitl [Ha Hrest]
    · iapply hjoin; isplitl [Ha]
      · iapply hdet; iexact Ha
      iexact Hrest
    isplitl [HY]; · iexact HY
    unfold Pipeline.RDat.owesAt Pipeline.owesWithin
    icases HO with ⟨%W, -, HO⟩; iexists W; iexact HO

set_option backward.isDefEq.respectTransparency.types false in
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).toR
  hwaits := Pipeline.RDat.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hdet : ((rdats m 2 c).arraysAt cfg2.N : sProp 𝕄) ⊢ (rdats m 2 c).arrays (fun w => (dat2 (V4 m) c).arrAt w cfg2.N) :=
      arraysAt_det (p := 2) (rdats m 2 c) cfg2.N _ fun w X hX => (dat2 (V4 m) c).toR_arrAt w cfg2.N X hX
    have hjoin := bufs_of_arrays 2 launch2.win launch2.arr_whole c (rdats m) ((rdats m 2 c).share_full fun _ => rfl)
      (V4 m c) (V5 m c) (fun w => (dat2 (V4 m) c).arrAt w cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iapply hdet; iexact Ha
        iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.RDat.Seg.run (segs m) := (main_chain c).trans (by chain_rfl)

set_option backward.isDefEq.respectTransparency.types false in
/-- THE RUN: from any memory with zero counters every weakly fair execution of @main terminates, nothing faulting, the
    result array at what the third region's write-backs leave and the four argument arrays as launched. -/
theorem run_main : θ_run defs (onTc (τ := τ) (main (F := F))) ⟨m, fun _ => 0, ρ⟩ (fun r => ∀ c : Dev nD,
      r.2.mem ((c.tc : Thread nD τ).loc main_v5) = (dat2 (V4 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v5 (by decide))).trans (W5_arr m c 4),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c)⟩)

end Cert.KernelIdeal.Hand

end
-- ==== Proof.BitsFrame0.lean ====
/-
  The first kernel region (the means), 32 grid points, one per block of 8 channels. Each point reads its two feature
  blocks whole and writes 8 rows (rows 8t … 8t+7) of each of the two [256,16] result windows, which stay in their staging
  buffers across the whole grid and are written back once, after the last point. A point overwrites only its own 8 rows,
  so what a result's staging buffer holds after a point depends on what it held before: the proof data is RELATIONAL —
  "what is left is what was found, with rows 8t … 8t+7 replaced by the point's means" — and what the buffer holds at the end
  is pinned down by the 32 points together (the module that follows).
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RDat)

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S16x8x128x128 := Rect.unit (s := S16x8x128x128) ![0, 0, 0, 0] S16x8x128x128.size inb_S16x8x128x128_S16x8x128x128_0_0_0_0

/-- `Y` with the 8 rows the point at grid coordinates `i` owns replaced by `p`. -/
def slab0 (i : grid0.Coords) (Y : Vec F S256x16 .f32) (p : Vec F S8x16 .f32) : Vec F S256x16 .f32 :=
  fun y => if h : ∀ a, k0_off1 i a ≤ (y a).val ∧ (y a).val < k0_off1 i a + S8x16.size a then
      p (Rect.unitLocal (s := S256x16) (off := k0_off1 i) (size := S8x16.size) y h)
    else Y y

/-- A buffer read after one store of the 8 rows is `slab0` of what it read before. -/
theorem read_slab0 {κ : Kind} {sp : Space} (v : View sig κ sp S256x16 .f32) (f : v.ty.Contents (Elt F)) (i : grid0.Coords) (p : Vec F S8x16 .f32) :
    v.read (Elt F) (v.writes (Elt F) f [⟨Rect.unit (s := S256x16) (k0_off1 i) S8x16.size (k0_off1_inb i), p⟩]) = slab0 i (v.read (Elt F) f) p := by
  funext y
  exact View.read_writes_cons_unit v f (k0_off1_inb i) p [] y rfl

set_option maxHeartbeats 1000000 in
/-- The body on whole staging memrefs: the inputs stay, each result's buffer ends at what it held with the point's 8 rows
    replaced by the means of the input block. -/
theorem sound_kernel0 (c : Dev nD) (E : Set ℕ) (i : grid0.Coords) (arg0 : Memref sig .tc .vmem S16x8x128x128 .f32) (harg0 : arg0.IsWhole)
    (arg1 : Memref sig .tc .vmem S16x8x128x128 .f32) (harg1 : arg1.IsWhole) (arg2 : Memref sig .tc .vmem S256x16 .f32) (harg2 : arg2.IsWhole)
    (arg3 : Memref sig .tc .vmem S256x16 .f32) (harg3 : arg3.IsWhole)
    (x0 x1 : Vec F S16x8x128x128 .f32) (y2 y3 : Vec F S256x16 .f32) (K : PUnit → sProp 𝕄) :
    iprop(owns (c : Thread nD τ) arg0 fullShare x0 ∗ owns (c : Thread nD τ) arg1 fullShare x1 ∗ owns (c : Thread nD τ) arg2 fullShare y2
        ∗ owns (c : Thread nD τ) arg3 fullShare y3
        ∗ (iprop(owns (c : Thread nD τ) arg0 fullShare x0 ∗ owns (c : Thread nD τ) arg1 fullShare x1
            ∗ owns (c : Thread nD τ) arg2 fullShare (slab0 i y2 (k0_pay1 (View.ld x0 r0_x)))
            ∗ owns (c : Thread nD τ) arg3 fullShare (slab0 i y3 (k0_pay2 (View.ld x1 r0_x)))) -∗ K ⟨⟩))
      ⊢ wp frame (wpE (defs₀ (F := F)) Variants.none c none) E (cc0__pool_kernel i arg0 harg0 arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_slab0 (F := F) _ _ _ _
  iexists _; isplitr
  swap; · iexact H3
  ipureintro
  exact read_slab0 (F := F) _ _ _ _

/-- The relational proof data: arrays as the region finds them; an input's buffer is left as found; a result's buffer is
    left as found but for the point's 8 rows, which hold the means of the point's input block. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = slab0 (grid0.coords t) Y (k0_pay1 (View.ld (iblk0 V c 0 t) r0_x))
    | ⟨3, _⟩ => fun Y X => X = slab0 (grid0.coords t) Y (k0_pay2 (View.ld (iblk0 V c 1 t) r0_x))
  Φ _ := Pipeline.ΦA spec0 c
  q _ := fullShare
  owed _ := 0

theorem A_eq0 (c : Dev nD) (w : Fin cfg0.W) : (rd0 V c).A w = V c (Pipeline.arrRef spec0 w) := by
  dsimp only [rd0]
theorem after0_0 (c : Dev nD) (t : Fin cfg0.N) (Y X) : (rd0 V c).after 0 t Y X = (X = Y) := by dsimp only [rd0]
theorem after0_1 (c : Dev nD) (t : Fin cfg0.N) (Y X) : (rd0 V c).after 1 t Y X = (X = Y) := by dsimp only [rd0]
theorem after0_2 (c : Dev nD) (t : Fin cfg0.N) (Y X) :
    (rd0 V c).after 2 t Y X = (X = slab0 (grid0.coords t) Y (k0_pay1 (View.ld (iblk0 V c 0 t) r0_x))) := by dsimp only [rd0]
theorem after0_3 (c : Dev nD) (t : Fin cfg0.N) (Y X) :
    (rd0 V c).after 3 t Y X = (X = slab0 (grid0.coords t) Y (k0_pay2 (View.ld (iblk0 V c 1 t) r0_x))) := by dsimp only [rd0]

/-- What an input's buffer may hold when the body runs: its block (it is fetched at every point). -/
theorem finds0_0 (c : Dev nD) (t : Fin cfg0.N) (Y) (h : (rd0 V c).Finds 0 t Y) : Y = iblk0 V c 0 t := by
  obtain ⟨d, rfl⟩ := ((rd0 V c).finds_of_fetch (fetch0_0 t) Y).mp h
  unfold RDat.fetched RDat.blockOf iblk0; rw [A_eq0]; try rfl
theorem finds0_1 (c : Dev nD) (t : Fin cfg0.N) (Y) (h : (rd0 V c).Finds 1 t Y) : Y = iblk0 V c 1 t := by
  obtain ⟨d, rfl⟩ := ((rd0 V c).finds_of_fetch (fetch0_1 t) Y).mp h
  unfold RDat.fetched RDat.blockOf iblk0; rw [A_eq0]; try rfl

def bodyPre0 (c : Dev nD) (t : Fin cfg0.N) (Y2 Y3 : Vec F S256x16 .f32) : sProp 𝕄 :=
  iprop((rd0 V c).Φ t.castSucc ∗ (rd0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare Y2
    ∗ owns (c : Thread nD τ) (st0_3 t) fullShare Y3)

def bodyPost0 (c : Dev nD) (t : Fin cfg0.N) (Y2 Y3 : Vec F S256x16 .f32) : sProp 𝕄 :=
  iprop((rd0 V c).Φ t.succ ∗ (rd0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (slab0 (grid0.coords t) Y2 (k0_pay1 (View.ld (iblk0 V c 0 t) r0_x)))
    ∗ owns (c : Thread nD τ) (st0_3 t) fullShare (slab0 (grid0.coords t) Y3 (k0_pay2 (View.ld (iblk0 V c 1 t) r0_x))))

theorem sound_body0 (c : Dev nD) (t : Fin cfg0.N) (Y2 Y3 : Vec F S256x16 .f32) :
    bodyPre0 V c t Y2 Y3 ⊢ wp frame (wpE (defs₀ (F := F)) Variants.none c none) Set.univ (bodyAt0 t) (fun _ => bodyPost0 V c t Y2 Y3) := by
  unfold bodyPre0 bodyPost0 bodyAt0
  rw [show (rd0 V c).Φ t.succ = (rd0 V c).Φ t.castSucc from rfl,
    show (rd0 V c).owesAt () t.succ = (rd0 V c).owesAt () t.castSucc from rfl]
  iintro ⟨HΦ, Ho, H0, H1, H2, H3⟩
  iapply (sound_kernel0 c Set.univ _ _ _ _ _ _ _ _ _ (iblk0 V c 0 t) (iblk0 V c 1 t) Y2 Y3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the relational data, at every point and for all contents the buffers may hold there. -/
theorem body_obligation0 (c : Dev nD) : (rd0 (F := F) V c).BodyObligation (defs₀ (F := F)) Variants.none () Set.univ := fun t Y hY => by
  rw [bigSep_W0, bigSep_W0]
  have h0 := finds0_0 V c t (Y 0) (hY 0)
  have h1 := finds0_1 V c t (Y 1) (hY 1)
  rw [h0, h1]
  refine (sound_body0 V c t (Y 2) (Y 3)).trans (wp_mono _ _ _ fun _ => ?_)
  unfold bodyPost0
  iintro ⟨HΦ, Ho, H0, H1, H2, H3⟩
  isplitl [HΦ]; · iexact HΦ
  isplitl [Ho]; · iexact Ho
  isplitl [H0]
  · iexists _; isplitr; · ipureintro; rw [after0_0]
    iexact H0
  isplitl [H1]
  · iexists _; isplitr; · ipureintro; rw [after0_1]
    iexact H1
  isplitl [H2]
  · iexists _; isplitr; · ipureintro; rw [after0_2]
    iexact H2
  iexists _; isplitr; · ipureintro; rw [after0_3]
  iexact H3

end Cert.Kernel.Hand

end
-- ==== Proof.BitsKDefs.lean ====
/-
  What the kernel program computes, written as pure functions of its four argument arrays (at any float instance): the
  data flow of the three kernel regions and the host operations between them, with each region's arithmetic the body's own
  term (`k0_pay1`, `k0_pay2`, `k1_pay1`, `k2_pay1`).
  * `blk x t`: block `t` of a feature array — channels 8t … 8t+7, everything else whole.
  * `means1 x`, `means2 x`: the [256,16] array of means — row `r` is row `r % 8` of the first region's result on block `r / 8`.
  * `pooledK`: the two stacked along axis 0; `gateK`: the second region's result on it and the two weight matrices;
    `fwK`, `mwK`: its rows 0 … 255 and 256 … 511.
  * `rows8 g t`: rows 8t … 8t+7 of a [256,16] array; `outK`: channel `ch` of the result is channel `ch % 8` of the third
    region's result on block `ch / 8` of the two feature arrays and rows 8(ch/8) … of the two gate arrays.
-/
import proofs.«178390_j16724602651214_2_alg».proof.Proof.Gen.Kernel.Skeleton
import Idealize.ShloMosaic.Lib.ValueIdx

noncomputable section

namespace Cert.Kernel.KVal

open Idealize.ShloMosaic Idealize.ShloMosaic.ValueIdx Cert.Kernel Cert.Kernel.Gen

variable {F : FTy → Type} [FloatOps F]

/-- Block `t` of a feature array: channels 8t … 8t+7. -/
def blk (x : FVec F S16x256x128x128 .f32) (t : Fin 32) : FVec F S16x8x128x128 .f32 :=
  fun y => x (ix4 (y 0) (⟨8 * t.val + (y 1).val, by have h : (y 1).val < 8 := (y 1).isLt; omega⟩ : Fin 256) (y 2) (y 3))

/-- The block a channel lies in, and its place there. -/
def chBlock (ch : Fin 256) : Fin 32 := ⟨ch.val / 8, by omega⟩
def chLocal (ch : Fin 256) : Fin 8 := ⟨ch.val % 8, by omega⟩

/-- The means of the first feature array, row `r` from block `r / 8`. -/
def means1 (x : FVec F S16x256x128x128 .f32) : FVec F S256x16 .f32 :=
  fun y => k0_pay1 (blk x (chBlock (y 0))) (ix2 (chLocal (y 0)) (y 1))

/-- The means of the second feature array (the body's second store). -/
def means2 (x : FVec F S16x256x128x128 .f32) : FVec F S256x16 .f32 :=
  fun y => k0_pay2 (blk x (chBlock (y 0))) (ix2 (chLocal (y 0)) (y 1))

/-- The two stacked along axis 0, as the host concatenates them. -/
def pooledK (x0 x1 : FVec F S16x256x128x128 .f32) : FVec F S512x16 .f32 :=
  concatenate S512x16 0 [⟨S256x16, means1 x0⟩, ⟨S256x16, means2 x1⟩] concatenates_S256x16_S256x16_S512x16_d0

/-- The gate: the second region's arithmetic on the stacked means and the two weight matrices. -/
def gateK (x0 x1 : FVec F S16x256x128x128 .f32) (w1 : FVec F S64x512 .f32) (w2 : FVec F S512x64 .f32) : FVec F S512x16 .f32 :=
  k1_pay1 (pooledK x0 x1) w1 w2

/-- Its rows 0 … 255 and 256 … 511, as the host slices them. -/
def fwK (x0 x1 : FVec F S16x256x128x128 .f32) (w1 : FVec F S64x512 .f32) (w2 : FVec F S512x64 .f32) : FVec F S256x16 .f32 :=
  extractStridedSlice S256x16 ![0, 0] (gateK x0 x1 w1 w2) slices_S512x16_S256x16_0_0
def mwK (x0 x1 : FVec F S16x256x128x128 .f32) (w1 : FVec F S64x512 .f32) (w2 : FVec F S512x64 .f32) : FVec F S256x16 .f32 :=
  extractStridedSlice S256x16 ![256, 0] (gateK x0 x1 w1 w2) slices_S512x16_S256x16_256_0

/-- Rows 8t … 8t+7 of a [256,16] array. -/
def rows8 (g : FVec F S256x16 .f32) (t : Fin 32) : FVec F S8x16 .f32 :=
  fun y => g (ix2 (⟨8 * t.val + (y 0).val, by have h : (y 0).val < 8 := (y 0).isLt; omega⟩ : Fin 256) (y 1))

/-- The third region's result as one array, from the two feature arrays and the two [256,16] gate arrays it is handed: channel
    `ch` from the body's arithmetic on block `ch / 8` of the feature arrays and rows 8(ch/8) … 8(ch/8)+7 of the gate arrays. -/
def out2Arr (x0 x1 : FVec F S16x256x128x128 .f32) (g3 g4 : FVec F S256x16 .f32) : FVec F S16x256x128x128 .f32 :=
  fun i => k2_pay1 (rows8 g3 (chBlock (i 1))) (rows8 g4 (chBlock (i 1)))
    (blk x0 (chBlock (i 1))) (blk x1 (chBlock (i 1))) (ix4 (i 0) (chLocal (i 1)) (i 2) (i 3))

/-- The result of the whole program. -/
def outK (x0 x1 : FVec F S16x256x128x128 .f32) (w1 : FVec F S64x512 .f32) (w2 : FVec F S512x64 .f32) : FVec F S16x256x128x128 .f32 :=
  out2Arr x0 x1 (fwK x0 x1 w1 w2) (mwK x0 x1 w1 w2)

end Cert.Kernel.KVal

end
-- ==== Proof.BitsFrame0Det.lean ====
/-
  What the first kernel region leaves in its two result arrays. A result window's staging buffer keeps its contents from one
  grid point to the next and is written back once, after point 31. Point `t` replaces rows 8t … 8t+7 by the means of block
  `t`; so by induction over the points, whatever the buffer held at first, before point `t` its rows below 8t hold the means
  (`KVal.means1` / `means2` of the feature array), and after point 31 every row does: the array written back is exactly the
  array of means.
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import proofs.«178390_j16724602651214_2_alg».proof.Proof.BitsFrame0
import proofs.«178390_j16724602651214_2_alg».proof.Proof.BitsKDefs
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RDat)
open Idealize.ShloMosaic.ValueIdx

variable (V : (c : Dev nD) → (b : Ref sig .tc) → Buf (Elt F) ((c : Thread nD τ).loc b))

/-! ## The printed index maps and offsets, decided once over the grid -/

theorem idx_facts0 : ∀ t : Fin cfg0.N, win0_0.index t = ![0, t.val, 0, 0] ∧ win0_1.index t = ![0, t.val, 0, 0]
    ∧ win0_2.index t = ![0, 0] ∧ win0_3.index t = ![0, 0] ∧ k0_off1 (grid0.coords t) = ![8 * t.val, 0] :=
  (by decide +kernel : ∀ t : Fin grid0.N, _)

theorem fetch0_2 : ∀ t : Fin cfg0.N, (cfg0.win 2).fetch t = false :=
  (by decide +kernel : ∀ t : Fin grid0.N, win0_2.fetch t = false)
theorem fetch0_3 : ∀ t : Fin cfg0.N, (cfg0.win 3).fetch t = false :=
  (by decide +kernel : ∀ t : Fin grid0.N, win0_3.fetch t = false)

/-- The grid has 32 points. -/
theorem lt32 (t : Fin cfg0.N) : t.val < 32 := lt_of_lt_of_eq t.isLt N_0

/-- A grid point as a block number. -/
def pt (t : Fin cfg0.N) : Fin 32 := ⟨t.val, lt32 t⟩

theorem hz4 : (![0, 0, 0, 0] : Fin 4 → Nat) = fun _ => 0 := funext fun a => by fin_cases a <;> rfl

/-- The block the body loads at point `t` is block `t` of the feature array. -/
theorem ld_iblk0_0 (c : Dev nD) (t : Fin cfg0.N) :
    View.ld (iblk0 V c 0 t) r0_x = KVal.blk (V c main_arg0) (pt t) := by
  rw [View.ld_unit_zero (S := S16x8x128x128) hz4]
  obtain ⟨e0, -, -, -, -⟩ := idx_facts0 t
  funext j
  show V c main_arg0 (((cfg0.win 0).blk t).view.emb j) = V c main_arg0 _
  refine congrArg _ (funext fun a => Fin.ext ?_)
  match a with
  | ⟨0, _⟩ => show win0_0.index t (0 : Fin 4) * 16 + 1 * (j 0).val = (j 0).val; rw [e0]; show 0 * 16 + 1 * (j 0).val = _; omega
  | ⟨1, _⟩ => show win0_0.index t (1 : Fin 4) * 8 + 1 * (j 1).val = 8 * t.val + (j 1).val; rw [e0]; show t.val * 8 + 1 * (j 1).val = _; omega
  | ⟨2, _⟩ => show win0_0.index t (2 : Fin 4) * 128 + 1 * (j 2).val = (j 2).val; rw [e0]; show 0 * 128 + 1 * (j 2).val = _; omega
  | ⟨3, _⟩ => show win0_0.index t (3 : Fin 4) * 128 + 1 * (j 3).val = (j 3).val; rw [e0]; show 0 * 128 + 1 * (j 3).val = _; omega

theorem ld_iblk0_1 (c : Dev nD) (t : Fin cfg0.N) :
    View.ld (iblk0 V c 1 t) r0_x = KVal.blk (V c main_arg1) (pt t) := by
  rw [View.ld_unit_zero (S := S16x8x128x128) hz4]
  obtain ⟨-, e0, -, -, -⟩ := idx_facts0 t
  funext j
  show V c main_arg1 (((cfg0.win 1).blk t).view.emb j) = V c main_arg1 _
  refine congrArg _ (funext fun a => Fin.ext ?_)
  match a with
  | ⟨0, _⟩ => show win0_1.index t (0 : Fin 4) * 16 + 1 * (j 0).val = (j 0).val; rw [e0]; show 0 * 16 + 1 * (j 0).val = _; omega
  | ⟨1, _⟩ => show win0_1.index t (1 : Fin 4) * 8 + 1 * (j 1).val = 8 * t.val + (j 1).val; rw [e0]; show t.val * 8 + 1 * (j 1).val = _; omega
  | ⟨2, _⟩ => show win0_1.index t (2 : Fin 4) * 128 + 1 * (j 2).val = (j 2).val; rw [e0]; show 0 * 128 + 1 * (j 2).val = _; omega
  | ⟨3, _⟩ => show win0_1.index t (3 : Fin 4) * 128 + 1 * (j 3).val = (j 3).val; rw [e0]; show 0 * 128 + 1 * (j 3).val = _; omega

/-! ## One point's store, read at an index -/

/-- Rows below 8n of `Y` hold `G`. -/
def Upto (n : ℕ) (G Y : Vec F S256x16 .f32) : Prop := ∀ y : S256x16.Idx, (y 0).val < 8 * n → Y y = G y

/-- If the rows below 8t hold `G` and point `t`'s 8 rows are replaced by `p`, which is `G`'s rows there, the rows below
    8(t+1) hold `G`. -/
theorem upto_slab0 (t : Fin cfg0.N) (G Y : Vec F S256x16 .f32) (p : Vec F S8x16 .f32)
    (hp : ∀ (r : Fin 8) (b : Fin 16), p (ix2 r b) = G (ix2 (⟨8 * t.val + r.val, by have := lt32 t; omega⟩ : Fin 256) b))
    (hY : Upto t.val G Y) : Upto (t.val + 1) G (slab0 (grid0.coords t) Y p) := by
  obtain ⟨-, -, -, -, eo⟩ := idx_facts0 t
  intro y hy
  have hy1 : (y 1).val < 16 := (y 1).isLt
  unfold slab0
  by_cases h : ∀ a, k0_off1 (grid0.coords t) a ≤ (y a).val ∧ (y a).val < k0_off1 (grid0.coords t) a + S8x16.size a
  · rw [dif_pos h]
    have h0 := h 0
    rw [eo] at h0
    have h0' : 8 * t.val ≤ (y 0).val ∧ (y 0).val < 8 * t.val + 8 := h0
    have e1 : Rect.unitLocal (s := S256x16) (off := k0_off1 (grid0.coords t)) (size := S8x16.size) y h
        = ix2 (⟨(y 0).val - 8 * t.val, by omega⟩ : Fin 8) (⟨(y 1).val, hy1⟩ : Fin 16) := by
      funext a
      match a with
      | ⟨0, _⟩ => apply Fin.ext; show (y 0).val - k0_off1 (grid0.coords t) 0 = (y 0).val - 8 * t.val; rw [eo]; rfl
      | ⟨1, _⟩ => apply Fin.ext; show (y 1).val - k0_off1 (grid0.coords t) 1 = (y 1).val; rw [eo]; show (y 1).val - 0 = _; omega
    rw [e1, hp]
    refine congrArg G ?_
    funext a
    match a with
    | ⟨0, _⟩ => apply Fin.ext; show 8 * t.val + ((y 0).val - 8 * t.val) = (y 0).val; omega
    | ⟨1, _⟩ => rfl
  · rw [dif_neg h]
    refine hY y ?_
    by_contra hc
    refine h fun a => ?_
    match a with
    | ⟨0, _⟩ => rw [eo]; show 8 * t.val ≤ (y 0).val ∧ (y 0).val < 8 * t.val + 8; omega
    | ⟨1, _⟩ => rw [eo]; show 0 ≤ (y 1).val ∧ (y 1).val < 0 + 16; omega

/-- Point `t`'s means are rows 8t … 8t+7 of the array of means. -/
theorem pay1_rows (x : FVec F S16x256x128x128 .f32) (t : Fin cfg0.N) (r : Fin 8) (b : Fin 16) :
    k0_pay1 (KVal.blk x (pt t)) (ix2 r b) = KVal.means1 x (ix2 (⟨8 * t.val + r.val, by have := lt32 t; omega⟩ : Fin 256) b) := by
  unfold KVal.means1
  have hb : KVal.chBlock (⟨8 * t.val + r.val, by have := lt32 t; omega⟩ : Fin 256) = pt t := Fin.ext (by
    show (8 * t.val + r.val) / 8 = t.val; omega)
  have hl : KVal.chLocal (⟨8 * t.val + r.val, by have := lt32 t; omega⟩ : Fin 256) = r := Fin.ext (by
    show (8 * t.val + r.val) % 8 = r.val; omega)
  show _ = k0_pay1 (KVal.blk x (KVal.chBlock _)) (ix2 (KVal.chLocal _) b)
  rw [hb, hl]
theorem pay2_rows (x : FVec F S16x256x128x128 .f32) (t : Fin cfg0.N) (r : Fin 8) (b : Fin 16) :
    k0_pay2 (KVal.blk x (pt t)) (ix2 r b) = KVal.means2 x (ix2 (⟨8 * t.val + r.val, by have := lt32 t; omega⟩ : Fin 256) b) := by
  unfold KVal.means2
  have hb : KVal.chBlock (⟨8 * t.val + r.val, by have := lt32 t; omega⟩ : Fin 256) = pt t := Fin.ext (by
    show (8 * t.val + r.val) / 8 = t.val; omega)
  have hl : KVal.chLocal (⟨8 * t.val + r.val, by have := lt32 t; omega⟩ : Fin 256) = r := Fin.ext (by
    show (8 * t.val + r.val) % 8 = r.val; omega)
  show _ = k0_pay2 (KVal.blk x (KVal.chBlock _)) (ix2 (KVal.chLocal _) b)
  rw [hb, hl]

/-! ## What a result's buffer may hold before each point, and after the last -/

theorem finds0_2 (c : Dev nD) : ∀ (n : ℕ) (t : Fin cfg0.N), t.val = n → ∀ Y, (rd0 V c).Finds 2 t Y → Upto n (KVal.means1 (V c main_arg0)) Y
  | 0, _, _, _, _ => fun y hy => absurd hy (by omega)
  | n + 1, t, ht, Y, hF => by
    have ht' : t.val - 1 < cfg0.N := Nat.lt_of_le_of_lt (Nat.sub_le _ _) t.isLt
    rcases ((rd0 V c).finds_of_pos (fetch0_2 t) (by omega) Y).mp hF with hfl | ⟨Y', hY', ha⟩
    · exfalso
      have := (flush0_2 ⟨t.val - 1, ht'⟩).mp hfl
      have hN := lt32 t
      simp only at this; omega
    · have ih := finds0_2 c n ⟨t.val - 1, ht'⟩ (by simp only; omega) Y' hY'
      rw [after0_2] at ha
      subst ha
      have hn : n = (⟨t.val - 1, ht'⟩ : Fin cfg0.N).val := by simp only; omega
      rw [ld_iblk0_0]
      have := upto_slab0 ⟨t.val - 1, ht'⟩ (KVal.means1 (V c main_arg0)) Y' _ (pay1_rows (V c main_arg0) ⟨t.val - 1, ht'⟩) (hn ▸ ih)
      simpa [hn] using this

theorem finds0_3 (c : Dev nD) : ∀ (n : ℕ) (t : Fin cfg0.N), t.val = n → ∀ Y, (rd0 V c).Finds 3 t Y → Upto n (KVal.means2 (V c main_arg1)) Y
  | 0, _, _, _, _ => fun y hy => absurd hy (by omega)
  | n + 1, t, ht, Y, hF => by
    have ht' : t.val - 1 < cfg0.N := Nat.lt_of_le_of_lt (Nat.sub_le _ _) t.isLt
    rcases ((rd0 V c).finds_of_pos (fetch0_3 t) (by omega) Y).mp hF with hfl | ⟨Y', hY', ha⟩
    · exfalso
      have := (flush0_3 ⟨t.val - 1, ht'⟩).mp hfl
      have hN := lt32 t
      simp only at this; omega
    · have ih := finds0_3 c n ⟨t.val - 1, ht'⟩ (by simp only; omega) Y' hY'
      rw [after0_3] at ha
      subst ha
      have hn : n = (⟨t.val - 1, ht'⟩ : Fin cfg0.N).val := by simp only; omega
      rw [ld_iblk0_1]
      have := upto_slab0 ⟨t.val - 1, ht'⟩ (KVal.means2 (V c main_arg1)) Y' _ (pay2_rows (V c main_arg1) ⟨t.val - 1, ht'⟩) (hn ▸ ih)
      simpa [hn] using this

/-! ## The arrays the region leaves -/

/-- What the region's four arrays hold when it is left: the two feature arrays as entered, the two result arrays at the
    means. -/
def res0 (c : Dev nD) : (w : Fin cfg0.W) → Buf (Elt F) ((cfg0.win w).arr.view.loc (c.tc : Thread nD τ))
  | ⟨0, _⟩ => V c main_arg0
  | ⟨1, _⟩ => V c main_arg1
  | ⟨2, _⟩ => KVal.means1 (V c main_arg0)
  | ⟨3, _⟩ => KVal.means2 (V c main_arg1)

theorem res0_0 (c : Dev nD) : res0 V c 0 = V c main_arg0 := rfl
theorem res0_1 (c : Dev nD) : res0 V c 1 = V c main_arg1 := rfl
theorem res0_2 (c : Dev nD) : res0 V c 2 = KVal.means1 (V c main_arg0) := rfl
theorem res0_3 (c : Dev nD) : res0 V c 3 = KVal.means2 (V c main_arg1) := rfl

end Cert.Kernel.Hand

end
-- ==== Proof.BitsFrame1.lean ====
/-
  The second kernel region (the gate: two matrix products, a clamp at zero and the logistic function, on whole
  arrays, one grid point). Stated at a parameter `V`, the buffer contents when the region is entered: each input window's
  block at the one point is its whole array read off `V`; the body loads the three inputs whole and stores the result whole,
  so the output's staging buffer after the body is the body's arithmetic (`k1_pay1`) of the three input blocks.
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_p : Rect S512x16 := Rect.unit (s := S512x16) ![0, 0] S512x16.size inb_S512x16_S512x16_0_0
abbrev r1_a : Rect S64x512 := Rect.unit (s := S64x512) ![0, 0] S64x512.size inb_S64x512_S64x512_0_0
abbrev r1_b : Rect S512x64 := Rect.unit (s := S512x64) ![0, 0] S512x64.size inb_S512x64_S512x64_0_0

/-- The output's staging buffer after the body: its one whole store. -/
def out1_3 (x0 : Vec F S512x16 .f32) (x1 : Vec F S64x512 .f32) (x2 : Vec F S512x64 .f32) : Vec F S512x16 .f32 :=
  View.canon [⟨r1_p, k1_pay1 (View.ld x0 r1_p) (View.ld x1 r1_a) (View.ld x2 r1_b)⟩]

theorem cover1_3 (p0 : Vec F S512x16 .f32) (y : S512x16.Idx) :
    ∃ pc ∈ ([⟨r1_p, p0⟩] : List (View.Piece (Elt F) S512x16 .f32)), y ∈ pc.1.set :=
  View.cover_of_tiled [⟨r1_p, p0⟩] S512x16.size (by rfl) y

set_option maxHeartbeats 1000000 in
/-- The body on whole staging memrefs: the inputs stay, the output ends at `out1_3` of the inputs. -/
theorem sound_kernel1 (c : Dev nD) (E : Set ℕ) (i : grid1.Coords) (arg0 : Memref sig .tc .vmem S512x16 .f32) (harg0 : arg0.IsWhole)
    (arg1 : Memref sig .tc .vmem S64x512 .f32) (harg1 : arg1.IsWhole) (arg2 : Memref sig .tc .vmem S512x64 .f32) (harg2 : arg2.IsWhole)
    (arg3 : Memref sig .tc .vmem S512x16 .f32) (harg3 : arg3.IsWhole)
    (x0 : Vec F S512x16 .f32) (x1 : Vec F S64x512 .f32) (x2 : Vec F S512x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__mlp_kernel i arg0 harg0 arg1 harg1 arg2 harg2 arg3 harg3) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data: arrays as the region finds them; after the body each input's buffer at its block, the output's at
    `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsFrame2.lean ====
/-
  The third kernel region (the weighted sum), 32 grid points, one per block of 8 channels. Stated at a parameter `V`, the
  buffer contents when the region is entered. At point `t` the body reads rows 8t … 8t+7 of the two gate arrays (whole
  [256,16] windows, fetched once), the two feature blocks whole, and stores the output block whole: the output's staging
  buffer after the body is the body's arithmetic (`k2_pay1`) of those four reads.
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block when the body runs, fetched at that point or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S16x8x128x128 := Rect.unit (s := S16x8x128x128) ![0, 0, 0, 0] S16x8x128x128.size inb_S16x8x128x128_S16x8x128x128_0_0_0_0
/-- The eight gate rows point `i` reads. -/
abbrev r2_g (i : grid2.Coords) : Rect S256x16 := Rect.unit (s := S256x16) (k2_off1 i) S8x16.size (k2_off1_inb i)

/-- The output's staging buffer after the body at grid coordinates `i`: its one whole store. -/
def out2_4 (i : grid2.Coords) (x0 x1 : Vec F S16x8x128x128 .f32) (x2 x3 : Vec F S256x16 .f32) : Vec F S16x8x128x128 .f32 :=
  View.canon [⟨r2_x, k2_pay1 (View.ld x2 (r2_g i)) (View.ld x3 (r2_g i)) (View.ld x0 r2_x) (View.ld x1 r2_x)⟩]

theorem cover2_4 (p0 : Vec F S16x8x128x128 .f32) (y : S16x8x128x128.Idx) :
    ∃ pc ∈ ([⟨r2_x, p0⟩] : List (View.Piece (Elt F) S16x8x128x128 .f32)), y ∈ pc.1.set :=
  View.cover_of_tiled [⟨r2_x, p0⟩] S16x8x128x128.size (by rfl) y

set_option maxHeartbeats 1000000 in
/-- The body on whole staging memrefs: the inputs stay, the output ends at `out2_4` of the inputs. -/
theorem sound_kernel2 (c : Dev nD) (E : Set ℕ) (i : grid2.Coords) (arg0 : Memref sig .tc .vmem S16x8x128x128 .f32) (harg0 : arg0.IsWhole)
    (arg1 : Memref sig .tc .vmem S16x8x128x128 .f32) (harg1 : arg1.IsWhole) (arg2 : Memref sig .tc .vmem S256x16 .f32) (harg2 : arg2.IsWhole)
    (arg3 : Memref sig .tc .vmem S256x16 .f32) (harg3 : arg3.IsWhole) (arg4 : Memref sig .tc .vmem S16x8x128x128 .f32) (harg4 : arg4.IsWhole)
    (x0 x1 : Vec F S16x8x128x128 .f32) (x2 x3 : Vec F S256x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 i x0 x1 x2 x3)) -∗ K ⟨⟩))
      ⊢ wp frame (wpE (defs₀ (F := F)) Variants.none c none) E (cc2__weighted_sum_kernel i arg0 harg0 arg1 harg1 arg2 harg2 arg3 harg3 arg4 harg4) K := by
  simp only [cc2__weighted_sum_kernel_eq_skeleton]; unfold cc2__weighted_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data: arrays as the region finds them; after the body each input's buffer at its block, the output's at
    `out2_4` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (grid2.coords t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (grid2.coords t) (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRunDefs.lean ====
/-
  The contents of the core's buffers at each boundary between two items of @main — the launch, the first kernel region, the
  concatenation, the second region, the two slices, the third region — as a fold from the launch memory: a host stretch
  applies its operations, a region leaves its arrays at what its write-backs make of them and every other buffer as it was.
  No item writes an argument array: read back through the fold, each ends as launched.
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import proofs.«178390_j16724602651214_2_alg».proof.Proof.BitsFrame0Det
import proofs.«178390_j16724602651214_2_alg».proof.Proof.BitsFrame1
import proofs.«178390_j16724602651214_2_alg».proof.Proof.BitsFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RDat)
open Idealize.ShloMosaic.ValueIdx

variable (m : (ℓ : Loc nD τ sig) → Buf (Elt F) ℓ) (ρ : Dev nD → PrngReg)

/-! ## The buffer contents at each boundary between two items of @main -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its result arrays at the means. -/
def W1 (c : Dev nD) : Valuation τ sig (Elt F) := Pipeline.withArrays spec0 c (W0 m c) (res0 (V0 m) c)
theorem W1_arr (c : Dev nD) (w : Fin cfg0.W) : W1 m c (Proc.devRef .tc (Pipeline.arrRef spec0 w)) = res0 (V0 m) c w := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : res0 (V0 m) c w = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the concatenation. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) := Pipeline.withArrays spec1 c (W2 m c) fun w => (dat1 (V2 m) c).arrAt w cfg1.N
theorem W3_arr (c : Dev nD) (w : Fin cfg1.W) : W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the two slices. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the third region. -/
def W5 (c : Dev nD) : Valuation τ sig (Elt F) := Pipeline.withArrays spec2 c (W4 m c) fun w => (dat2 (V4 m) c).arrAt w cfg2.N
theorem W5_arr (c : Dev nD) (w : Fin cfg2.W) : W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat2 (V4 m) c).arrAt_in 0 rfl _).trans (A_eq2 (V4 m) c 0))
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (res0_0 (V0 m) c)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 1).trans (((dat2 (V4 m) c).arrAt_in 1 rfl _).trans (A_eq2 (V4 m) c 1))
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (res0_1 (V0 m) c)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 1).trans (((dat1 (V2 m) c).arrAt_in 1 rfl _).trans (A_eq1 (V2 m) c 1))
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := (W3_arr m c 2).trans (((dat1 (V2 m) c).arrAt_in 2 rfl _).trans (A_eq1 (V2 m) c 2))
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

end Cert.Kernel.Hand

end
-- ==== Proof.BitsFrame0Arr.lean ====
/-
  What the first kernel region leaves in its four arrays. The two feature arrays are inputs and are never written. A result
  array is written back once, after the last of the 32 points, with the whole of its staging buffer: before that it holds
  what it held at entry; and the buffer written back is the array of means, because before point 31 its rows below 8·31
  hold the means and point 31 replaces the last eight rows by the means of block 31. The result window's one block is the
  whole array (block index (0, 0), block extents the array's), so the write-back overwrites every entry.
-/
import proofs.«178390_j16724602651214_2_alg».proof.Proof.BitsFrame0Det

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RDat)
open Idealize.ShloMosaic.ValueIdx

variable (V : (c : Dev nD) → (b : Ref sig .tc) → Buf (Elt F) ((c : Thread nD τ).loc b))

/-! ## What the body leaves in a result's buffer at a point -/

/-- After point `t` the rows below 8(t+1) of the first result's buffer hold the means. -/
theorem leaves0_2 (c : Dev nD) (t : Fin cfg0.N) (X) (h : (rd0 V c).Leaves 2 t X) :
    Upto (t.val + 1) (KVal.means1 (V c main_arg0)) X := by
  obtain ⟨Y, hY, ha⟩ := h
  have ih := finds0_2 V c t.val t rfl Y hY
  rw [after0_2] at ha
  subst ha
  rw [ld_iblk0_0]
  exact upto_slab0 t (KVal.means1 (V c main_arg0)) Y _ (pay1_rows (V c main_arg0) t) ih

/-- After point `t` the rows below 8(t+1) of the second result's buffer hold the means. -/
theorem leaves0_3 (c : Dev nD) (t : Fin cfg0.N) (X) (h : (rd0 V c).Leaves 3 t X) :
    Upto (t.val + 1) (KVal.means2 (V c main_arg1)) X := by
  obtain ⟨Y, hY, ha⟩ := h
  have ih := finds0_3 V c t.val t rfl Y hY
  rw [after0_3] at ha
  subst ha
  rw [ld_iblk0_1]
  exact upto_slab0 t (KVal.means2 (V c main_arg1)) Y _ (pay2_rows (V c main_arg1) t) ih

/-! ## The write-back of a result window covers the whole array -/

/-- The grid's last point. -/
def tLast : Fin cfg0.N := ⟨31, lt_of_lt_of_eq (by omega : 31 < 32) N_0.symm⟩

/-- Every entry of the first result array lies in the window's block at every point: the block is the whole array. -/
theorem mem_blk0_2 (t : Fin cfg0.N) (i : S256x16.Idx) : i ∈ ((cfg0.win 2).blk t).view.set := by
  show i ∈ ((View.whole main_v0_0).slice (win0_2.rect t)).set
  rw [View.set_slice_whole, Rect.mem_set_unit]
  obtain ⟨-, -, e2, -, -⟩ := idx_facts0 t
  have h0 : (i 0).val < 256 := (i 0).isLt
  have h1 : (i 1).val < 16 := (i 1).isLt
  intro a
  match a with
  | ⟨0, _⟩ =>
    show win0_2.index t (0 : Fin 2) * 256 ≤ (i 0).val ∧ (i 0).val < win0_2.index t (0 : Fin 2) * 256 + 256
    rw [e2]; show 0 * 256 ≤ (i 0).val ∧ (i 0).val < 0 * 256 + 256; omega
  | ⟨1, _⟩ =>
    show win0_2.index t (1 : Fin 2) * 16 ≤ (i 1).val ∧ (i 1).val < win0_2.index t (1 : Fin 2) * 16 + 16
    rw [e2]; show 0 * 16 ≤ (i 1).val ∧ (i 1).val < 0 * 16 + 16; omega

/-- A buffer whose every row holds `G`, cut to the block the write-back moves, is the window's block of `G`. -/
theorem cut_eq_read0_2 (t : Fin cfg0.N) (G : Vec F S256x16 .f32) (X : (cfg0.win 2).block.Idx → Elt F (cfg0.win 2).elt)
    (hX : Upto 32 G X) :
    (cfg0.win 2).cut (cfg0.grid.coords t) X = ((cfg0.win 2).blk t).view.read (Elt F) G := by
  obtain ⟨-, -, e2, -, -⟩ := idx_facts0 t
  funext j
  have h0 : (j 0).val < 256 := (j 0).isLt
  have h1 : (j 1).val < 16 := (j 1).isLt
  show X ((cfg0.win 2).xinj (cfg0.grid.coords t) j) = G (((cfg0.win 2).blk t).view.emb j)
  rw [hX _ (show (j 0).val < 8 * 32 by omega)]
  refine congrArg G (funext fun a => Fin.ext ?_)
  match a with
  | ⟨0, _⟩ => show (j 0).val = win0_2.index t (0 : Fin 2) * 256 + 1 * (j 0).val; rw [e2]; show (j 0).val = 0 * 256 + 1 * (j 0).val; omega
  | ⟨1, _⟩ => show (j 1).val = win0_2.index t (1 : Fin 2) * 16 + 1 * (j 1).val; rw [e2]; show (j 1).val = 0 * 16 + 1 * (j 1).val; omega

/-- Every entry of the second result array lies in the window's block at every point: the block is the whole array. -/
theorem mem_blk0_3 (t : Fin cfg0.N) (i : S256x16.Idx) : i ∈ ((cfg0.win 3).blk t).view.set := by
  show i ∈ ((View.whole main_v0_1).slice (win0_3.rect t)).set
  rw [View.set_slice_whole, Rect.mem_set_unit]
  obtain ⟨-, -, -, e2, -⟩ := idx_facts0 t
  have h0 : (i 0).val < 256 := (i 0).isLt
  have h1 : (i 1).val < 16 := (i 1).isLt
  intro a
  match a with
  | ⟨0, _⟩ =>
    show win0_3.index t (0 : Fin 2) * 256 ≤ (i 0).val ∧ (i 0).val < win0_3.index t (0 : Fin 2) * 256 + 256
    rw [e2]; show 0 * 256 ≤ (i 0).val ∧ (i 0).val < 0 * 256 + 256; omega
  | ⟨1, _⟩ =>
    show win0_3.index t (1 : Fin 2) * 16 ≤ (i 1).val ∧ (i 1).val < win0_3.index t (1 : Fin 2) * 16 + 16
    rw [e2]; show 0 * 16 ≤ (i 1).val ∧ (i 1).val < 0 * 16 + 16; omega

/-- A buffer whose every row holds `G`, cut to the block the write-back moves, is the window's block of `G`. -/
theorem cut_eq_read0_3 (t : Fin cfg0.N) (G : Vec F S256x16 .f32) (X : (cfg0.win 3).block.Idx → Elt F (cfg0.win 3).elt)
    (hX : Upto 32 G X) :
    (cfg0.win 3).cut (cfg0.grid.coords t) X = ((cfg0.win 3).blk t).view.read (Elt F) G := by
  obtain ⟨-, -, -, e2, -⟩ := idx_facts0 t
  funext j
  have h0 : (j 0).val < 256 := (j 0).isLt
  have h1 : (j 1).val < 16 := (j 1).isLt
  show X ((cfg0.win 3).xinj (cfg0.grid.coords t) j) = G (((cfg0.win 3).blk t).view.emb j)
  rw [hX _ (show (j 0).val < 8 * 32 by omega)]
  refine congrArg G (funext fun a => Fin.ext ?_)
  match a with
  | ⟨0, _⟩ => show (j 0).val = win0_3.index t (0 : Fin 2) * 256 + 1 * (j 0).val; rw [e2]; show (j 0).val = 0 * 256 + 1 * (j 0).val; omega
  | ⟨1, _⟩ => show (j 1).val = win0_3.index t (1 : Fin 2) * 16 + 1 * (j 1).val; rw [e2]; show (j 1).val = 0 * 16 + 1 * (j 1).val; omega

/-- Below the last point nothing of result window 2 is written back: its array holds its entry contents. -/
theorem arrAt0_2_below (c : Dev nD) : ∀ n, n ≤ 31 → (rd0 V c).ArrAt 2 n = fun G => G = (rd0 V c).A 2
  | 0, _ => rfl
  | n + 1, h => by
    have hn : n < cfg0.N := lt_of_lt_of_eq (by omega : n < 32) N_0.symm
    have e := (rd0 V c).ArrAt_succ 2 ⟨n, hn⟩
    have hf : ¬ ((cfg0.win 2).flush ⟨n, hn⟩ = true) := fun hf => by
      have := (flush0_2 ⟨n, hn⟩).mp hf
      simp only at this; omega
    rw [if_neg hf] at e
    exact e.trans (arrAt0_2_below c n (by omega))

/-- After the last point result window 2's array is the array of means. -/
theorem arrAt0_2_last (c : Dev nD) (G : Buf (Elt F) ((cfg0.win 2).arr.view.loc (c.tc : Thread nD τ)))
    (h : (rd0 V c).ArrAt 2 cfg0.N G) : G = KVal.means1 (V c main_arg0) := by
  have hN : cfg0.N = tLast.val + 1 := N_0
  have h' : (rd0 V c).ArrAt 2 (tLast.val + 1) G := (congrFun (congrArg ((rd0 V c).ArrAt 2) hN) G).mp h
  rw [(rd0 V c).ArrAt_succ 2 tLast, if_pos ((flush0_2 tLast).mpr rfl)] at h'
  obtain ⟨G₀, X, -, hX, rfl⟩ := h'
  have hU : Upto 32 (KVal.means1 (V c main_arg0)) X := leaves0_2 V c tLast X hX
  rw [cut_eq_read0_2 tLast _ X hU, View.write_read_eq_piecewise]
  funext i
  exact Finset.piecewise_eq_of_mem _ _ _ (by rw [View.setOn_univ]; exact mem_blk0_2 tLast i)

/-- Below the last point nothing of result window 3 is written back: its array holds its entry contents. -/
theorem arrAt0_3_below (c : Dev nD) : ∀ n, n ≤ 31 → (rd0 V c).ArrAt 3 n = fun G => G = (rd0 V c).A 3
  | 0, _ => rfl
  | n + 1, h => by
    have hn : n < cfg0.N := lt_of_lt_of_eq (by omega : n < 32) N_0.symm
    have e := (rd0 V c).ArrAt_succ 3 ⟨n, hn⟩
    have hf : ¬ ((cfg0.win 3).flush ⟨n, hn⟩ = true) := fun hf => by
      have := (flush0_3 ⟨n, hn⟩).mp hf
      simp only at this; omega
    rw [if_neg hf] at e
    exact e.trans (arrAt0_3_below c n (by omega))

/-- After the last point result window 3's array is the array of means. -/
theorem arrAt0_3_last (c : Dev nD) (G : Buf (Elt F) ((cfg0.win 3).arr.view.loc (c.tc : Thread nD τ)))
    (h : (rd0 V c).ArrAt 3 cfg0.N G) : G = KVal.means2 (V c main_arg1) := by
  have hN : cfg0.N = tLast.val + 1 := N_0
  have h' : (rd0 V c).ArrAt 3 (tLast.val + 1) G := (congrFun (congrArg ((rd0 V c).ArrAt 3) hN) G).mp h
  rw [(rd0 V c).ArrAt_succ 3 tLast, if_pos ((flush0_3 tLast).mpr rfl)] at h'
  obtain ⟨G₀, X, -, hX, rfl⟩ := h'
  have hU : Upto 32 (KVal.means2 (V c main_arg1)) X := leaves0_3 V c tLast X hX
  rw [cut_eq_read0_3 tLast _ X hU, View.write_read_eq_piecewise]
  funext i
  exact Finset.piecewise_eq_of_mem _ _ _ (by rw [View.setOn_univ]; exact mem_blk0_3 tLast i)

/-! ## The four arrays when the region is left -/

/-- Whatever the region's arrays may hold after all write-backs is: the feature arrays as entered, the result arrays at the
    means. -/
theorem arrAt0_det (c : Dev nD) (w : Fin cfg0.W) (G : Buf (Elt F) ((cfg0.win w).arr.view.loc (c.tc : Thread nD τ))) :
    (rd0 V c).ArrAt w cfg0.N G → G = res0 V c w :=
  match w with
  | ⟨0, _⟩ => fun h => ((congrFun ((rd0 V c).ArrAt_in 0 rfl cfg0.N) G).mp h).trans (A_eq0 V c 0)
  | ⟨1, _⟩ => fun h => ((congrFun ((rd0 V c).ArrAt_in 1 rfl cfg0.N) G).mp h).trans (A_eq0 V c 1)
  | ⟨2, _⟩ => fun h => arrAt0_2_last V c G h
  | ⟨3, _⟩ => fun h => arrAt0_3_last V c G h

end Cert.Kernel.Hand

end
-- ==== Proof.BitsRunMain.lean ====
/-
  The run of the whole program: @main is five items — three kernel regions with a concatenation and two slices between them.
  Each region is entered with every buffer of the core at the boundary's contents, hands its arrays to the pipeline, and is
  left with them at what the pipeline's write-backs make of them (for the first region: the means, whatever its staging
  buffers held at first); the host stretches run over the same buffers. So every weakly fair execution terminates, nothing
  faults, the result array ends at what the third region leaves and the argument arrays end as launched.
-/
import proofs.«178390_j16724602651214_2_alg».proof.Proof.Gen.Kernel.Launch
import proofs.«178390_j16724602651214_2_alg».proof.Proof.Gen.Kernel.Skeleton
import proofs.«178390_j16724602651214_2_alg».proof.Proof.Gen.Kernel.Points
import proofs.«178390_j16724602651214_2_alg».proof.Proof.BitsRunDefs
import proofs.«178390_j16724602651214_2_alg».proof.Proof.BitsFrame0Arr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RDat)
open Idealize.ShloMosaic.ValueIdx

variable (m : (ℓ : Loc nD τ sig) → Buf (Elt F) ℓ) (ρ : Dev nD → PrngReg)

/-! ## The proof data family and the thread state -/

abbrev adm : (p : Fin 3) → (pcfgs (F := F) p).Adm := fun p => (cfgs p).toPCfg_adm
/-- Every pipeline's relational proof data, each at its region's entry contents. -/
def rdats : (p : Fin 3) → (c : Dev nD) → RDat τ (Elt F) Unit ℕ (UR sig nD τ) ℕ (Pipeline.pin (pcfgs (F := F)) adm p) c
  | ⟨0, _⟩ => fun c => rd0 (V0 m) c
  | ⟨1, _⟩ => fun c => (dat1 (V2 m) c).toR
  | ⟨2, _⟩ => fun c => (dat2 (V4 m) c).toR
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## Leaving a region: its arrays back among the core's buffers -/

/-- The arrays at contents the relational data allows, all of which are `G`, are the arrays at `G`. -/
theorem arraysAt_det {p : Fin 3} {c : Dev nD} (rd : RDat τ (Elt F) Unit ℕ (UR sig nD τ) ℕ (Pipeline.pin (pcfgs (F := F)) adm p) c) (n : ℕ)
    (G : (w : Fin (Pipeline.pin (pcfgs (F := F)) adm p).W) → Buf (Elt F) (((Pipeline.pin (pcfgs (F := F)) adm p).win w).arr.view.loc (c.tc : Thread nD τ)))
    (h : ∀ w X, rd.ArrAt w n X → X = G w) : (rd.arraysAt n : sProp 𝕄) ⊢ rd.arrays G := by
  unfold RDat.arraysAt RDat.arrays
  refine bigSep_mono fun w _ => ?_
  have h1 : iprop(∃ X, ⌜rd.ArrAt w n X⌝ ∗ ((Pipeline.pin (pcfgs (F := F)) adm p).win w).arr.view.loc (c.tc : Thread nD τ) ↦[((Pipeline.pin (pcfgs (F := F)) adm p).win w).arr.view.set]{rd.share w} X)
      ⊢ (((Pipeline.pin (pcfgs (F := F)) adm p).win w).arr.view.loc (c.tc : Thread nD τ) ↦[((Pipeline.pin (pcfgs (F := F)) adm p).win w).arr.view.set]{rd.share w} G w : sProp 𝕄) := by
    iintro ⟨%X, %hX, H⟩; rw [h w X hX]; iexact H
  exact h1

/-- A region's arrays at `G` beside the rest of the core's buffers at `V` are the core's buffers at any contents that have the
    arrays at `G` and agree with `V` elsewhere. -/
theorem bufs_of_arrays (p : Fin 3) (hw : Pipeline.WinFacts (Pipeline.pin (pcfgs (F := F)) adm p).spec)
    (harr : ∀ w, ((Pipeline.pin (pcfgs (F := F)) adm p).spec w).arr.IsWhole) (c : Dev nD)
    (rds : (p : Fin 3) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (G : (w : Fin (Pipeline.pin (pcfgs (F := F)) adm p).W) → Buf (Elt F) (((Pipeline.pin (pcfgs (F := F)) adm p).spec w).arr.view.loc (c.tc : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The regions as segments -/

set_option backward.isDefEq.respectTransparency.types false in
/-- The first region: entered from the launch contents, left with its result arrays at the means. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hdet : ((rdats m 0 c).arraysAt cfg0.N : sProp 𝕄) ⊢ (rdats m 0 c).arrays (res0 (V0 m) c) :=
      arraysAt_det (p := 0) (rdats m 0 c) cfg0.N (res0 (V0 m) c) fun w X hX => arrAt0_det (V0 m) c w X hX
    have hjoin := bufs_of_arrays 0 launch0.win launch0.arr_whole c (rdats m) ((rdats m 0 c).share_full fun _ => rfl)
      (V0 m c) (V1 m c) (res0 (V0 m) c) (hF0 m c) (hrest0 m c)
    rw [Pipeline.unscopedBufs_held] at hjoin
    iintro ⟨Ha, HO, HY, Hrest⟩
    imodintro
    isplitl [Ha Hrest]
    · iapply hjoin; isplitl [Ha]
      · iapply hdet; iexact Ha
      iexact Hrest
    isplitl [HY]; · iexact HY
    unfold Pipeline.RDat.owesAt Pipeline.owesWithin
    icases HO with ⟨%W, -, HO⟩; iexists W; iexact HO

set_option backward.isDefEq.respectTransparency.types false in
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hdet : ((rdats m 1 c).arraysAt cfg1.N : sProp 𝕄) ⊢ (rdats m 1 c).arrays (fun w => (dat1 (V2 m) c).arrAt w cfg1.N) :=
      arraysAt_det (p := 1) (rdats m 1 c) cfg1.N _ fun w X hX => (dat1 (V2 m) c).toR_arrAt w cfg1.N X hX
    have hjoin := bufs_of_arrays 1 launch1.win launch1.arr_whole c (rdats m) ((rdats m 1 c).share_full fun _ => rfl)
      (V2 m c) (V3 m c) (fun w => (dat1 (V2 m) c).arrAt w cfg1.N) (hF1 m c) (hrest1 m c)
    rw [Pipeline.unscopedBufs_held] at hjoin
    iintro ⟨Ha, HO, HY, Hrest⟩
    imodintro
    isplitl [Ha Hrest]
    · iapply hjoin; isplitl [Ha]
      · iapply hdet; iexact Ha
      iexact Hrest
    isplitl [HY]; · iexact HY
    unfold Pipeline.RDat.owesAt Pipeline.owesWithin
    icases HO with ⟨%W, -, HO⟩; iexists W; iexact HO

set_option backward.isDefEq.respectTransparency.types false in
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).toR
  hwaits := Pipeline.RDat.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hdet : ((rdats m 2 c).arraysAt cfg2.N : sProp 𝕄) ⊢ (rdats m 2 c).arrays (fun w => (dat2 (V4 m) c).arrAt w cfg2.N) :=
      arraysAt_det (p := 2) (rdats m 2 c) cfg2.N _ fun w X hX => (dat2 (V4 m) c).toR_arrAt w cfg2.N X hX
    have hjoin := bufs_of_arrays 2 launch2.win launch2.arr_whole c (rdats m) ((rdats m 2 c).share_full fun _ => rfl)
      (V4 m c) (V5 m c) (fun w => (dat2 (V4 m) c).arrAt w cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iapply hdet; iexact Ha
        iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.RDat.Seg.run (segs m) := (main_chain c).trans (by chain_rfl)

set_option backward.isDefEq.respectTransparency.types false in
/-- THE RUN: from any memory with zero counters every weakly fair execution of @main terminates, nothing faulting, the
    result array at what the third region's write-backs leave and the four argument arrays as launched. -/
theorem run_main : θ_run defs (onTc (τ := τ) (main (F := F))) ⟨m, fun _ => 0, ρ⟩ (fun r => ∀ c : Dev nD,
      r.2.mem ((c.tc : Thread nD τ).loc main_v5) = (dat2 (V4 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v5 (by decide))).trans (W5_arr m c 4),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c)⟩)

end Cert.Kernel.Hand

end
-- ==== Proof.Final1.lean ====
/-
  The second kernel region's result array, read off its frame: after the region the gate array holds the body's arithmetic
  (`k1_pay1`) of the three input arrays as the region finds them.

  The region has one grid point and every window's block is its whole array: each index map is constantly zero, so a
  block's element sits in the array at 0 × size + 1 × its own coordinate. Hence each input block read off the entry
  contents is the input array; what the one point writes back is the body's arithmetic of the three arrays, read through
  the output's block, which is again the whole array; and that one block covers every index.
-/
import proofs.«178390_j16724602651214_2_alg».proof.Proof.Frame1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-- The zero offsets of a whole rectangle, however they are spelt. -/
theorem zeros2 : (![0, 0] : Fin 2 → Nat) = fun _ => 0 := funext fun a => by fin_cases a <;> rfl

/-- Every window's block index at the one grid point is zero on both axes (decided over the grid). -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The stacked means' block is the whole [512, 16] array. -/
theorem iblk1_0_eq (c : Dev nD) (t : Fin cfg1.N) : (iblk1 V c 0 t : Vec F S512x16 .f32) = V c main_v1 := by
  obtain ⟨e00, e01, e10, e11, e20, e21, -⟩ := idx_facts1 t
  funext y
  unfold iblk1
  rw [View.read_apply]
  show V c main_v1 (((cfg1.win 0).blk t).view.emb y) = V c main_v1 y
  refine congrArg (V c main_v1) (funext fun a => Fin.ext ?_)
  match a with
  | ⟨0, _⟩ => show win1_0.index t (0 : Fin 2) * 512 + 1 * (y 0).val = (y 0).val; omega
  | ⟨1, _⟩ => show win1_0.index t (1 : Fin 2) * 16 + 1 * (y 1).val = (y 1).val; omega

/-- The first weight matrix's block is the whole [64, 512] array. -/
theorem iblk1_1_eq (c : Dev nD) (t : Fin cfg1.N) : (iblk1 V c 1 t : Vec F S64x512 .f32) = V c main_arg2 := by
  obtain ⟨e00, e01, e10, e11, e20, e21, -⟩ := idx_facts1 t
  funext y
  unfold iblk1
  rw [View.read_apply]
  show V c main_arg2 (((cfg1.win 1).blk t).view.emb y) = V c main_arg2 y
  refine congrArg (V c main_arg2) (funext fun a => Fin.ext ?_)
  match a with
  | ⟨0, _⟩ => show win1_1.index t (0 : Fin 2) * 64 + 1 * (y 0).val = (y 0).val; omega
  | ⟨1, _⟩ => show win1_1.index t (1 : Fin 2) * 512 + 1 * (y 1).val = (y 1).val; omega

/-- The second weight matrix's block is the whole [512, 64] array. -/
theorem iblk1_2_eq (c : Dev nD) (t : Fin cfg1.N) : (iblk1 V c 2 t : Vec F S512x64 .f32) = V c main_arg3 := by
  obtain ⟨e00, e01, e10, e11, e20, e21, -⟩ := idx_facts1 t
  funext y
  unfold iblk1
  rw [View.read_apply]
  show V c main_arg3 (((cfg1.win 2).blk t).view.emb y) = V c main_arg3 y
  refine congrArg (V c main_arg3) (funext fun a => Fin.ext ?_)
  match a with
  | ⟨0, _⟩ => show win1_2.index t (0 : Fin 2) * 512 + 1 * (y 0).val = (y 0).val; omega
  | ⟨1, _⟩ => show win1_2.index t (1 : Fin 2) * 64 + 1 * (y 1).val = (y 1).val; omega

/-- What the grid point writes back is the body's arithmetic of the three input arrays, read through the output's block. -/
theorem flushed1_eq (c : Dev nD) (t : Fin cfg1.N) :
    (dat1 V c).flushed 3 t
      = ((cfg1.win 3).blk t).view.read (Elt F) (k1_pay1 (V c main_v1) (V c main_arg2) (V c main_arg3)) := by
  show (cfg1.win 3).cut (grid1.coords t) ((dat1 V c).after 3 t) = _
  rw [after1_3]
  unfold out1_3
  rw [View.canon_unit_zero zeros2]
  simp only [View.ld_unit_zero (S := S512x16) zeros2, View.ld_unit_zero (S := S64x512) zeros2,
    View.ld_unit_zero (S := S512x64) zeros2]
  rw [iblk1_0_eq, iblk1_1_eq, iblk1_2_eq]
  obtain ⟨-, -, -, -, -, -, e30, e31⟩ := idx_facts1 t
  funext y
  show k1_pay1 (V c main_v1) (V c main_arg2) (V c main_arg3) y
    = k1_pay1 (V c main_v1) (V c main_arg2) (V c main_arg3) (((cfg1.win 3).blk t).view.emb y)
  refine congrArg (k1_pay1 (V c main_v1) (V c main_arg2) (V c main_arg3)) (funext fun a => Fin.ext ?_)
  match a with
  | ⟨0, _⟩ => show (y 0).val = win1_3.index t (0 : Fin 2) * 512 + 1 * (y 0).val; omega
  | ⟨1, _⟩ => show (y 1).val = win1_3.index t (1 : Fin 2) * 16 + 1 * (y 1).val; omega

/-- An index of the gate array is in the point's block iff each coordinate is in the block's range on its axis. -/
theorem mem_blk1 (t : Fin cfg1.N) (i : S512x16.Idx) :
    i ∈ ((cfg1.win 3).blk t).view.set ↔ ∀ a : Fin 2, win1_3.index t a * S512x16.size a ≤ (i a).val
      ∧ (i a).val < win1_3.index t a * S512x16.size a + S512x16.size a := by
  show i ∈ ((View.whole main_v2).slice (win1_3.rect t)).set ↔ _
  rw [View.set_slice_whole, Rect.mem_set_unit]
  exact Iff.rfl

/-- The one point's block covers every index of the gate array. -/
theorem cover1 (i : S512x16.Idx) : ∃ t : Fin cfg1.N, (cfg1.win 3).flush t = true ∧ i ∈ ((cfg1.win 3).blk t).view.set := by
  refine ⟨t1_0, flush1_3 t1_0, ?_⟩
  rw [mem_blk1]
  obtain ⟨-, -, -, -, -, -, e30, e31⟩ := idx_facts1 t1_0
  intro a
  match a with
  | ⟨0, _⟩ =>
    show win1_3.index t1_0 (0 : Fin 2) * 512 ≤ (i 0).val ∧ (i 0).val < win1_3.index t1_0 (0 : Fin 2) * 512 + 512
    have h : (i 0).val < 512 := (i 0).isLt
    omega
  | ⟨1, _⟩ =>
    show win1_3.index t1_0 (1 : Fin 2) * 16 ≤ (i 1).val ∧ (i 1).val < win1_3.index t1_0 (1 : Fin 2) * 16 + 16
    have h : (i 1).val < 16 := (i 1).isLt
    omega

/-- THE GATE ARRAY after the region: the body's arithmetic of the stacked means and the two weight matrices as the region
    finds them. -/
theorem final1 (c : Dev nD) :
    (dat1 V c).arrAt 3 cfg1.N = k1_pay1 (V c main_v1) (V c main_arg2) (V c main_arg3) :=
  (dat1 V c).arrAt_eq_of_cover 3 (k1_pay1 (V c main_v1) (V c main_arg2) (V c main_arg3))
    (fun t _ => flushed1_eq V c t) cover1

end Cert.KernelIdeal.Hand

end
-- ==== Proof.Final2.lean ====
/-
  The third kernel region's result array, read off its frame: after the region the output array holds, at every index, the
  body's arithmetic (`k2_pay1`) of the block of 8 channels the index lies in — `KVal.out2Arr` of the two feature arrays
  and the two gate arrays as the region finds them.

  Grid point t handles channels 8t … 8t+7. The feature windows' and the output window's block index at t is (0, t, 0, 0),
  the gate windows' is (0, 0) (their block is the whole [256, 16] array), and the body reads gate rows 8t … 8t+7; a
  block's element sits in its array, on each axis, at block index × block size + 1 × its own coordinate. So at point t
  each feature block is `KVal.blk` of its array at t, the gate rows read are `KVal.rows8` of the gate array at t, and what
  the point writes back, at the block's element y, is the target array at (y₀, 8t + y₁, y₂, y₃): that channel's block is
  t and its place there is y₁. The 32 blocks cover the array: channel ch is in the block of point ch / 8.
-/
import proofs.«178390_j16724602651214_2_alg».proof.Proof.Frame2
import proofs.«178390_j16724602651214_2_alg».proof.Proof.KDefs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

open Idealize.ShloMosaic.ValueIdx

/-- The zero offsets of a whole rank-4 rectangle, however they are spelt. -/
theorem zeros4 : (![0, 0, 0, 0] : Fin 4 → Nat) = fun _ => 0 := funext fun a => by fin_cases a <;> rfl

/-- The printed index maps and the body's gate-row offset, decided over the 32 grid points: the feature windows and the
    output window move along the channel axis with the point, the gate windows stay, and the rows read start at 8t. -/
theorem idx_facts2 : ∀ t : Fin cfg2.N,
    (win2_0.index t (0 : Fin 4) = 0 ∧ win2_0.index t (1 : Fin 4) = t.val ∧ win2_0.index t (2 : Fin 4) = 0 ∧ win2_0.index t (3 : Fin 4) = 0)
    ∧ (win2_1.index t (0 : Fin 4) = 0 ∧ win2_1.index t (1 : Fin 4) = t.val ∧ win2_1.index t (2 : Fin 4) = 0 ∧ win2_1.index t (3 : Fin 4) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 4) = 0 ∧ win2_4.index t (1 : Fin 4) = t.val ∧ win2_4.index t (2 : Fin 4) = 0 ∧ win2_4.index t (3 : Fin 4) = 0)
    ∧ (k2_off1 (grid2.coords t) (0 : Fin 2) = 8 * t.val ∧ k2_off1 (grid2.coords t) (1 : Fin 2) = 0) :=
  (by decide +kernel : ∀ t : Fin grid2.N, _)

/-- A grid point as the number of its block of 8 channels. -/
abbrev pt2 (t : Fin cfg2.N) : Fin 32 := t.cast N_2

/-- The first feature window's block at point t is channels 8t … 8t+7 of the first feature array. -/
theorem iblk2_0_eq (c : Dev nD) (t : Fin cfg2.N) :
    (iblk2 V c 0 t : Vec F S16x8x128x128 .f32) = KVal.blk (V c main_arg0) (pt2 t) := by
  obtain ⟨⟨e00, e01, e02, e03⟩, ⟨e10, e11, e12, e13⟩, -⟩ := idx_facts2 t
  funext y
  unfold iblk2 KVal.blk
  rw [View.read_apply]
  show V c main_arg0 (((cfg2.win 0).blk t).view.emb y) = V c main_arg0 _
  refine congrArg (V c main_arg0) (funext fun a => Fin.ext ?_)
  match a with
  | ⟨0, _⟩ => show win2_0.index t (0 : Fin 4) * 16 + 1 * (y 0).val = (y 0).val; omega
  | ⟨1, _⟩ => show win2_0.index t (1 : Fin 4) * 8 + 1 * (y 1).val = 8 * t.val + (y 1).val; omega
  | ⟨2, _⟩ => show win2_0.index t (2 : Fin 4) * 128 + 1 * (y 2).val = (y 2).val; omega
  | ⟨3, _⟩ => show win2_0.index t (3 : Fin 4) * 128 + 1 * (y 3).val = (y 3).val; omega

/-- The second feature window's block at point t is channels 8t … 8t+7 of the second feature array. -/
theorem iblk2_1_eq (c : Dev nD) (t : Fin cfg2.N) :
    (iblk2 V c 1 t : Vec F S16x8x128x128 .f32) = KVal.blk (V c main_arg1) (pt2 t) := by
  obtain ⟨⟨e00, e01, e02, e03⟩, ⟨e10, e11, e12, e13⟩, -⟩ := idx_facts2 t
  funext y
  unfold iblk2 KVal.blk
  rw [View.read_apply]
  show V c main_arg1 (((cfg2.win 1).blk t).view.emb y) = V c main_arg1 _
  refine congrArg (V c main_arg1) (funext fun a => Fin.ext ?_)
  match a with
  | ⟨0, _⟩ => show win2_1.index t (0 : Fin 4) * 16 + 1 * (y 0).val = (y 0).val; omega
  | ⟨1, _⟩ => show win2_1.index t (1 : Fin 4) * 8 + 1 * (y 1).val = 8 * t.val + (y 1).val; omega
  | ⟨2, _⟩ => show win2_1.index t (2 : Fin 4) * 128 + 1 * (y 2).val = (y 2).val; omega
  | ⟨3, _⟩ => show win2_1.index t (3 : Fin 4) * 128 + 1 * (y 3).val = (y 3).val; omega

/-- The rows of the first gate array the body reads at point t are rows 8t … 8t+7. -/
theorem rows2_2_eq (c : Dev nD) (t : Fin cfg2.N) :
    View.ld (iblk2 V c 2 t : Vec F S256x16 .f32) (r2_g (grid2.coords t)) = KVal.rows8 (V c main_v3) (pt2 t) := by
  obtain ⟨-, -, ⟨e20, e21⟩, ⟨e30, e31⟩, -, ⟨o0, o1⟩⟩ := idx_facts2 t
  funext y
  unfold iblk2 KVal.rows8
  show V c main_v3 (((cfg2.win 2).blk t).view.emb ((r2_g (grid2.coords t)).emb y)) = V c main_v3 _
  refine congrArg (V c main_v3) (funext fun a => Fin.ext ?_)
  match a with
  | ⟨0, _⟩ =>
    show win2_2.index t (0 : Fin 2) * 256 + 1 * (k2_off1 (grid2.coords t) (0 : Fin 2) + 1 * (y 0).val) = 8 * t.val + (y 0).val
    omega
  | ⟨1, _⟩ =>
    show win2_2.index t (1 : Fin 2) * 16 + 1 * (k2_off1 (grid2.coords t) (1 : Fin 2) + 1 * (y 1).val) = (y 1).val
    omega

/-- The rows of the second gate array the body reads at point t are rows 8t … 8t+7. -/
theorem rows2_3_eq (c : Dev nD) (t : Fin cfg2.N) :
    View.ld (iblk2 V c 3 t : Vec F S256x16 .f32) (r2_g (grid2.coords t)) = KVal.rows8 (V c main_v4) (pt2 t) := by
  obtain ⟨-, -, ⟨e20, e21⟩, ⟨e30, e31⟩, -, ⟨o0, o1⟩⟩ := idx_facts2 t
  funext y
  unfold iblk2 KVal.rows8
  show V c main_v4 (((cfg2.win 3).blk t).view.emb ((r2_g (grid2.coords t)).emb y)) = V c main_v4 _
  refine congrArg (V c main_v4) (funext fun a => Fin.ext ?_)
  match a with
  | ⟨0, _⟩ =>
    show win2_3.index t (0 : Fin 2) * 256 + 1 * (k2_off1 (grid2.coords t) (0 : Fin 2) + 1 * (y 0).val) = 8 * t.val + (y 0).val
    omega
  | ⟨1, _⟩ =>
    show win2_3.index t (1 : Fin 2) * 16 + 1 * (k2_off1 (grid2.coords t) (1 : Fin 2) + 1 * (y 1).val) = (y 1).val
    omega

/-- The target array at the index (y₀, 8t' + y₁, y₂, y₃) under element y of block t': the body's arithmetic on block t',
    at y. -/
theorem out2Arr_block (x0 x1 : FVec F S16x256x128x128 .f32) (g3 g4 : FVec F S256x16 .f32) (t' : Fin 32)
    (y : S16x8x128x128.Idx) (k : S16x256x128x128.Idx)
    (h0 : (k 0).val = (y 0).val) (h1 : (k 1).val = 8 * t'.val + (y 1).val) (h2 : (k 2).val = (y 2).val)
    (h3 : (k 3).val = (y 3).val) :
    KVal.out2Arr x0 x1 g3 g4 k
      = k2_pay1 (KVal.rows8 g3 t') (KVal.rows8 g4 t') (KVal.blk x0 t') (KVal.blk x1 t') y := by
  have hy : (y 1).val < 8 := (y 1).isLt
  have hb : KVal.chBlock (k 1) = t' := Fin.ext (by show (k 1).val / 8 = t'.val; omega)
  show k2_pay1 (KVal.rows8 g3 (KVal.chBlock (k 1))) (KVal.rows8 g4 (KVal.chBlock (k 1))) (KVal.blk x0 (KVal.chBlock (k 1)))
      (KVal.blk x1 (KVal.chBlock (k 1))) (ix4 (k 0) (KVal.chLocal (k 1)) (k 2) (k 3)) = _
  rw [hb]
  refine congrArg (k2_pay1 (KVal.rows8 g3 t') (KVal.rows8 g4 t') (KVal.blk x0 t') (KVal.blk x1 t')) (funext fun a => Fin.ext ?_)
  match a with
  | ⟨0, _⟩ => exact h0
  | ⟨1, _⟩ => show (k 1).val % 8 = (y 1).val; omega
  | ⟨2, _⟩ => exact h2
  | ⟨3, _⟩ => exact h3

/-- What grid point t writes back is block t of the target array. -/
theorem flushed2_eq (c : Dev nD) (t : Fin cfg2.N) :
    (dat2 V c).flushed 4 t = ((cfg2.win 4).blk t).view.read (Elt F)
      (KVal.out2Arr (V c main_arg0) (V c main_arg1) (V c main_v3) (V c main_v4)) := by
  show (cfg2.win 4).cut (grid2.coords t) ((dat2 V c).after 4 t) = _
  rw [after2_4]
  unfold out2_4
  rw [View.canon_unit_zero zeros4]
  simp only [View.ld_unit_zero (S := S16x8x128x128) zeros4]
  rw [iblk2_0_eq, iblk2_1_eq, rows2_2_eq, rows2_3_eq]
  obtain ⟨-, -, -, -, ⟨e40, e41, e42, e43⟩, -⟩ := idx_facts2 t
  funext y
  show k2_pay1 (KVal.rows8 (V c main_v3) (pt2 t)) (KVal.rows8 (V c main_v4) (pt2 t)) (KVal.blk (V c main_arg0) (pt2 t))
      (KVal.blk (V c main_arg1) (pt2 t)) y
    = KVal.out2Arr (V c main_arg0) (V c main_arg1) (V c main_v3) (V c main_v4) (((cfg2.win 4).blk t).view.emb y)
  refine (out2Arr_block _ _ _ _ (pt2 t) y _ ?_ ?_ ?_ ?_).symm
  · show win2_4.index t (0 : Fin 4) * 16 + 1 * (y 0).val = (y 0).val; omega
  · show win2_4.index t (1 : Fin 4) * 8 + 1 * (y 1).val = 8 * t.val + (y 1).val; omega
  · show win2_4.index t (2 : Fin 4) * 128 + 1 * (y 2).val = (y 2).val; omega
  · show win2_4.index t (3 : Fin 4) * 128 + 1 * (y 3).val = (y 3).val; omega

/-- An index of the output array is in point t's block iff each coordinate is in the block's range on its axis. -/
theorem mem_blk2 (t : Fin cfg2.N) (i : S16x256x128x128.Idx) :
    i ∈ ((cfg2.win 4).blk t).view.set ↔ ∀ a : Fin 4, win2_4.index t a * S16x8x128x128.size a ≤ (i a).val
      ∧ (i a).val < win2_4.index t a * S16x8x128x128.size a + S16x8x128x128.size a := by
  show i ∈ ((View.whole main_v5).slice (win2_4.rect t)).set ↔ _
  rw [View.set_slice_whole, Rect.mem_set_unit]
  exact Iff.rfl

/-- Every index of the output array is in some point's block: channel ch in the block of point ch / 8. -/
theorem cover2 (i : S16x256x128x128.Idx) :
    ∃ t : Fin cfg2.N, (cfg2.win 4).flush t = true ∧ i ∈ ((cfg2.win 4).blk t).view.set := by
  have hi0 : (i 0).val < 16 := (i 0).isLt
  have hi1 : (i 1).val < 256 := (i 1).isLt
  have hi2 : (i 2).val < 128 := (i 2).isLt
  have hi3 : (i 3).val < 128 := (i 3).isLt
  have hN : cfg2.N = 32 := N_2
  obtain ⟨t, ht⟩ : ∃ t : Fin cfg2.N, t.val = (i 1).val / 8 := ⟨⟨(i 1).val / 8, by omega⟩, rfl⟩
  refine ⟨t, flush2_4 t, ?_⟩
  rw [mem_blk2]
  obtain ⟨-, -, -, -, ⟨e40, e41, e42, e43⟩, -⟩ := idx_facts2 t
  intro a
  match a with
  | ⟨0, _⟩ =>
    show win2_4.index t (0 : Fin 4) * 16 ≤ (i 0).val ∧ (i 0).val < win2_4.index t (0 : Fin 4) * 16 + 16
    omega
  | ⟨1, _⟩ =>
    show win2_4.index t (1 : Fin 4) * 8 ≤ (i 1).val ∧ (i 1).val < win2_4.index t (1 : Fin 4) * 8 + 8
    omega
  | ⟨2, _⟩ =>
    show win2_4.index t (2 : Fin 4) * 128 ≤ (i 2).val ∧ (i 2).val < win2_4.index t (2 : Fin 4) * 128 + 128
    omega
  | ⟨3, _⟩ =>
    show win2_4.index t (3 : Fin 4) * 128 ≤ (i 3).val ∧ (i 3).val < win2_4.index t (3 : Fin 4) * 128 + 128
    omega

/-- THE OUTPUT ARRAY after the region: at every index the body's arithmetic on the index's block of 8 channels, of the two
    feature arrays and the two gate arrays as the region finds them. -/
theorem final2 (c : Dev nD) :
    (dat2 V c).arrAt 4 cfg2.N = KVal.out2Arr (V c main_arg0) (V c main_arg1) (V c main_v3) (V c main_v4) :=
  (dat2 V c).arrAt_eq_of_cover 4 (KVal.out2Arr (V c main_arg0) (V c main_arg1) (V c main_v3) (V c main_v4))
    (fun t _ => flushed2_eq V c t) cover2

end Cert.KernelIdeal.Hand

end
-- ==== Proof.RunValue.lean ====
/-
  The value of the whole run: after the third kernel region the output array holds `KVal.outK` of the four argument arrays
  as launched.

  Read back through the boundaries of @main. The third region leaves its output at `KVal.out2Arr` of the two feature
  arrays and the two gate arrays it finds. The feature arrays it finds are the arguments as launched: no host operation
  writes them and the regions before leave them as they were. The gate arrays it finds are the two slices, rows 0 … 255
  and 256 … 511, of the second region's result; that result is the body's arithmetic of the stacked means and the two
  weight matrices the second region finds; the weight matrices are the arguments as launched, and the stacked means are
  the concatenation of the first region's two result arrays, which are the means of the two feature arguments.
-/
import proofs.«178390_j16724602651214_2_alg».proof.Proof.RunDefs
import proofs.«178390_j16724602651214_2_alg».proof.Proof.Final1
import proofs.«178390_j16724602651214_2_alg».proof.Proof.Final2
import proofs.«178390_j16724602651214_2_alg».proof.Proof.KDefs

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-! ## The arguments as the regions find them -/

/-- The first feature array, when the third region is entered, is the argument as launched. -/
theorem W4_main_arg0 (c : Dev nD) : V4 m c main_arg0 = m ((c : Thread nD τ).loc main_arg0) :=
  calc W4 m c (Proc.devRef .tc main_arg0)
    _ = W3 m c (Proc.devRef .tc main_arg0) := by
          show StableHlo.after hostOps2 (W3 m c) (Proc.devRef .tc main_arg0) = _
          after_results
    _ = W2 m c (Proc.devRef .tc main_arg0) := W3_of_ne m c main_arg0 (by decide)
    _ = W1 m c (Proc.devRef .tc main_arg0) := by
          show StableHlo.after hostOps1 (W1 m c) (Proc.devRef .tc main_arg0) = _
          after_results
    _ = W0 m c (Proc.devRef .tc main_arg0) := (W1_arr m c 0).trans (res0_0 (V0 m) c)
    _ = m ((c : Thread nD τ).loc main_arg0) := rfl

/-- The second feature array, when the third region is entered, is the argument as launched. -/
theorem W4_main_arg1 (c : Dev nD) : V4 m c main_arg1 = m ((c : Thread nD τ).loc main_arg1) :=
  calc W4 m c (Proc.devRef .tc main_arg1)
    _ = W3 m c (Proc.devRef .tc main_arg1) := by
          show StableHlo.after hostOps2 (W3 m c) (Proc.devRef .tc main_arg1) = _
          after_results
    _ = W2 m c (Proc.devRef .tc main_arg1) := W3_of_ne m c main_arg1 (by decide)
    _ = W1 m c (Proc.devRef .tc main_arg1) := by
          show StableHlo.after hostOps1 (W1 m c) (Proc.devRef .tc main_arg1) = _
          after_results
    _ = W0 m c (Proc.devRef .tc main_arg1) := (W1_arr m c 1).trans (res0_1 (V0 m) c)
    _ = m ((c : Thread nD τ).loc main_arg1) := rfl

/-- The first weight matrix, when the second region is entered, is the argument as launched. -/
theorem W2_main_arg2 (c : Dev nD) : V2 m c main_arg2 = m ((c : Thread nD τ).loc main_arg2) :=
  calc W2 m c (Proc.devRef .tc main_arg2)
    _ = W1 m c (Proc.devRef .tc main_arg2) := by
          show StableHlo.after hostOps1 (W1 m c) (Proc.devRef .tc main_arg2) = _
          after_results
    _ = W0 m c (Proc.devRef .tc main_arg2) := W1_of_ne m c main_arg2 (by decide)
    _ = m ((c : Thread nD τ).loc main_arg2) := rfl

/-- The second weight matrix, when the second region is entered, is the argument as launched. -/
theorem W2_main_arg3 (c : Dev nD) : V2 m c main_arg3 = m ((c : Thread nD τ).loc main_arg3) :=
  calc W2 m c (Proc.devRef .tc main_arg3)
    _ = W1 m c (Proc.devRef .tc main_arg3) := by
          show StableHlo.after hostOps1 (W1 m c) (Proc.devRef .tc main_arg3) = _
          after_results
    _ = W0 m c (Proc.devRef .tc main_arg3) := W1_of_ne m c main_arg3 (by decide)
    _ = m ((c : Thread nD τ).loc main_arg3) := rfl

/-! ## The first region's results, and their concatenation -/

/-- The first region leaves the means of the first feature argument in its first result array. -/
theorem W1_main_v0_0 (c : Dev nD) :
    W1 m c (Proc.devRef .tc main_v0_0) = KVal.means1 (m ((c : Thread nD τ).loc main_arg0)) :=
  (W1_arr m c 2).trans (res0_2 (V0 m) c)

/-- The first region leaves the means of the second feature argument in its second result array. -/
theorem W1_main_v0_1 (c : Dev nD) :
    W1 m c (Proc.devRef .tc main_v0_1) = KVal.means2 (m ((c : Thread nD τ).loc main_arg1)) :=
  (W1_arr m c 3).trans (res0_3 (V0 m) c)

/-- The stacked means the second region finds: the two arrays of means stacked along axis 0. -/
theorem W2_main_v1 (c : Dev nD) :
    V2 m c main_v1 = KVal.pooledK (m ((c : Thread nD τ).loc main_arg0)) (m ((c : Thread nD τ).loc main_arg1)) := by
  show StableHlo.after hostOps1 (W1 m c) (Proc.devRef .tc main_v1) = _
  after_results
  rw [W1_main_v0_0, W1_main_v0_1]
  rfl

/-! ## The second region's result, and its two slices -/

/-- The gate array the second region leaves: its body's arithmetic of the stacked means and the two weight arguments. -/
theorem W3_main_v2 (c : Dev nD) :
    W3 m c (Proc.devRef .tc main_v2) = KVal.gateK (m ((c : Thread nD τ).loc main_arg0)) (m ((c : Thread nD τ).loc main_arg1))
      (m ((c : Thread nD τ).loc main_arg2)) (m ((c : Thread nD τ).loc main_arg3)) := by
  refine (W3_arr m c 3).trans ((final1 (V2 m) c).trans ?_)
  rw [W2_main_v1, W2_main_arg2, W2_main_arg3]
  rfl

/-- The first gate array the third region finds: rows 0 … 255 of the second region's result. -/
theorem W4_main_v3 (c : Dev nD) :
    V4 m c main_v3 = KVal.fwK (m ((c : Thread nD τ).loc main_arg0)) (m ((c : Thread nD τ).loc main_arg1))
      (m ((c : Thread nD τ).loc main_arg2)) (m ((c : Thread nD τ).loc main_arg3)) := by
  show StableHlo.after hostOps2 (W3 m c) (Proc.devRef .tc main_v3) = _
  after_results
  rw [W3_main_v2]
  rfl

/-- The second gate array the third region finds: rows 256 … 511 of the second region's result. -/
theorem W4_main_v4 (c : Dev nD) :
    V4 m c main_v4 = KVal.mwK (m ((c : Thread nD τ).loc main_arg0)) (m ((c : Thread nD τ).loc main_arg1))
      (m ((c : Thread nD τ).loc main_arg2)) (m ((c : Thread nD τ).loc main_arg3)) := by
  show StableHlo.after hostOps2 (W3 m c) (Proc.devRef .tc main_v4) = _
  after_results
  rw [W3_main_v2]
  rfl

/-! ## The output -/

/-- THE OUTPUT ARRAY after the third region: `KVal.outK` of the four argument arrays as launched. -/
theorem out_eq (c : Dev nD) :
    (dat2 (V4 m) c).arrAt 4 cfg2.N
      = KVal.outK (m ((c : Thread nD τ).loc main_arg0)) (m ((c : Thread nD τ).loc main_arg1))
          (m ((c : Thread nD τ).loc main_arg2)) (m ((c : Thread nD τ).loc main_arg3)) := by
  rw [final2, W4_main_arg0, W4_main_arg1, W4_main_v3, W4_main_v4]
  rfl

end Cert.KernelIdeal.Hand

end
-- ==== Proof.KPay0.lean ====
/-
  The pool kernel's two stored values read at an index, over the extended reals.

  The body sums a [16, 8, 128, 128] block (batch entry, channel, row, column) over the columns, then over the rows, each
  sum started from zero; divides every total by 16384; and transposes the [16, 8] array of quotients to [8, 16]. At
  (r, b) the stored value is therefore the quotient at (b, r): the sum over the rows h of the sums over the columns w of
  the block at (b, r, h, w), over 16384. Each sum is written with the zero it starts from.
-/
import proofs.«178390_j16724602651214_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

/-- The sum over the columns of a [16, 8, 128, 128] block reads, at (b, r, h), the sum of row h of plane (b, r). -/
theorem rowSum_apply (x : FVec Ideal S16x8x128x128 .f32) (hr : S16x8x128x128.Reduces [3] S16x8x128)
    (hφ : FKind.Formats .f32) (hacc : (0x00000000#32 : BitVec 32) = 0x00000000#32) (b : Fin 16) (r : Fin 8) (h : Fin 128) :
    multiReduction (F := Ideal) .add [3] S16x8x128 x 0x00000000#32 hr hφ hacc (ix3 b r h)
      = 0 + ∑ w : Fin 128, x (ix4 b r h w) := by
  refine (Ideal.multiReduction_add_single x 0x00000000#32 hr hφ hacc (ix3 b r h)).trans ?_
  rw [zero_add]
  refine Finset.sum_congr rfl fun w _ => congrArg x (funext fun a => Fin.ext ?_)
  match a with
  | ⟨0, _⟩ => rfl
  | ⟨1, _⟩ => rfl
  | ⟨2, _⟩ => rfl
  | ⟨3, _⟩ => rfl

/-- The sum over the rows of a [16, 8, 128] array reads, at (b, r), the sum of its entries (b, r, h). -/
theorem planeSum_apply (y : FVec Ideal S16x8x128 .f32) (hr : S16x8x128.Reduces [2] S16x8)
    (hφ : FKind.Formats .f32) (hacc : (0x00000000#32 : BitVec 32) = 0x00000000#32) (b : Fin 16) (r : Fin 8) :
    multiReduction (F := Ideal) .add [2] S16x8 y 0x00000000#32 hr hφ hacc (ix2 b r)
      = 0 + ∑ h : Fin 128, y (ix3 b r h) := by
  refine (Ideal.multiReduction_add_single y 0x00000000#32 hr hφ hacc (ix2 b r)).trans ?_
  rw [zero_add]
  refine Finset.sum_congr rfl fun h _ => congrArg y (funext fun a => Fin.ext ?_)
  match a with
  | ⟨0, _⟩ => rfl
  | ⟨1, _⟩ => rfl
  | ⟨2, _⟩ => rfl

/-- The pooled quotient array, before the transpose, at (b, r). -/
theorem planeMean_apply (x : FVec Ideal S16x8x128x128 .f32) (hr3 : S16x8x128x128.Reduces [3] S16x8x128)
    (hr2 : S16x8x128.Reduces [2] S16x8) (hφ hφ' : FKind.Formats .f32)
    (hacc hacc' : (0x00000000#32 : BitVec 32) = 0x00000000#32) (b : Fin 16) (r : Fin 8) :
    divf (multiReduction (F := Ideal) .add [2] S16x8
        (multiReduction (F := Ideal) .add [3] S16x8x128 x 0x00000000#32 hr3 hφ hacc) 0x00000000#32 hr2 hφ' hacc')
      (broadcast S16x8 (Scalar.ofBits (F := Ideal) .f32 0x46800000#32)) (ix2 b r)
      = Ideal.div (0 + ∑ h : Fin 128, (0 + ∑ w : Fin 128, x (ix4 b r h w))) (Ideal.ofBits .f32 0x46800000#32) := by
  rw [divf_apply, broadcast_apply, planeSum_apply]
  refine congrArg (fun s => Ideal.div (0 + s) _) (Finset.sum_congr rfl fun h _ => ?_)
  exact rowSum_apply x hr3 hφ hacc b r h

/-- The pool kernel's first stored value at (r, b): the mean of plane (b, r) of its first block. -/
theorem pay0_apply (x : Vec Ideal S16x8x128x128 .f32) (r : Fin 8) (b : Fin 16) :
    k0_pay1 (F := Ideal) x (ix2 r b)
      = Ideal.div (0 + ∑ h : Fin 128, (0 + ∑ w : Fin 128, x (ix4 b r h w))) (Ideal.ofBits .f32 0x46800000#32) := by
  unfold k0_pay1
  rw [transpose_ix2_apply]
  exact planeMean_apply x _ _ _ _ _ _ b r

/-- The pool kernel's second stored value at (r, b): the mean of plane (b, r) of its second block. -/
theorem pay0'_apply (x : Vec Ideal S16x8x128x128 .f32) (r : Fin 8) (b : Fin 16) :
    k0_pay2 (F := Ideal) x (ix2 r b)
      = Ideal.div (0 + ∑ h : Fin 128, (0 + ∑ w : Fin 128, x (ix4 b r h w))) (Ideal.ofBits .f32 0x46800000#32) := by
  unfold k0_pay2
  rw [transpose_ix2_apply]
  exact planeMean_apply x _ _ _ _ _ _ b r

end Cert.KernelIdeal.KPay

end
-- ==== Proof.KPay1.lean ====
/-
  The MLP kernel's stored value read at an index, over the extended reals.

  The body multiplies the first weight matrix [64, 512] by the stacked means [512, 16] into a zero accumulator, clamps the
  product below at zero, multiplies the second weight matrix [512, 64] by the clamped product into a zero accumulator,
  and applies the logistic function. A matrix product read at (i, c) is the sum over the one contraction index k of the
  left operand at (i, k) times the right at (k, c): the product's own sum runs over the contraction shape's indices, and
  the bijection between those and their one coordinate re-indexes it by k. Each sum is written with the zero it starts
  from.
-/
import proofs.«178390_j16724602651214_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

/-- The logistic function applied to an array reads, at an index, the logistic function of the element. -/
theorem logistic_apply {s : Shape} {φ : FTy} (x : FVec Ideal s φ) (i : s.Idx) :
    (logistic x : FVec Ideal s φ) i = Ideal.logistic (x i) := rfl

/-- The left operand's index on its kept axis is the output row. -/
theorem hiddenDot_lhs0 (i : S64x16.Idx) (q : dot_S64x512_S512x16_S64x16_1_0_0_1_n_n.contr.Idx) : (dot_S64x512_S512x16_S64x16_1_0_0_1_n_n.lhsIdx i q 0).val = (i 0).val := by
  unfold DotDims.lhsIdx
  rw [dif_neg (show ¬(0 : Fin S64x512.rank) ∈ dot_S64x512_S512x16_S64x16_1_0_0_1_n_n.lhsBatch by decide),
    dif_pos (show (0 : Fin S64x512.rank) ∈ dot_S64x512_S512x16_S64x16_1_0_0_1_n_n.lhsNonContracting by decide)]
  rfl
/-- The left operand's index on its contracted axis is the contraction coordinate. -/
theorem hiddenDot_lhs1 (i : S64x16.Idx) (q : dot_S64x512_S512x16_S64x16_1_0_0_1_n_n.contr.Idx) : (dot_S64x512_S512x16_S64x16_1_0_0_1_n_n.lhsIdx i q 1).val = (q ⟨0, by decide⟩).val :=
  dot_S64x512_S512x16_S64x16_1_0_0_1_n_n.lhsIdx_val_of_single rfl i q
/-- The right operand's index on its contracted axis is the contraction coordinate. -/
theorem hiddenDot_rhs0 (i : S64x16.Idx) (q : dot_S64x512_S512x16_S64x16_1_0_0_1_n_n.contr.Idx) : (dot_S64x512_S512x16_S64x16_1_0_0_1_n_n.rhsIdx i q 0).val = (q ⟨0, by decide⟩).val :=
  dot_S64x512_S512x16_S64x16_1_0_0_1_n_n.rhsIdx_val_of_single rfl i q
/-- The right operand's index on its kept axis is the output column. -/
theorem hiddenDot_rhs1 (i : S64x16.Idx) (q : dot_S64x512_S512x16_S64x16_1_0_0_1_n_n.contr.Idx) : (dot_S64x512_S512x16_S64x16_1_0_0_1_n_n.rhsIdx i q 1).val = (i 1).val := by
  unfold DotDims.rhsIdx
  rw [dif_neg (show ¬(1 : Fin S512x16.rank) ∈ dot_S64x512_S512x16_S64x16_1_0_0_1_n_n.rhsBatch by decide),
    dif_pos (show (1 : Fin S512x16.rank) ∈ dot_S64x512_S512x16_S64x16_1_0_0_1_n_n.rhsNonContracting by decide)]
  rfl

/-- The first product at (r, b): row r of the first weight matrix against column b of the stacked means. -/
theorem hiddenDot_apply (w1 : FVec Ideal S64x512 .f32) (p : FVec Ideal S512x16 .f32) (r : Fin 64) (b : Fin 16) :
    matmul dot_S64x512_S512x16_S64x16_1_0_0_1_n_n (some .fp32) w1 p (constant S64x16 .f32 0x00000000#32) (ix2 r b)
      = 0 + ∑ k : Fin 512, w1 (ix2 r k) * p (ix2 k b) := by
  simp only [matmul]
  rw [Ideal.matmul_constant_zero_apply, zero_add, ← Equiv.sum_comp (contrEquiv1 dot_S64x512_S512x16_S64x16_1_0_0_1_n_n 512 rfl rfl).symm]
  refine Finset.sum_congr rfl fun k _ => ?_
  have hk := contrEquiv1_symm_val dot_S64x512_S512x16_S64x16_1_0_0_1_n_n 512 rfl rfl k
  have el : dot_S64x512_S512x16_S64x16_1_0_0_1_n_n.lhsIdx (ix2 r b) ((contrEquiv1 dot_S64x512_S512x16_S64x16_1_0_0_1_n_n 512 rfl rfl).symm k) = ix2 r k :=
    funext fun a => Fin.ext (by
      match a with
      | ⟨0, _⟩ => exact hiddenDot_lhs0 _ _
      | ⟨1, _⟩ => exact (hiddenDot_lhs1 _ _).trans hk)
  have er : dot_S64x512_S512x16_S64x16_1_0_0_1_n_n.rhsIdx (ix2 r b) ((contrEquiv1 dot_S64x512_S512x16_S64x16_1_0_0_1_n_n 512 rfl rfl).symm k) = ix2 k b :=
    funext fun a => Fin.ext (by
      match a with
      | ⟨0, _⟩ => exact (hiddenDot_rhs0 _ _).trans hk
      | ⟨1, _⟩ => exact hiddenDot_rhs1 _ _)
  rw [el, er]

/-- The left operand's index on its kept axis is the output row. -/
theorem gateDot_lhs0 (i : S512x16.Idx) (q : dot_S512x64_S64x16_S512x16_1_0_0_1_n_n.contr.Idx) : (dot_S512x64_S64x16_S512x16_1_0_0_1_n_n.lhsIdx i q 0).val = (i 0).val := by
  unfold DotDims.lhsIdx
  rw [dif_neg (show ¬(0 : Fin S512x64.rank) ∈ dot_S512x64_S64x16_S512x16_1_0_0_1_n_n.lhsBatch by decide),
    dif_pos (show (0 : Fin S512x64.rank) ∈ dot_S512x64_S64x16_S512x16_1_0_0_1_n_n.lhsNonContracting by decide)]
  rfl
/-- The left operand's index on its contracted axis is the contraction coordinate. -/
theorem gateDot_lhs1 (i : S512x16.Idx) (q : dot_S512x64_S64x16_S512x16_1_0_0_1_n_n.contr.Idx) : (dot_S512x64_S64x16_S512x16_1_0_0_1_n_n.lhsIdx i q 1).val = (q ⟨0, by decide⟩).val :=
  dot_S512x64_S64x16_S512x16_1_0_0_1_n_n.lhsIdx_val_of_single rfl i q
/-- The right operand's index on its contracted axis is the contraction coordinate. -/
theorem gateDot_rhs0 (i : S512x16.Idx) (q : dot_S512x64_S64x16_S512x16_1_0_0_1_n_n.contr.Idx) : (dot_S512x64_S64x16_S512x16_1_0_0_1_n_n.rhsIdx i q 0).val = (q ⟨0, by decide⟩).val :=
  dot_S512x64_S64x16_S512x16_1_0_0_1_n_n.rhsIdx_val_of_single rfl i q
/-- The right operand's index on its kept axis is the output column. -/
theorem gateDot_rhs1 (i : S512x16.Idx) (q : dot_S512x64_S64x16_S512x16_1_0_0_1_n_n.contr.Idx) : (dot_S512x64_S64x16_S512x16_1_0_0_1_n_n.rhsIdx i q 1).val = (i 1).val := by
  unfold DotDims.rhsIdx
  rw [dif_neg (show ¬(1 : Fin S64x16.rank) ∈ dot_S512x64_S64x16_S512x16_1_0_0_1_n_n.rhsBatch by decide),
    dif_pos (show (1 : Fin S64x16.rank) ∈ dot_S512x64_S64x16_S512x16_1_0_0_1_n_n.rhsNonContracting by decide)]
  rfl

/-- The second product at (j, b): row j of the second weight matrix against column b of the hidden layer. -/
theorem gateDot_apply (w2 : FVec Ideal S512x64 .f32) (hd : FVec Ideal S64x16 .f32) (j : Fin 512) (b : Fin 16) :
    matmul dot_S512x64_S64x16_S512x16_1_0_0_1_n_n (some .fp32) w2 hd (constant S512x16 .f32 0x00000000#32) (ix2 j b)
      = 0 + ∑ r : Fin 64, w2 (ix2 j r) * hd (ix2 r b) := by
  simp only [matmul]
  rw [Ideal.matmul_constant_zero_apply, zero_add, ← Equiv.sum_comp (contrEquiv1 dot_S512x64_S64x16_S512x16_1_0_0_1_n_n 64 rfl rfl).symm]
  refine Finset.sum_congr rfl fun r _ => ?_
  have hk := contrEquiv1_symm_val dot_S512x64_S64x16_S512x16_1_0_0_1_n_n 64 rfl rfl r
  have el : dot_S512x64_S64x16_S512x16_1_0_0_1_n_n.lhsIdx (ix2 j b) ((contrEquiv1 dot_S512x64_S64x16_S512x16_1_0_0_1_n_n 64 rfl rfl).symm r) = ix2 j r :=
    funext fun a => Fin.ext (by
      match a with
      | ⟨0, _⟩ => exact gateDot_lhs0 _ _
      | ⟨1, _⟩ => exact (gateDot_lhs1 _ _).trans hk)
  have er : dot_S512x64_S64x16_S512x16_1_0_0_1_n_n.rhsIdx (ix2 j b) ((contrEquiv1 dot_S512x64_S64x16_S512x16_1_0_0_1_n_n 64 rfl rfl).symm r) = ix2 r b :=
    funext fun a => Fin.ext (by
      match a with
      | ⟨0, _⟩ => exact (gateDot_rhs0 _ _).trans hk
      | ⟨1, _⟩ => exact gateDot_rhs1 _ _)
  rw [el, er]

/-- The MLP kernel's stored value at (j, b): the logistic function of row j of the second weight matrix against the
    clamped products of the first weight matrix's rows with column b of the stacked means. -/
theorem pay1_apply (p : Vec Ideal S512x16 .f32) (w1 : Vec Ideal S64x512 .f32) (w2 : Vec Ideal S512x64 .f32) (j : Fin 512) (b : Fin 16) :
    k1_pay1 (F := Ideal) p w1 w2 (ix2 j b)
      = Ideal.logistic (0 + ∑ r : Fin 64, w2 (ix2 j r) * max (0 + ∑ k : Fin 512, w1 (ix2 r k) * p (ix2 k b)) 0) := by
  unfold k1_pay1
  rw [shapeCast_self, logistic_apply, gateDot_apply]
  refine congrArg (fun s => Ideal.logistic (0 + s)) (Finset.sum_congr rfl fun r _ => ?_)
  rw [maximumf_apply, broadcast_apply, hiddenDot_apply]
  exact congrArg (fun z => w2 (ix2 j r) * max _ z) Ideal.ofBits_zero_f32

end Cert.KernelIdeal.KPay

end
-- ==== Proof.KPay2.lean ====
/-
  The weighted-sum kernel's stored value read at an index, over the extended reals.

  The body takes two [8, 16] blocks of gates (channel by batch entry), transposes each to [16, 8], views it as
  [16, 8, 1, 1] and broadcasts it over the 128 × 128 plane; it multiplies each broadcast gate array by its feature
  block and adds the two products. At (b, r, h, w) the broadcast gate array reads the gate block at (r, b): the
  broadcast forgets h and w, the cast to [16, 8, 1, 1] keeps the row-major position of (b, r), and the transpose swaps
  the two coordinates.
-/
import proofs.«178390_j16724602651214_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

/-- A [8, 16] block transposed, viewed as [16, 8, 1, 1] and broadcast over the plane reads, at (b, r, h, w), the block at
    (r, b). -/
theorem gatePlane_apply (g : FVec Ideal S8x16 .f32) (hc : S8x16.ShapeCasts S8x16) (ht : S8x16.Transposes [1, 0] S16x8)
    (hs : S16x8.ShapeCasts S16x8x1x1) (hb : S16x8x1x1.Broadcasts S16x8x128x128) (b : Fin 16) (r : Fin 8) (h w : Fin 128) :
    broadcastTo S16x8x128x128 (shapeCast S16x8x1x1 (transpose S16x8 [1, 0] (shapeCast S8x16 g hc) ht) hs) hb (ix4 b r h w)
      = g (ix2 r b) := by
  rw [shapeCast_self]
  refine (broadcastTo_apply _ hb (ix4 b r h w) (ix4 b r (0 : Fin 1) (0 : Fin 1)) fun a => ?_).trans ?_
  · match a with
    | ⟨0, _⟩ => rfl
    | ⟨1, _⟩ => rfl
    | ⟨2, _⟩ => rfl
    | ⟨3, _⟩ => rfl
  refine (shapeCast_apply _ hs (ix4 b r (0 : Fin 1) (0 : Fin 1)) (ix2 b r) ?_).trans ?_
  · rw [Shape.rowMajor_val_two, Shape.rowMajor_val_four]
    show b.val * 8 + r.val = ((b.val * 8 + r.val) * 1 + 0) * 1 + 0
    omega
  exact transpose_ix2_apply g ht b r

/-- The weighted-sum kernel's stored value at (b, r, h, w): each feature block scaled by its gate block at (r, b), and the
    two added. -/
theorem pay2_apply (fw mw : Vec Ideal S8x16 .f32) (xf xm : Vec Ideal S16x8x128x128 .f32) (b : Fin 16) (r : Fin 8) (h w : Fin 128) :
    k2_pay1 (F := Ideal) fw mw xf xm (ix4 b r h w)
      = fw (ix2 r b) * xf (ix4 b r h w) + mw (ix2 r b) * xm (ix4 b r h w) := by
  unfold k2_pay1
  rw [addf_apply, mulf_apply, mulf_apply, gatePlane_apply, gatePlane_apply]

end Cert.KernelIdeal.KPay

end
-- ==== Proof.KPay.lean ====
/-
  The three kernels' stored values read at an index, over the extended reals: the pool kernel's plane means
  (`pay0_apply`, `pay0'_apply`), the MLP kernel's gates (`pay1_apply`) and the weighted-sum kernel's gated sum
  (`pay2_apply`).
-/
import proofs.«178390_j16724602651214_2_alg».proof.Proof.KPay0
import proofs.«178390_j16724602651214_2_alg».proof.Proof.KPay1
import proofs.«178390_j16724602651214_2_alg».proof.Proof.KPay2
-- ==== Proof.Spec.lean ====
/-
  The function both programs compute, over the extended reals, index by index.

  Inputs: two feature arrays `x0 x1 : [16, 256, 128, 128]` (batch, channel, row, column) and two weight matrices
  `w1 : [64, 512]`, `w2 : [512, 64]`.
  * `mean x ch b`: the mean of the 128 × 128 plane of channel `ch` of batch `b` — the plane's rows summed one by
    one, the row sums summed, the total divided by 16384.
  * `pooled`: the 512 means of a batch entry stacked, the 256 of `x0` first, then the 256 of `x1`.
  * `hidden r b = max (∑ k, w1 r k · pooled k b) 0` and `gate j b = logistic (∑ r, w2 j r · hidden r b)`: the
    squeeze-and-excite gate of the stacked channels.
  * `out (b, ch, h, w) = gate ch b · x0 (b, ch, h, w) + gate (256 + ch) b · x1 (b, ch, h, w)`.
  Every sum is written with the zero it starts from, as both programs compute it.
-/
import Idealize.ShloMosaic.PureOps.Ideal
import Idealize.ShloMosaic.Lib.ValueIdx

noncomputable section

namespace Cert.Spec

open Idealize.ShloMosaic Idealize.ShloMosaic.ValueIdx

/-- The shape of a feature array. -/
abbrev SX : Shape := ⟨4, ![16, 256, 128, 128]⟩
/-- The shape of the first weight matrix. -/
abbrev SW1 : Shape := ⟨2, ![64, 512]⟩
/-- The shape of the second weight matrix. -/
abbrev SW2 : Shape := ⟨2, ![512, 64]⟩

/-- The mean of the plane of channel `ch` of batch entry `b`: row sums first, then their sum, over 16384. -/
def mean (x : SX.Idx → EReal) (ch : Fin 256) (b : Fin 16) : EReal :=
  Ideal.div (0 + ∑ h : Fin 128, (0 + ∑ w : Fin 128, x (ix4 b ch h w))) (Ideal.ofBits .f32 0x46800000#32)

/-- The stacked means: rows 0–255 are `x0`'s channels, rows 256–511 are `x1`'s. -/
def pooled (x0 x1 : SX.Idx → EReal) (k : Fin 512) (b : Fin 16) : EReal :=
  if h : k.val < 256 then mean x0 ⟨k.val, h⟩ b else mean x1 ⟨k.val - 256, by omega⟩ b

/-- The hidden layer: `w1` times the stacked means, clamped below at zero. -/
def hidden (x0 x1 : SX.Idx → EReal) (w1 : SW1.Idx → EReal) (r : Fin 64) (b : Fin 16) : EReal :=
  max (0 + ∑ k : Fin 512, w1 (ix2 r k) * pooled x0 x1 k b) 0

/-- The gate of stacked channel `j`: the logistic function of `w2` times the hidden layer. -/
def gate (x0 x1 : SX.Idx → EReal) (w1 : SW1.Idx → EReal) (w2 : SW2.Idx → EReal) (j : Fin 512) (b : Fin 16) : EReal :=
  Ideal.logistic (0 + ∑ r : Fin 64, w2 (ix2 j r) * hidden x0 x1 w1 r b)

/-- The result at batch entry `b`, channel `ch`, row `h`, column `w`: each feature array scaled by its channel's gate, and
    the two added. -/
def outAt (x0 x1 : SX.Idx → EReal) (w1 : SW1.Idx → EReal) (w2 : SW2.Idx → EReal) (b : Fin 16) (ch : Fin 256) (h w : Fin 128) : EReal :=
  gate x0 x1 w1 w2 ⟨ch.val, by omega⟩ b * x0 (ix4 b ch h w) + gate x0 x1 w1 w2 ⟨256 + ch.val, by omega⟩ b * x1 (ix4 b ch h w)

/-- The result as an array. -/
def out (x0 x1 : SX.Idx → EReal) (w1 : SW1.Idx → EReal) (w2 : SW2.Idx → EReal) : SX.Idx → EReal :=
  fun i => outAt x0 x1 w1 w2 (i 0) (i 1) (i 2) (i 3)

theorem out_ix4 (x0 x1 : SX.Idx → EReal) (w1 : SW1.Idx → EReal) (w2 : SW2.Idx → EReal) (b : Fin 16) (ch : Fin 256) (h w : Fin 128) :
    out x0 x1 w1 w2 (ix4 b ch h w) = outAt x0 x1 w1 w2 b ch h w := rfl

end Cert.Spec

end
-- ==== Proof.KJoin.lean ====
/-
  The kernel program's value is the specification's function.

  The kernel program works on blocks of eight channels. Channel `ch` lies in block `ch / 8` at place `ch % 8`, and
  `8 * (ch / 8) + ch % 8 = ch`, so reading block `ch / 8` of an array at place `ch % 8` reads the array at `ch`. With
  that, stage by stage: a row of the array of means is the specification's mean of that channel's plane; the two arrays
  of means laid end to end along the channel axis read the first below 256 and the second from 256 on, which is the
  specification's stacked means; the gate array is the specification's gate; its rows 0 … 255 and 256 … 511 are the gates
  of the first and of the second feature array; and the result scales each feature array by its channel's gate and adds
  the two. Nothing here needs a value to be finite: terms are only re-indexed.
-/
import proofs.«178390_j16724602651214_2_alg».proof.Proof.KDefs
import proofs.«178390_j16724602651214_2_alg».proof.Proof.KPay
import proofs.«178390_j16724602651214_2_alg».proof.Proof.Spec

noncomputable section

namespace Cert.KernelIdeal.KJoin

open Idealize.ShloMosaic Idealize.ShloMosaic.ValueIdx Cert.KernelIdeal Cert.KernelIdeal.Gen Cert.KernelIdeal.KVal
  Cert.KernelIdeal.KPay

/-! ## A channel in its block -/

/-- Block `ch / 8` of a feature array at place `ch % 8` is the array at channel `ch`. -/
theorem blk_apply (x : FVec Ideal S16x256x128x128 .f32) (ch : Fin 256) (b : Fin 16) (h w : Fin 128) :
    blk x (chBlock ch) (ix4 b (chLocal ch) h w) = x (ix4 b ch h w) := by
  unfold blk
  exact congrArg x (by
    funext a
    match a with
    | ⟨0, _⟩ => rfl
    | ⟨1, _⟩ => exact Fin.ext (Nat.div_add_mod ch.val 8)
    | ⟨2, _⟩ => rfl
    | ⟨3, _⟩ => rfl)

/-- Rows `8 (ch / 8) …` of a [256,16] array at row `ch % 8` are the array at row `ch`. -/
theorem rows8_apply (g : FVec Ideal S256x16 .f32) (ch : Fin 256) (b : Fin 16) :
    rows8 g (chBlock ch) (ix2 (chLocal ch) b) = g (ix2 ch b) := by
  unfold rows8
  exact congrArg g (by
    funext a
    match a with
    | ⟨0, _⟩ => exact Fin.ext (Nat.div_add_mod ch.val 8)
    | ⟨1, _⟩ => rfl)

/-! ## The means and their stacking -/

/-- Row `ch` of the first array of means is the specification's mean of channel `ch`. -/
theorem means1_apply (x : FVec Ideal S16x256x128x128 .f32) (ch : Fin 256) (b : Fin 16) :
    means1 (F := Ideal) x (ix2 ch b) = Cert.Spec.mean x ch b := by
  show k0_pay1 (F := Ideal) (blk x (chBlock ch)) (ix2 (chLocal ch) b) = _
  rw [pay0_apply]
  unfold Cert.Spec.mean
  simp only [blk_apply]

/-- Row `ch` of the second array of means likewise. -/
theorem means2_apply (x : FVec Ideal S16x256x128x128 .f32) (ch : Fin 256) (b : Fin 16) :
    means2 (F := Ideal) x (ix2 ch b) = Cert.Spec.mean x ch b := by
  show k0_pay2 (F := Ideal) (blk x (chBlock ch)) (ix2 (chLocal ch) b) = _
  rw [pay0'_apply]
  unfold Cert.Spec.mean
  simp only [blk_apply]

/-- The two arrays of means laid end to end along the channel axis: below 256 the first array's row, from 256 on the
    second's, 256 less. -/
theorem pooledK_apply (x0 x1 : FVec Ideal S16x256x128x128 .f32) (k : Fin 512) (b : Fin 16) :
    pooledK (F := Ideal) x0 x1 (ix2 k b) = Cert.Spec.pooled x0 x1 k b := by
  unfold pooledK Cert.Spec.pooled
  by_cases hk : k.val < 256
  · rw [dif_pos hk]
    refine Eq.trans ?_ (means1_apply x0 ⟨k.val, hk⟩ b)
    exact concatenate_pair_apply_left 0 _ _ concatenates_S256x16_S256x16_S512x16_d0 (ix2 k b) rfl (ix2 ⟨k.val, hk⟩ b) (fun a => by
      match a with
      | ⟨0, _⟩ => rfl
      | ⟨1, _⟩ => rfl)
  · rw [dif_neg hk]
    refine Eq.trans ?_ (means2_apply x1 ⟨k.val - 256, by omega⟩ b)
    exact concatenate_pair_apply_right 0 _ _ concatenates_S256x16_S256x16_S512x16_d0 (ix2 k b) rfl rfl (ix2 ⟨k.val - 256, by omega⟩ b)
      (fun a ha => by
        match a with
        | ⟨0, _⟩ => exact absurd rfl ha
        | ⟨1, _⟩ => rfl)
      (Nat.sub_add_cancel (Nat.le_of_not_lt hk))

/-! ## The gate and its two halves -/

/-- The gate array at `(j, b)` is the specification's gate of stacked channel `j`. -/
theorem gateK_apply (x0 x1 : FVec Ideal S16x256x128x128 .f32) (w1 : FVec Ideal S64x512 .f32) (w2 : FVec Ideal S512x64 .f32)
    (j : Fin 512) (b : Fin 16) :
    gateK (F := Ideal) x0 x1 w1 w2 (ix2 j b) = Cert.Spec.gate x0 x1 w1 w2 j b := by
  unfold gateK
  rw [pay1_apply]
  unfold Cert.Spec.gate Cert.Spec.hidden
  simp only [pooledK_apply]

/-- Rows 0 … 255 of the gate array: the first feature array's gates. -/
theorem fwK_apply (x0 x1 : FVec Ideal S16x256x128x128 .f32) (w1 : FVec Ideal S64x512 .f32) (w2 : FVec Ideal S512x64 .f32)
    (ch : Fin 256) (b : Fin 16) :
    fwK (F := Ideal) x0 x1 w1 w2 (ix2 ch b) = Cert.Spec.gate x0 x1 w1 w2 (⟨ch.val, by omega⟩ : Fin 512) b := by
  unfold fwK
  refine Eq.trans (extractStridedSlice_apply ![0, 0] _ slices_S512x16_S256x16_0_0 (ix2 ch b)
    (ix2 (⟨ch.val, by omega⟩ : Fin 512) b) (fun a => by
      match a with
      | ⟨0, _⟩ => show ch.val = 0 + ch.val; omega
      | ⟨1, _⟩ => show b.val = 0 + b.val; omega)) (gateK_apply x0 x1 w1 w2 _ b)

/-- Rows 256 … 511 of the gate array: the second feature array's gates. -/
theorem mwK_apply (x0 x1 : FVec Ideal S16x256x128x128 .f32) (w1 : FVec Ideal S64x512 .f32) (w2 : FVec Ideal S512x64 .f32)
    (ch : Fin 256) (b : Fin 16) :
    mwK (F := Ideal) x0 x1 w1 w2 (ix2 ch b) = Cert.Spec.gate x0 x1 w1 w2 (⟨256 + ch.val, by omega⟩ : Fin 512) b := by
  unfold mwK
  refine Eq.trans (extractStridedSlice_apply ![256, 0] _ slices_S512x16_S256x16_256_0 (ix2 ch b)
    (ix2 (⟨256 + ch.val, by omega⟩ : Fin 512) b) (fun a => by
      match a with
      | ⟨0, _⟩ => show 256 + ch.val = 256 + ch.val; rfl
      | ⟨1, _⟩ => show b.val = 0 + b.val; omega)) (gateK_apply x0 x1 w1 w2 _ b)

/-! ## The result -/

/-- The kernel program's result is the specification's, index by index. -/
theorem outK_eq (x0 x1 : FVec Ideal Cert.KernelIdeal.S16x256x128x128 .f32) (w1 : FVec Ideal Cert.KernelIdeal.S64x512 .f32)
    (w2 : FVec Ideal Cert.KernelIdeal.S512x64 .f32) :
    Cert.KernelIdeal.KVal.outK (F := Ideal) x0 x1 w1 w2 = Cert.Spec.out x0 x1 w1 w2 := by
  funext i
  obtain ⟨b, ch, h, w, rfl⟩ : ∃ (b : Fin 16) (ch : Fin 256) (h w : Fin 128), i = ix4 b ch h w := ⟨_, _, _, _, eq_ix4 i⟩
  rw [Cert.Spec.out_ix4]
  show k2_pay1 (F := Ideal) (rows8 (fwK x0 x1 w1 w2) (chBlock ch)) (rows8 (mwK x0 x1 w1 w2) (chBlock ch))
    (blk x0 (chBlock ch)) (blk x1 (chBlock ch)) (ix4 b (chLocal ch) h w) = _
  rw [pay2_apply, rows8_apply, rows8_apply, blk_apply, blk_apply, fwK_apply, mwK_apply]
  rfl

end Cert.KernelIdeal.KJoin

end
-- ==== Proof.RefValue.lean ====
/-
  The reference program computes the specification's function.

  The reference takes the mean of each 128 × 128 plane of the two feature arrays (one sum over rows and columns at once,
  from zero, then a division by 16384), lays the 256 means of the first array and the 256 of the second end to end,
  multiplies by the first weight matrix and clamps at zero, multiplies by the second weight matrix, applies the
  logistic function spelt `1 / (1 + exp (-y))`, and scales each feature array by its channel's gate before adding the
  two. Read at an index, stage by stage, this is `Cert.Spec.out`:
  * the sum over rows and columns at once is the sum over the rows of the row sums (the indices that reduce to
    `(b, ch)` are the `(b, ch, h, w)`, one for each pair `(h, w)`);
  * a concatenation along the channel axis reads its first piece below 256 and its second from 256 on;
  * in each product the reference has the weight as the right factor and the specification as the left one:
    multiplication of extended reals commutes;
  * `1 / (1 + exp (-y))` is the definition of the logistic function at the extended reals.
  Sums are only re-indexed and factors only swapped, so nothing here needs a value to be finite.
-/
import proofs.«178390_j16724602651214_2_alg».proof.Proof.Gen.ReferenceIdeal.Read
import proofs.«178390_j16724602651214_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The type of a feature array's contents at the extended reals. -/
abbrev XT : Type := (⟨S16x256x128x128, .f32⟩ : BufTy).Contents (Elt Ideal)
/-- The type of the first weight matrix's contents. -/
abbrev W1T : Type := (⟨S64x512, .f32⟩ : BufTy).Contents (Elt Ideal)
/-- The type of the second weight matrix's contents. -/
abbrev W2T : Type := (⟨S512x64, .f32⟩ : BufTy).Contents (Elt Ideal)

/-! ## The sum over a plane

The reference sums a feature array over its rows and columns at once. At batch entry `b` and channel `ch` the indices
that reduce to `(b, ch)` are exactly the `(b, ch, h, w)`, so the sum is the sum over the pairs `(h, w)`, which is the
sum over `h` of the row sums. -/

/-- Dropping the row and column coordinates of `(b, ch, h, w)` leaves `(b, ch)`. -/
theorem drop_ix4 (h' : S16x256x128x128.ReducesTo [2, 3] S16x256) (b : Fin 16) (ch : Fin 256) (h w : Fin 128) :
    h'.drop (ix4 b ch h w) = ix2 b ch := by
  funext a
  apply Fin.ext
  match a with
  | ⟨0, _⟩ => exact Shape.ReducesTo.drop_apply_val_of_eq h' (ix4 b ch h w) 0 0
  | ⟨1, _⟩ => exact Shape.ReducesTo.drop_apply_val_of_eq h' (ix4 b ch h w) 1 1

/-- The sum over the indices that reduce to `(b, ch)` is the sum over the rows of the row sums. -/
theorem sum_plane (h' : S16x256x128x128.ReducesTo [2, 3] S16x256) (x : S16x256x128x128.Idx → EReal) (b : Fin 16) (ch : Fin 256) :
    ∑ i ∈ Finset.univ.filter (fun i => h'.drop i = ix2 b ch), x i = ∑ h : Fin 128, ∑ w : Fin 128, x (ix4 b ch h w) := by
  rw [← Fintype.sum_prod_type']
  symm
  refine Finset.sum_bij (fun p _ => ix4 b ch p.1 p.2) ?_ ?_ ?_ ?_
  · intro p _
    exact Finset.mem_filter.mpr ⟨Finset.mem_univ _, drop_ix4 h' b ch p.1 p.2⟩
  · intro p _ q _ e
    exact Prod.ext (congrFun e 2) (congrFun e 3)
  · intro i hi
    have hd := (Finset.mem_filter.mp hi).2
    obtain ⟨b', ch', h, w, rfl⟩ : ∃ (b' : Fin 16) (ch' : Fin 256) (h w : Fin 128), i = ix4 b' ch' h w := ⟨_, _, _, _, eq_ix4 i⟩
    rw [drop_ix4] at hd
    have hb : b' = b := congrFun hd 0
    have hc : ch' = ch := congrFun hd 1
    subst hb; subst hc
    exact ⟨(h, w), Finset.mem_univ _, rfl⟩
  · intro p _
    rfl

/-- The reference's sum of `x0` over rows and columns, at `(b, ch)`. -/
theorem v0_apply (x0 : XT) (b : Fin 16) (ch : Fin 256) :
    val_main_v0 (F := Ideal) x0 (ix2 b ch) = 0 + ∑ h : Fin 128, (0 + ∑ w : Fin 128, x0 (ix4 b ch h w)) := by
  unfold val_main_v0
  rw [hostReduceAdd_apply, val_main_cst_apply, Ideal.ofBits_def, Ideal.ofBits_zero_f32]
  unfold Ideal.hostReduceAdd
  rw [sum_plane]
  simp only [zero_add]

/-- The reference's sum of `x1` over rows and columns, at `(b, ch)`. -/
theorem v3_apply (x1 : XT) (b : Fin 16) (ch : Fin 256) :
    val_main_v3 (F := Ideal) x1 (ix2 b ch) = 0 + ∑ h : Fin 128, (0 + ∑ w : Fin 128, x1 (ix4 b ch h w)) := by
  unfold val_main_v3
  rw [hostReduceAdd_apply, val_main_cst_1_apply, Ideal.ofBits_def, Ideal.ofBits_zero_f32]
  unfold Ideal.hostReduceAdd
  rw [sum_plane]
  simp only [zero_add]

/-! ## The means and their stacking -/

/-- The reference's mean of `x0` at `(b, ch)` is the specification's. -/
theorem mean0_apply (x0 : XT) (b : Fin 16) (ch : Fin 256) :
    val_main_v2 (F := Ideal) x0 (ix2 b ch) = Cert.Spec.mean x0 ch b := by
  rw [val_main_v2_apply, v0_apply, val_main_v1_apply, val_main_cst_0_apply]
  rfl

/-- The reference's mean of `x1` at `(b, ch)` is the specification's. -/
theorem mean1_apply (x1 : XT) (b : Fin 16) (ch : Fin 256) :
    val_main_v5 (F := Ideal) x1 (ix2 b ch) = Cert.Spec.mean x1 ch b := by
  rw [val_main_v5_apply, v3_apply, val_main_v4_apply, val_main_cst_2_apply]
  rfl

/-- The concatenation of the two arrays of means along the channel axis: below 256 the first array's entry, from 256 on
    the second's, 256 less. -/
theorem pooled_apply (x0 x1 : XT) (b : Fin 16) (k : Fin 512) :
    val_main_v6 (F := Ideal) x0 x1 (ix2 b k) = Cert.Spec.pooled x0 x1 k b := by
  unfold val_main_v6 Cert.Spec.pooled
  by_cases hk : k.val < 256
  · rw [dif_pos hk]
    refine Eq.trans ?_ (mean0_apply x0 b ⟨k.val, hk⟩)
    exact concatenate_pair_apply_left 1 _ _ concatenates_S16x256_S16x256_S16x512_d1 (ix2 b k) rfl (ix2 b ⟨k.val, hk⟩) (fun a => by
      match a with
      | ⟨0, _⟩ => rfl
      | ⟨1, _⟩ => rfl)
  · rw [dif_neg hk]
    refine Eq.trans ?_ (mean1_apply x1 b ⟨k.val - 256, by omega⟩)
    exact concatenate_pair_apply_right 1 _ _ concatenates_S16x256_S16x256_S16x512_d1 (ix2 b k) rfl rfl (ix2 b ⟨k.val - 256, by omega⟩)
      (fun a ha => by
        match a with
        | ⟨0, _⟩ => rfl
        | ⟨1, _⟩ => exact absurd rfl ha)
      (Nat.sub_add_cancel (Nat.le_of_not_lt hk))

/-! ## The hidden layer -/

/-- The left operand's index in the first product: batch entry `b`, stacked channel `k`. -/
theorem lidx7 (b : Fin 16) (r : Fin 64) (k : Fin 512) : lidx_main_v7 (ix2 b r) k = ix2 b k := by
  funext a; match a with | ⟨0, _⟩ => rfl | ⟨1, _⟩ => rfl

/-- The right operand's index in the first product: row `r` of `w1`, column `k`. -/
theorem ridx7 (b : Fin 16) (r : Fin 64) (k : Fin 512) : ridx_main_v7 (ix2 b r) k = ix2 r k := by
  funext a; match a with | ⟨0, _⟩ => rfl | ⟨1, _⟩ => rfl

/-- The reference's hidden layer at `(b, r)`: the stacked means times `w1`'s row `r`, the factors swapped, clamped at zero. -/
theorem hidden_apply (x0 x1 : XT) (x2 : W1T) (b : Fin 16) (r : Fin 64) :
    val_main_v8 (F := Ideal) x0 x1 x2 (ix2 b r) = Cert.Spec.hidden x0 x1 x2 r b := by
  rw [val_main_v8_apply, val_main_v7_apply, val_main_call0_v0_apply, val_main_call0_cst_apply]
  unfold Cert.Spec.hidden
  rw [Ideal.maximumf_def, Ideal.ofBits_def, Ideal.ofBits_zero_f32, zero_add]
  congr 1
  refine Finset.sum_congr rfl fun k _ => ?_
  rw [lidx7, ridx7, pooled_apply, mul_comm]

/-! ## The gate -/

/-- The left operand's index in the second product: batch entry `b`, hidden unit `r`. -/
theorem lidx9 (b : Fin 16) (j : Fin 512) (r : Fin 64) : lidx_main_v9 (ix2 b j) r = ix2 b r := by
  funext a; match a with | ⟨0, _⟩ => rfl | ⟨1, _⟩ => rfl

/-- The right operand's index in the second product: row `j` of `w2`, column `r`. -/
theorem ridx9 (b : Fin 16) (j : Fin 512) (r : Fin 64) : ridx_main_v9 (ix2 b j) r = ix2 j r := by
  funext a; match a with | ⟨0, _⟩ => rfl | ⟨1, _⟩ => rfl

/-- The reference's second product at `(b, j)`: the hidden layer times `w2`'s row `j`, the factors swapped. -/
theorem v9_apply (x0 x1 : XT) (x2 : W1T) (x3 : W2T) (b : Fin 16) (j : Fin 512) :
    val_main_v9 (F := Ideal) x0 x1 x2 x3 (ix2 b j) = ∑ r : Fin 64, x3 (ix2 j r) * Cert.Spec.hidden x0 x1 x2 r b := by
  rw [val_main_v9_apply]
  refine Finset.sum_congr rfl fun r _ => ?_
  rw [lidx9, ridx9, hidden_apply, mul_comm]

/-- The reference spells the logistic function as `1 / (1 + exp (-y))`, which is the definition of `Ideal.logistic`. -/
theorem gate_apply (x0 x1 : XT) (x2 : W1T) (x3 : W2T) (b : Fin 16) (j : Fin 512) :
    val_main_v15 (F := Ideal) x0 x1 x2 x3 (ix2 b j) = Cert.Spec.gate x0 x1 x2 x3 j b := by
  rw [val_main_v15_apply, val_main_v14_apply, val_main_cst_4_apply, val_main_v13_apply, val_main_v12_apply,
    val_main_cst_3_apply, val_main_v11_apply, val_main_v10_apply, v9_apply]
  unfold Cert.Spec.gate Ideal.logistic
  rw [Ideal.ofBits_def, Ideal.ofBits_one_f32, zero_add]
  rfl

/-! ## The result -/

/-- The first array's gate is read at stacked channel `ch`: a slice from column 0, then two broadcasts over rows and columns. -/
theorem idx_fft (b : Fin 16) (ch : Fin 256) (h w : Fin 128) :
    idx_main_v16 (idx_main_v17 (idx_main_v20 (ix4 b ch h w))) = ix2 b (⟨ch.val, by omega⟩ : Fin 512) := by
  funext a; match a with | ⟨0, _⟩ => rfl | ⟨1, _⟩ => rfl

/-- The second array's gate is read at stacked channel `256 + ch`: a slice from column 256, then two broadcasts. -/
theorem idx_multi (b : Fin 16) (ch : Fin 256) (h w : Fin 128) :
    idx_main_v18 (idx_main_v19 (idx_main_v22 (ix4 b ch h w))) = ix2 b (⟨256 + ch.val, by omega⟩ : Fin 512) := by
  funext a; match a with | ⟨0, _⟩ => rfl | ⟨1, _⟩ => rfl

/-- The reference's result is the specification's, index by index. -/
theorem ref_eq
    (x0 x1 : (⟨Cert.ReferenceIdeal.S16x256x128x128, .f32⟩ : BufTy).Contents (Elt Ideal))
    (x2 : (⟨Cert.ReferenceIdeal.S64x512, .f32⟩ : BufTy).Contents (Elt Ideal))
    (x3 : (⟨Cert.ReferenceIdeal.S512x64, .f32⟩ : BufTy).Contents (Elt Ideal)) :
    Cert.ReferenceIdeal.Read.val_main_v24 (F := Ideal) x0 x1 x2 x3 = Cert.Spec.out x0 x1 x2 x3 := by
  funext i
  obtain ⟨b, ch, h, w, rfl⟩ : ∃ (b : Fin 16) (ch : Fin 256) (h w : Fin 128), i = ix4 b ch h w := ⟨_, _, _, _, eq_ix4 i⟩
  rw [Cert.Spec.out_ix4, val_main_v24_apply, val_main_v21_apply, val_main_v23_apply, val_main_v20_apply, val_main_v22_apply,
    val_main_v17_apply, val_main_v19_apply, val_main_v16_apply, val_main_v18_apply, idx_fft, idx_multi, gate_apply, gate_apply]
  rfl

end Cert.ReferenceIdeal.RefValue

end
-- ==== Proof.lean ====
/-
  The certificate: a squeeze-and-excite channel fusion. The kernel program computes the means of the 128 × 128 planes of two
  feature arrays (one kernel region, 8 channels per grid point, the results kept in two resident buffers), stacks them, runs
  a two-layer gate on the stacked means (a second region: two matrix products, a clamp at zero, the logistic function), and
  scales each feature array by its channel's gate and adds the two (a third region, 8 channels per grid point). The reference
  does the same with whole-array operations.
  * The three frames: each program runs to the end, faults nowhere and leaves its arguments unchanged — the kernel programs by
    the run of their three regions (`Hand.run_main`, one text read at both float instances), the reference by its run.
  * Nothing was rewritten by the idealization, so there is nothing to preserve.
  * Over the extended reals both programs end with the same array: the kernel's result is the pure data flow `KVal.outK` of
    its arguments (`Hand.out_eq`), which is the specification `Spec.out` (`KJoin.outK_eq`): the mean as row sums summed, the
    gate, the weighted sum; and the reference's result is `Spec.out` too (`RefValue.ref_eq`): its sum over a whole plane is the
    sum of the row sums, its matrix products are the kernel's with the factors swapped, and the logistic function is spelt
    out. No step needs the inputs to be finite: only commutativity and associativity of sums and products are used.
-/
import proofs.«178390_j16724602651214_2_alg».proof.Defs
import proofs.«178390_j16724602651214_2_alg».proof.Proof.Gen.Kernel
import proofs.«178390_j16724602651214_2_alg».proof.Proof.Gen.KernelIdeal
import proofs.«178390_j16724602651214_2_alg».proof.Proof.Gen.ReferenceIdeal
import proofs.«178390_j16724602651214_2_alg».proof.Proof.Gen.ReferenceIdeal.Read
import proofs.«178390_j16724602651214_2_alg».proof.Proof.Gen.Pre_finite_inputs
import proofs.«178390_j16724602651214_2_alg».proof.Proof.RunMain
import proofs.«178390_j16724602651214_2_alg».proof.Proof.BitsRunMain
import proofs.«178390_j16724602651214_2_alg».proof.Proof.RunValue
import proofs.«178390_j16724602651214_2_alg».proof.Proof.KJoin
import proofs.«178390_j16724602651214_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c => (h c).2) (Cert.Kernel.Hand.run_main (F := Bits) m ρ)

/-- The idealized kernel program runs and keeps its arguments. -/
theorem frame_ki : Cert.frame_KernelIdeal := fun m ρ _ =>
  (θ_run Cert.KernelIdeal.defs _ _).mono (fun _ h c => (h c).2) (Cert.KernelIdeal.Hand.run_main (F := Ideal) m ρ)

/-- The idealized reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with the same array:
    the specification's, of the arguments. -/
theorem algebraic :
    Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans ((Cert.KernelIdeal.Hand.out_eq m c).trans (Cert.KernelIdeal.KJoin.outK_eq _ _ _ _)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
